-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S_ : Shape := ⟨0, ![]⟩
abbrev S1024x192 : Shape := ⟨2, ![1024, 192]⟩
abbrev S4x4096x64 : Shape := ⟨3, ![4, 4096, 64]⟩
abbrev S1x512x1024 : Shape := ⟨3, ![1, 512, 1024]⟩
abbrev S1x512x64 : Shape := ⟨3, ![1, 512, 64]⟩
abbrev S512x1024 : Shape := ⟨2, ![512, 1024]⟩
abbrev S512x192 : Shape := ⟨2, ![512, 192]⟩
abbrev S512x64 : Shape := ⟨2, ![512, 64]⟩
abbrev S1x1024x64 : Shape := ⟨3, ![1, 1024, 64]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S1024x192, .f32⟩
  | .hbm, ⟨8, _⟩ => ⟨S1024x192, .bf16⟩
  | .hbm, ⟨9, _⟩ => ⟨S4x4096x64, .bf16⟩
  | .hbm, ⟨10, _⟩ => ⟨S4x4096x64, .bf16⟩
  | .hbm, ⟨11, _⟩ => ⟨S4x4096x64, .bf16⟩
  | .hbm, ⟨12, _⟩ => ⟨S4x4096x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x192, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S1024x64 : S_.BroadcastsInDim S1024x64 (![] : Fin 0 → Fin S1024x64.rank)
  concatenates_S1024x64_S1024x64_S1024x64_S1024x192_d1 : Shape.Concatenates [S1024x64, S1024x64, S1024x64] S1024x192 1
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S512x192_o0_0_S512x64 : S512x192.Slices ![0, 0] S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  slices_S512x192_o0_64_S512x64 : S512x192.Slices ![0, 64] S512x64
  slices_S512x192_o0_128_S512x64 : S512x192.Slices ![0, 128] S512x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  iota_S1024x1024_d0_w32 : S1024x1024.Iotas .tc 32 [0]
  iota_S1024x1024_d1_w32 : S1024x1024.Iotas .tc 32 [1]
  shapeCasts_S1024x64_S1x1024x64 : S1024x64.ShapeCasts S1x1024x64
  dot_S512x1024_S1024x192_S512x192_1_0_0_1_n_n_wf : DotDims.WF S512x1024 S1024x192 S512x192 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .bf16 = 32 ∨ (Rect.block (s := S1024x192) S1024x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x4096x64.size a
  hwx0_2 : ∀ i : grid0.Coords, EltTy.bits .bf16 = 32 ∨ (Rect.block (s := S4x4096x64) S1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x4096x64.size a
  hwx0_3 : ∀ i : grid0.Coords, EltTy.bits .bf16 = 32 ∨ (Rect.block (s := S4x4096x64) S1x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S4x4096x64.size a
  hwx0_4 : ∀ i : grid0.Coords, EltTy.bits .bf16 = 32 ∨ (Rect.block (s := S4x4096x64) S1x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S512x1024_S1024x192_S512x192_1_0_0_1_n_n : DotDims S512x1024 S1024x192 S512x192 where
  lhsContracting := [1]
  rhsContracting := [0]
  lhsNonContracting := [0]
  rhsNonContracting := [1]
  lhsBatch := []
  rhsBatch := []
  wf := dot_S512x1024_S1024x192_S512x192_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Spec.lean ====
/-
  Causal single-head attention over the extended reals, as one function of the four argument arrays.

  For a batch b, a query row i and a key row j (both in 0..4095) and a feature h (0..63):
    q, k, v   are the projections  ∑ c, x[b,·,c] · W[c,h]  of the input rows by the three weight matrices;
    the score is  (∑ h, q[b,i,h] · k[b,j,h]) · s  with  s  the scale both programs carry as the same f32 word (1/8);
    a key row after the query row (j > i) is masked to  -∞ (⊥);
    each query row's scores are normalised by the softmax  exp(score − row maximum) / ∑ exp(score − row maximum);
    the result is the softmax-weighted sum of the value rows.
  Nothing here mentions a program: both programs' results are shown equal to `out` index by index.
-/
import Idealize.ShloMosaic.PureOps.Ideal
import Idealize.ShloMosaic.Lib.ValueIdx

noncomputable section

namespace Cert.Attn

open Idealize.ShloMosaic Idealize.ShloMosaic.ValueIdx

/-- The softmax scale 64^(-1/2) = 1/8, as the f32 word both programs hold it in. -/
abbrev scale : EReal := Ideal.ofBits .f32 0x3E000000#32

/-- A projection of the input rows: `∑ c, x[b,t,c] · w[c,h]`. -/
def proj (x : Fin 4 → Fin 4096 → Fin 1024 → EReal) (w : Fin 1024 → Fin 64 → EReal)
    (b : Fin 4) (t : Fin 4096) (h : Fin 64) : EReal :=
  ∑ c : Fin 1024, x b t c * w c h

/-- The scaled score of query row `i` against key row `j`. -/
def score (q k : Fin 4 → Fin 4096 → Fin 64 → EReal) (b : Fin 4) (i j : Fin 4096) : EReal :=
  (∑ h : Fin 64, q b i h * k b j h) * scale

/-- The causal mask: a key row after the query row scores `-∞`. -/
def masked (s : Fin 4 → Fin 4096 → Fin 4096 → EReal) (b : Fin 4) (i j : Fin 4096) : EReal :=
  if j ≤ i then s b i j else ⊥

/-- The largest score of a query row. -/
def rowmax (s : Fin 4 → Fin 4096 → Fin 4096 → EReal) (b : Fin 4) (i : Fin 4096) : EReal :=
  Finset.univ.sup fun j : Fin 4096 => s b i j

/-- The softmax numerator `exp (score − row maximum)`. -/
def num (s : Fin 4 → Fin 4096 → Fin 4096 → EReal) (b : Fin 4) (i j : Fin 4096) : EReal :=
  Ideal.exp (s b i j - rowmax s b i)

/-- The softmax denominator of a query row. -/
def den (s : Fin 4 → Fin 4096 → Fin 4096 → EReal) (b : Fin 4) (i : Fin 4096) : EReal :=
  ∑ j : Fin 4096, num s b i j

/-- The softmax-weighted sum of the value rows. -/
def attend (s : Fin 4 → Fin 4096 → Fin 4096 → EReal) (v : Fin 4 → Fin 4096 → Fin 64 → EReal)
    (b : Fin 4) (i : Fin 4096) (h : Fin 64) : EReal :=
  ∑ j : Fin 4096, Ideal.div (num s b i j) (den s b i) * v b j h

/-- Causal attention of the projected rows. -/
def out (x : Fin 4 → Fin 4096 → Fin 1024 → EReal) (wq wk wv : Fin 1024 → Fin 64 → EReal)
    (b : Fin 4) (i : Fin 4096) (h : Fin 64) : EReal :=
  attend (masked (score (proj x wq) (proj x wk))) (proj x wv) b i h

/-- The argument arrays read at coordinates. -/
abbrev arr3 {n0 n1 n2 : Nat} (X : (⟨3, ![n0, n1, n2]⟩ : Shape).Idx → EReal) (a : Fin n0) (b : Fin n1) (c : Fin n2) : EReal :=
  X (ix3 a b c)
abbrev arr2 {n0 n1 : Nat} (X : (⟨2, ![n0, n1]⟩ : Shape).Idx → EReal) (a : Fin n0) (b : Fin n1) : EReal :=
  X (ix2 a b)

/-- The result array as one function of the four argument arrays: entry `(b, i, h)` is `out` of the arrays read at
    coordinates. -/
def G (X : (⟨3, ![4, 4096, 1024]⟩ : Shape).Idx → EReal) (Wq Wk Wv : (⟨2, ![1024, 64]⟩ : Shape).Idx → EReal) :
    (⟨3, ![4, 4096, 64]⟩ : Shape).Idx → EReal :=
  fun i => out (arr3 X) (arr2 Wq) (arr2 Wk) (arr2 Wv) (i 0) (i 1) (i 2)

theorem G_apply (X : (⟨3, ![4, 4096, 1024]⟩ : Shape).Idx → EReal) (Wq Wk Wv : (⟨2, ![1024, 64]⟩ : Shape).Idx → EReal)
    (b : Fin 4) (i : Fin 4096) (h : Fin 64) :
    G X Wq Wk Wv (ix3 b i h) = out (arr3 X) (arr2 Wq) (arr2 Wk) (arr2 Wv) b i h := rfl

end Cert.Attn

end
-- ==== Proof.Ref.lean ====
/-
  The reference program computes the specification.

  Each stage of the reference (its operations read one at a time by the generated module) is read at coordinates
  (b, i, j) and identified with the corresponding function of the specification: the three projections, the scaled
  score, the lower-triangle mask bit (two iota words and a signed comparison), the masked score, the row maximum (a
  fold of the maximum from minus infinity over the last axis, which is the supremum of the row), the softmax numerator
  exp (score − maximum), the denominator (zero plus the sum of the numerators), the quotient, and the weighted sum
  of the value rows.
-/
import proofs.«132881_j16904991277416_2_alg».proof.Proof.Gen.ReferenceIdeal.Read
import proofs.«132881_j16904991277416_2_alg».proof.Proof.Spec

noncomputable section

namespace Cert.RefValue

open Cert.ReferenceIdeal Cert.ReferenceIdeal.Gen Cert.ReferenceIdeal.Read Idealize.ShloMosaic Idealize.ShloMosaic.ValueIdx Cert.Attn

/-! ## Words and extended reals -/

/-- The f32 word of minus infinity is the bottom of the extended reals. -/
theorem negInf_f32 : Ideal.ofBits .f32 0xFF800000#32 = (⊥ : EReal) := by simp [Ideal.ofBits, Ideal.ieee]

/-- A natural number below 4096, as a 32-bit word, is itself as a signed integer. -/
theorem toInt_ofNat32 (n : Nat) (h : n < 4096) : (BitVec.ofNat 32 n).toInt = (n : Int) := by
  have h1 : (BitVec.ofNat 32 n).toNat = n := by rw [BitVec.toNat_ofNat]; omega
  rw [BitVec.toInt_eq_toNat_of_lt (by rw [h1]; omega), h1]

/-- The signed comparison `row + 0 ≥ column` of two iota words below 4096 is the bit of `column ≤ row`. -/
theorem sge_bit (i j : Fin 4096) :
    IntOp.cmpi .sge (IntOp.addi (BitVec.ofNat 32 i.val) 0#32) (BitVec.ofNat 32 j.val) = if j ≤ i then 1#1 else 0#1 := by
  have hi := toInt_ofNat32 i.val i.isLt
  have hj := toInt_ofNat32 j.val j.isLt
  show BitVec.ofBool ((BitVec.ofNat 32 j.val).sle (BitVec.ofNat 32 i.val + 0#32)) = _
  rw [BitVec.add_zero, BitVec.sle, hi, hj]
  by_cases h : j ≤ i
  · rw [if_pos h]
    have : ((j.val : Int) ≤ (i.val : Int)) := by exact_mod_cast h
    simp [this]
  · rw [if_neg h]
    have : ¬ ((j.val : Int) ≤ (i.val : Int)) := by
      intro h'; exact h (by exact_mod_cast h')
    simp [this]

/-! ## The generated index functions at coordinates -/

theorem lidx_v0 (b : Fin 4) (t : Fin 4096) (h : Fin 64) (k : Fin 1024) : lidx_main_v0 (ix3 b t h) k = ix3 b t k :=
  funext fun a => by match a with | ⟨0, _⟩ => rfl | ⟨1, _⟩ => rfl | ⟨2, _⟩ => rfl
theorem ridx_v0 (b : Fin 4) (t : Fin 4096) (h : Fin 64) (k : Fin 1024) : ridx_main_v0 (ix3 b t h) k = ix2 k h :=
  funext fun a => by match a with | ⟨0, _⟩ => rfl | ⟨1, _⟩ => rfl
theorem lidx_v1 (b : Fin 4) (t : Fin 4096) (h : Fin 64) (k : Fin 1024) : lidx_main_v1 (ix3 b t h) k = ix3 b t k :=
  funext fun a => by match a with | ⟨0, _⟩ => rfl | ⟨1, _⟩ => rfl | ⟨2, _⟩ => rfl
theorem ridx_v1 (b : Fin 4) (t : Fin 4096) (h : Fin 64) (k : Fin 1024) : ridx_main_v1 (ix3 b t h) k = ix2 k h :=
  funext fun a => by match a with | ⟨0, _⟩ => rfl | ⟨1, _⟩ => rfl
theorem lidx_v2 (b : Fin 4) (t : Fin 4096) (h : Fin 64) (k : Fin 1024) : lidx_main_v2 (ix3 b t h) k = ix3 b t k :=
  funext fun a => by match a with | ⟨0, _⟩ => rfl | ⟨1, _⟩ => rfl | ⟨2, _⟩ => rfl
theorem ridx_v2 (b : Fin 4) (t : Fin 4096) (h : Fin 64) (k : Fin 1024) : ridx_main_v2 (ix3 b t h) k = ix2 k h :=
  funext fun a => by match a with | ⟨0, _⟩ => rfl | ⟨1, _⟩ => rfl
theorem lidx_v3 (b : Fin 4) (i j : Fin 4096) (k : Fin 64) : lidx_main_v3 (ix3 b i j) k = ix3 b i k :=
  funext fun a => by match a with | ⟨0, _⟩ => rfl | ⟨1, _⟩ => rfl | ⟨2, _⟩ => rfl
theorem ridx_v3 (b : Fin 4) (i j : Fin 4096) (k : Fin 64) : ridx_main_v3 (ix3 b i j) k = ix3 b j k :=
  funext fun a => by match a with | ⟨0, _⟩ => rfl | ⟨1, _⟩ => rfl | ⟨2, _⟩ => rfl
theorem idx_call1_v1 (b : Fin 4) (i j : Fin 4096) : idx_main_call1_v1 (ix3 b i j) = ix2 i j :=
  funext fun a => by match a with | ⟨0, _⟩ => rfl | ⟨1, _⟩ => rfl
theorem idx_v12_v13 (b : Fin 4) (i j : Fin 4096) : idx_main_v12 (idx_main_v13 (ix3 b i j)) = ix2 b i :=
  funext fun a => by match a with | ⟨0, _⟩ => rfl | ⟨1, _⟩ => rfl
theorem idx_v17_v18 (b : Fin 4) (i j : Fin 4096) : idx_main_v17 (idx_main_v18 (ix3 b i j)) = ix2 b i :=
  funext fun a => by match a with | ⟨0, _⟩ => rfl | ⟨1, _⟩ => rfl
theorem idx_v16 (b : Fin 4) (i : Fin 4096) (k : Fin 4096) : idx_main_v16 (ix2 b i) k = ix3 b i k :=
  funext fun a => by match a with | ⟨0, _⟩ => rfl | ⟨1, _⟩ => rfl | ⟨2, _⟩ => rfl
theorem lidx_v20 (b : Fin 4) (i : Fin 4096) (h : Fin 64) (k : Fin 4096) : lidx_main_v20 (ix3 b i h) k = ix3 b i k :=
  funext fun a => by match a with | ⟨0, _⟩ => rfl | ⟨1, _⟩ => rfl | ⟨2, _⟩ => rfl
theorem ridx_v20 (b : Fin 4) (i : Fin 4096) (h : Fin 64) (k : Fin 4096) : ridx_main_v20 (ix3 b i h) k = ix3 b k h :=
  funext fun a => by match a with | ⟨0, _⟩ => rfl | ⟨1, _⟩ => rfl | ⟨2, _⟩ => rfl

/-! ## The stages at coordinates -/

section Stages

variable (x0 : (⟨S4x4096x1024, .f32⟩ : BufTy).Contents (Elt Ideal)) (x1 x2 x3 : (⟨S1024x64, .f32⟩ : BufTy).Contents (Elt Ideal))

/-- The three projections. -/
theorem v0_at (b : Fin 4) (t : Fin 4096) (h : Fin 64) :
    val_main_v0 (F := Ideal) x0 x1 (ix3 b t h) = proj (arr3 x0) (arr2 x1) b t h := by
  rw [val_main_v0_apply]
  unfold proj
  refine Finset.sum_congr rfl fun k _ => ?_
  rw [lidx_v0, ridx_v0]
theorem v1_at (b : Fin 4) (t : Fin 4096) (h : Fin 64) :
    val_main_v1 (F := Ideal) x0 x2 (ix3 b t h) = proj (arr3 x0) (arr2 x2) b t h := by
  rw [val_main_v1_apply]
  unfold proj
  refine Finset.sum_congr rfl fun k _ => ?_
  rw [lidx_v1, ridx_v1]
theorem v2_at (b : Fin 4) (t : Fin 4096) (h : Fin 64) :
    val_main_v2 (F := Ideal) x0 x3 (ix3 b t h) = proj (arr3 x0) (arr2 x3) b t h := by
  rw [val_main_v2_apply]
  unfold proj
  refine Finset.sum_congr rfl fun k _ => ?_
  rw [lidx_v2, ridx_v2]

/-- The scaled score. -/
theorem v5_at (b : Fin 4) (i j : Fin 4096) :
    val_main_v5 (F := Ideal) x0 x1 x2 (ix3 b i j) = score (proj (arr3 x0) (arr2 x1)) (proj (arr3 x0) (arr2 x2)) b i j := by
  rw [val_main_v5_apply, val_main_v3_apply, val_main_v4_apply, val_main_cst_apply]
  unfold score
  refine congrArg (· * scale) (Finset.sum_congr rfl fun k _ => ?_)
  rw [lidx_v3, ridx_v3, v0_at, v1_at]

/-- The lower-triangle bit. -/
theorem tril_at (i j : Fin 4096) : val_main_v7 (F := Ideal) (ix2 i j) = if j ≤ i then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  show Scalar.select (IntOp.cmpi .sge (IntOp.addi (BitVec.ofNat 32 i.val) 0#32) (BitVec.ofNat 32 j.val)) 1#1 0#1 = _
  rw [sge_bit]
  by_cases h : j ≤ i
  · rw [if_pos h, select_one]
  · rw [if_neg h, select_zero]

/-- The masked score. -/
theorem v8_at (b : Fin 4) (i j : Fin 4096) :
    val_main_v8 (F := Ideal) x0 x1 x2 (ix3 b i j)
      = masked (score (proj (arr3 x0) (arr2 x1)) (proj (arr3 x0) (arr2 x2))) b i j := by
  rw [val_main_v8_apply, val_main_call1_v1_apply, idx_call1_v1, tril_at, v5_at, val_main_call1_v2_apply,
    val_main_call1_v0_apply, val_main_cst_0_apply]
  unfold masked
  by_cases h : j ≤ i
  · rw [if_pos h, if_pos h, select_one]
  · rw [if_neg h, if_neg h, select_zero]; exact negInf_f32

end Stages

/-! ## The row maximum -/

/-- A fold of `max` from the bottom over a finite type is the supremum. -/
theorem fold_max_bot_eq_sup {n : Nat} (f : Fin n → EReal) :
    (Finset.univ : Finset (Fin n)).fold max (⊥ : EReal) f = Finset.univ.sup f := rfl

/-- The reduced index `(b, i)` with the coordinate `k` put back on the last axis. -/
theorem lift_ix3 (hr : S4x4096x4096.Reduces [2] S4x4096) (b : Fin 4) (i : Fin 4096) (k : Fin (S4x4096x4096.size 2)) :
    hr.lift (ix2 b i) k = ix3 b i (⟨k.val, k.isLt⟩ : Fin 4096) := by
  funext c; apply Fin.ext
  match c with
  | ⟨0, _⟩ => rfl
  | ⟨1, _⟩ => rfl
  | ⟨2, _⟩ => rfl

/-- The host's maximum over the last axis from minus infinity, read at `(b, i)`, is the supremum of the row. -/
theorem reduce_max_at (y : FVec Ideal S4x4096x4096 .f32) (b : Fin 4) (i : Fin 4096) :
    Host.reduce (FloatOps.maximumf (F := Ideal) (φ := .f32)) y (val_main_cst_1 (F := Ideal)) reducesTo_S4x4096x4096_S4x4096_d2 h_S_ (ix2 b i)
      = Finset.univ.sup fun j : Fin 4096 => y (ix3 b i j) := by
  have hr : S4x4096x4096.Reduces [2] S4x4096 := by decide
  rw [Host.reduce_eq_fold_single FloatOps.maximumf y _ reducesTo_S4x4096x4096_S4x4096_d2 hr h_S_]
  have hf : (y ∘ hr.lift (ix2 b i)) = fun k : Fin 4096 => y (ix3 b i k) :=
    funext fun k => congrArg y (lift_ix3 hr b i k)
  rw [hf, val_main_cst_1_apply]
  show (Finset.univ : Finset (Fin 4096)).fold max (Ideal.ofBits .f32 0xFF800000#32) (fun k : Fin 4096 => y (ix3 b i k)) = _
  rw [negInf_f32]
  exact fold_max_bot_eq_sup _

section Softmax

variable (x0 : (⟨S4x4096x1024, .f32⟩ : BufTy).Contents (Elt Ideal)) (x1 x2 x3 : (⟨S1024x64, .f32⟩ : BufTy).Contents (Elt Ideal))

/-- The masked scaled scores of the projected rows. -/
abbrev S : Fin 4 → Fin 4096 → Fin 4096 → EReal :=
  masked (score (proj (arr3 x0) (arr2 x1)) (proj (arr3 x0) (arr2 x2)))

/-- The row maximum as the reduce computes it. -/
theorem v9_at (b : Fin 4) (i : Fin 4096) :
    val_main_v9 (F := Ideal) x0 x1 x2 (ix2 b i) = rowmax (S x0 x1 x2) b i := by
  unfold val_main_v9
  rw [reduce_max_at]
  unfold rowmax
  exact congrArg (Finset.univ.sup) (funext fun j => v8_at x0 x1 x2 b i j)

/-- The maximum against minus infinity changes nothing. -/
theorem v11_at (b : Fin 4) (i : Fin 4096) :
    val_main_v11 (F := Ideal) x0 x1 x2 (ix2 b i) = rowmax (S x0 x1 x2) b i := by
  rw [val_main_v11_apply, val_main_v10_apply, val_main_cst_2_apply, v9_at]
  show max (Ideal.ofBits .f32 0xFF800000#32) _ = _
  rw [negInf_f32]
  exact max_bot_left _

/-- The row maximum broadcast along the row. -/
theorem v13_at (b : Fin 4) (i j : Fin 4096) :
    val_main_v13 (F := Ideal) x0 x1 x2 (ix3 b i j) = rowmax (S x0 x1 x2) b i := by
  rw [val_main_v13_apply, val_main_v12_apply, idx_v12_v13, v11_at]

/-- The softmax numerator. -/
theorem v15_at (b : Fin 4) (i j : Fin 4096) :
    val_main_v15 (F := Ideal) x0 x1 x2 (ix3 b i j) = num (S x0 x1 x2) b i j := by
  rw [val_main_v15_apply, val_main_v14_apply, v8_at, v13_at]
  rfl

/-- The softmax denominator. -/
theorem v16_at (b : Fin 4) (i : Fin 4096) :
    val_main_v16 (F := Ideal) x0 x1 x2 (ix2 b i) = den (S x0 x1 x2) b i := by
  rw [val_main_v16_apply, val_main_cst_3_apply]
  show Ideal.ofBits .f32 0x00000000#32 + _ = _
  rw [Ideal.ofBits_zero_f32, zero_add]
  unfold den
  refine Finset.sum_congr rfl fun k _ => ?_
  rw [idx_v16, v15_at]

/-- The denominator broadcast along the row. -/
theorem v18_at (b : Fin 4) (i j : Fin 4096) :
    val_main_v18 (F := Ideal) x0 x1 x2 (ix3 b i j) = den (S x0 x1 x2) b i := by
  rw [val_main_v18_apply, val_main_v17_apply, idx_v17_v18, v16_at]

/-- The softmax weight. -/
theorem v19_at (b : Fin 4) (i j : Fin 4096) :
    val_main_v19 (F := Ideal) x0 x1 x2 (ix3 b i j) = Ideal.div (num (S x0 x1 x2) b i j) (den (S x0 x1 x2) b i) := by
  rw [val_main_v19_apply, v15_at, v18_at]
  rfl

/-- The reference's result at coordinates is the specification's. -/
theorem v20_at (b : Fin 4) (i : Fin 4096) (h : Fin 64) :
    val_main_v20 (F := Ideal) x0 x1 x2 x3 (ix3 b i h) = out (arr3 x0) (arr2 x1) (arr2 x2) (arr2 x3) b i h := by
  rw [val_main_v20_apply]
  unfold out attend
  refine Finset.sum_congr rfl fun k _ => ?_
  rw [lidx_v20, ridx_v20, v19_at, v2_at]

/-- The reference program's result array is the specification `G` of the four argument arrays. -/
theorem ref_eq : val_main_v20 (F := Ideal) x0 x1 x2 x3 = G x0 x1 x2 x3 := by
  funext i
  obtain ⟨b, r, h, rfl⟩ : ∃ (b : Fin 4) (r : Fin 4096) (h : Fin 64), i = ix3 b r h := ⟨i 0, i 1, i 2, eq_ix3 i⟩
  rw [G_apply]
  exact v20_at x0 x1 x2 x3 b r h

end Softmax

end Cert.RefValue

end
-- ==== Proof.KI.Qkv.lean ====
/-
  Region 0 of @main (the q/k/v projection, one matmul per grid point), at a parameter V: the TensorCore's buffer
  contents when the region is entered.  Per point the body reads the whole block of the input rows and the whole
  weight block, and stores three whole output blocks (the three column bands of the product, rounded to bf16).
  Each output buffer is also read once before it is overwritten; that read is dead, so the outputs may hold
  anything when the body starts.
-/
import proofs.«132881_j16904991277416_2_alg».proof.Proof.Gen.KernelIdeal.Launch
import proofs.«132881_j16904991277416_2_alg».proof.Proof.Gen.KernelIdeal.Skeleton
import proofs.«132881_j16904991277416_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the input rows) holds its block at every point, fetched there or not: where it is not fetched its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weights, one block for the whole grid) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x512x1024 := Rect.unit (s := S1x512x1024) ![0, 0, 0] S1x512x1024.size inb_S1x512x1024_S1x512x1024_0_0_0
abbrev r0_1 : Rect S1024x192 := Rect.unit (s := S1024x192) ![0, 0] S1024x192.size inb_S1024x192_S1024x192_0_0
abbrev r0_2 : Rect S1x512x64 := Rect.unit (s := S1x512x64) ![0, 0, 0] S1x512x64.size inb_S1x512x64_S1x512x64_0_0_0

/-! ## What the body leaves in each output window's buffer -/

/-- Window 2's buffer after the body (the first column band of the product), from the input windows' blocks. -/
def out0_2 (x0 : Vec F S1x512x1024 .f32) (x1 : Vec F S1024x192 .bf16) : Vec F S1x512x64 .bf16 :=
  View.canon [⟨r0_2, k0_pay2 (View.ld x0 r0_0) (View.ld x1 r0_1)⟩]
/-- Window 3's buffer after the body (the second column band). -/
def out0_3 (x0 : Vec F S1x512x1024 .f32) (x1 : Vec F S1024x192 .bf16) : Vec F S1x512x64 .bf16 :=
  View.canon [⟨r0_2, k0_pay3 (View.ld x0 r0_0) (View.ld x1 r0_1)⟩]
/-- Window 4's buffer after the body (the third column band). -/
def out0_4 (x0 : Vec F S1x512x1024 .f32) (x1 : Vec F S1024x192 .bf16) : Vec F S1x512x64 .bf16 :=
  View.canon [⟨r0_2, k0_pay4 (View.ld x0 r0_0) (View.ld x1 r0_1)⟩]

/-- One whole-buffer store covers the buffer. -/
theorem cover0_2 (p0 : Vec F S1x512x64 .bf16) (y : S1x512x64.Idx) :
    ∃ pc ∈ ([⟨r0_2, p0⟩] : List (View.Piece (Elt F) S1x512x64 .bf16)), y ∈ pc.1.set :=
  View.cover_of_tiled [⟨r0_2, p0⟩] S1x512x64.size (by rfl) y

/-! ## The body's triple -/

set_option maxHeartbeats 1000000 in
/-- The kernel body on whole staging memrefs, the inputs' at contents x0, x1 and the outputs' at anything, runs to
    the continuation holding the inputs' as they were and each output's at out0_W of the inputs'. -/
theorem sound_kernel0 (c : Dev nD) (E : Set ℕ) (i : grid0.Coords)
    (arg2 : Memref sig .tc .vmem S1x512x1024 .f32) (harg2 : arg2.IsWhole) (arg3 : Memref sig .tc .vmem S1024x192 .bf16) (harg3 : arg3.IsWhole)
    (arg4 : Memref sig .tc .vmem S1x512x64 .bf16) (harg4 : arg4.IsWhole) (arg5 : Memref sig .tc .vmem S1x512x64 .bf16) (harg5 : arg5.IsWhole)
    (arg6 : Memref sig .tc .vmem S1x512x64 .bf16) (harg6 : arg6.IsWhole)
    (x0 : Vec F S1x512x1024 .f32) (x1 : Vec F S1024x192 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-! ## The pipeline's proof data -/

/-- The proof data of pipeline 0 on core c: the arrays as the region finds them; after the body at point t each
    input's buffer at its block and each output's at out0_W of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.FlashRuns.lean ====
/- Region 1 (the flash-attention call): what the seven control cases' runs share. The windows' blocks read off the
   region-entry contents, the input windows' staging buffers at their blocks, the four branch conditions of the body in
   closed form over the grid, where the output window is idle, the staging and scratch memrefs, and the class invariant
   with the three scratch buffers split off. -/
import proofs.«132881_j16904991277416_2_alg».proof.Proof.Gen.KernelIdeal.Launch
import proofs.«132881_j16904991277416_2_alg».proof.Proof.Gen.KernelIdeal.Skeleton
import proofs.«132881_j16904991277416_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (its block index
    is the minimum of two grid coordinates: a function of the point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions, over the grid point (b, qi, ki) = coordinates (0, 1, 2); the point's position
    is 16·b + 4·qi + ki -/

/-- ki = 0: the first key tile of a query tile (the scratch is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- ki < qi: a key tile strictly below the diagonal (no mask). -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val % 16 / 4 :=
  (by decide +kernel : ∀ t : Fin grid1.N, cond1_1 (grid1.coords t) ↔ t.val % 4 < t.val % 16 / 4)

/-- ki = qi: the diagonal tile (causal mask). -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val % 16 / 4 :=
  (by decide +kernel : ∀ t : Fin grid1.N, cond1_2 (grid1.coords t) ↔ t.val % 4 = t.val % 16 / 4)

/-- ki = 3: the last key tile (the output block is written). -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_3 (grid1.coords t) → cfg1.idle 3 (grid1.coords t) = true := by decide +kernel
/-- and its block is not written back there. -/
theorem noFlush1_3 : ∀ t : Fin cfg1.N, ¬cond1_3 (grid1.coords t) → (cfg1.win 3).flush t = false := by decide +kernel
/-- At the last key tile it is live. -/
theorem liveAt1_3 : ∀ t : Fin cfg1.N, cond1_3 (grid1.coords t) → cfg1.idle 3 (grid1.coords t) = false := by decide +kernel

/-! ## The staging and scratch memrefs -/

/-- One staging buffer of the output window, through which its contents are stated. -/
abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The scratch operands: the running row maximum, the running row sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The class invariant with the scratch split off -/

/-- The scoped buffers of the core that are neither a staging buffer of this call nor its scratch: the other call's
    staging buffers, each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant: the three scratch buffers owned at some contents, the other scoped buffers, the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  unfold Pipeline.ΦA Rest1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, S0, S1, S2⟩, Hg⟩
    isplitl [S0 S1 S2]
    · isplitl [S0]; · iexact S0
      isplitl [S1]; · iexact S1
      iexact S2
    isplitl [A1 A2 A3 A4 A5 A6 A7 A8 A9]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    iexact Hg
  · show (_ : sProp 𝕄) ⊢ _
    iintro ⟨⟨S0, S1, S2⟩, ⟨A1, A2, A3, A4, A5, A6, A7, A8, A9⟩, Hg⟩
    isplitl [A1 A2 A3 A4 A5 A6 A7 A8 A9 S0 S1 S2]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [S0]; · iexact S0
      isplitl [S1]; · iexact S1
      iexact S2
    iexact Hg

end Cert.KernelIdeal.Hand

end
-- ==== Proof.KI.FlashRunA.lean ====
/- Region 1, control case A (ki = 0 = qi: the scratch is reset, then the masked diagonal tile is accumulated; the output
   window is idle): the body's run on whole staging memrefs. The pieces each scratch buffer ends with are the witness. -/
import proofs.«132881_j16904991277416_2_alg».proof.Proof.KI.FlashRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (ki = 0, ki = qi, ki ≠ 3). The inputs' buffers at their contents and the idle output's at `xi3` are handed
    back untouched; each scratch buffer, taken at anything, ends with its reset store and then the tile's store. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunB.lean ====
/- Region 1, control case B (qi < ki < 3: a key tile above the diagonal, not the last): no branch of the body is taken.
   Every buffer is handed back as it was found. -/
import proofs.«132881_j16904991277416_2_alg».proof.Proof.KI.FlashRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (ki ≠ 0, ki > qi, ki ≠ 3): nothing is loaded or stored; the carried scratch contents `xs·` and the idle
    output's `xi3` come back untouched. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], [], [], [], fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashRunC.lean ====
/- Region 1, control case C (qi < ki = 3: the last key tile, above the diagonal): only the final branch is taken. The
   output block is stored as the running weighted sum divided by the running row sum; the scratch is read, not written. -/
import proofs.«132881_j16904991277416_2_alg».proof.Proof.KI.FlashRunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (ki ≠ 0, ki > qi, ki = 3): the output's buffer, taken at anything, ends with one store; the carried scratch
    contents `xs·` come back untouched. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, [], [], [], fun E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashRunD.lean ====
/- Region 1, control case D (ki = 0 < qi: the scratch is reset, then an unmasked tile below the diagonal is accumulated;
   the output window is idle): the body's run on whole staging memrefs. -/
import proofs.«132881_j16904991277416_2_alg».proof.Proof.KI.FlashRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case D (ki = 0, ki < qi, ki ≠ 3). The inputs' buffers at their contents and the idle output's at `xi3` are handed
    back untouched; each scratch buffer, taken at anything, ends with its reset store and then the tile's store. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunE.lean ====
/- Region 1, control case E (0 < ki = qi < 3: the masked diagonal tile is accumulated over the carried scratch; the output window is idle): the body's run on whole staging memrefs. -/
import proofs.«132881_j16904991277416_2_alg».proof.Proof.KI.FlashRunD

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case E (ki ≠ 0, ki = qi, ki ≠ 3). The inputs' buffers at their contents and the idle output's at `xi3` are handed back untouched;
    each scratch buffer, taken at the contents `xs·` the point before left, ends with the tile's store. -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunF.lean ====
/- Region 1, control case F (0 < ki < qi: an unmasked tile below the diagonal is accumulated over the carried scratch; the output window is idle): the body's run on whole staging memrefs. -/
import proofs.«132881_j16904991277416_2_alg».proof.Proof.KI.FlashRunE

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case F (ki ≠ 0, ki < qi, ki ≠ 3). The inputs' buffers at their contents and the idle output's at `xi3` are handed back untouched;
    each scratch buffer, taken at the contents `xs·` the point before left, ends with the tile's store. -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunG.lean ====
/- Region 1, control case G (ki = qi = 3: the last key tile is the diagonal one): the masked diagonal tile is accumulated
   over the carried scratch, then the output block is stored as the weighted sum divided by the row sum. -/
import proofs.«132881_j16904991277416_2_alg».proof.Proof.KI.FlashRunF

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case G (ki ≠ 0, ki = qi, ki = 3). The inputs' buffers are handed back untouched; each scratch buffer, taken at the
    contents `xs·` the point before left, ends with the tile's store; the output's buffer, taken at anything, ends with one store. -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, ?_, fun E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Flash.lean ====
/- Region 1 (the flash-attention call) at the region-entry contents `V`: what each control case leaves in the output's
   staging buffer and in the three scratch buffers (with the covers), the same point by point (`outsAt1`), the invariant
   carrying the scratch between points, the proof data, the body obligation by cases on the closed forms, and the
   invariant's entry and exit. -/
import proofs.«132881_j16904991277416_2_alg».proof.Proof.KI.FlashRunG

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Case A's pieces for scratch 0 (the running row maximum) cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1024x1.size (by sl_kernel_rfl) y

/-- What case A leaves in scratch 0 (the running row maximum): its pieces read back over junk. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).2.1)

/-- Case A's pieces for scratch 1 (the running row sum) cover it. -/
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1024x1.size (by sl_kernel_rfl) y

/-- What case A leaves in scratch 1 (the running row sum): its pieces read back over junk. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.2.1)

/-- Case A's pieces for scratch 2 (the running weighted sum) cover it. -/
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1024x64.size (by sl_kernel_rfl) y

/-- What case A leaves in scratch 2 (the running weighted sum): its pieces read back over junk. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.2.1)

/-- Case D's pieces for scratch 0 (the running row maximum) cover it. -/
theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_D c i arg3 harg3 arg4 harg4 arg5 harg5 arg6 harg6 arg7 harg7 arg8 harg8 arg9 harg9 hc0 hc1 hc2 hc3 x0 x1 x2).2.1, y ∈ pc.1.set :=
  View.cover_of_tiledL (kernelRun1_D c i arg3 harg3 arg4 harg4 arg5 harg5 arg6 harg6 arg7 harg7 arg8 harg8 arg9 harg9 hc0 hc1 hc2 hc3 x0 x1 x2).2.1 S1024x1.size (by sl_kernel_rfl) y

/-- What case D leaves in scratch 0 (the running row maximum): its pieces read back over junk. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2).2.1)

/-- Case D's pieces for scratch 1 (the running row sum) cover it. -/
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_D c i arg3 harg3 arg4 harg4 arg5 harg5 arg6 harg6 arg7 harg7 arg8 harg8 arg9 harg9 hc0 hc1 hc2 hc3 x0 x1 x2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.1 S1024x1.size (by sl_kernel_rfl) y

/-- What case D leaves in scratch 1 (the running row sum): its pieces read back over junk. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2).2.2.1)

/-- Case D's pieces for scratch 2 (the running weighted sum) cover it. -/
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x64.Idx) :
    ∃ pc ∈ (kernelRun1_D c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.2.1 S1024x64.size (by sl_kernel_rfl) y

/-- What case D leaves in scratch 2 (the running weighted sum): its pieces read back over junk. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2).2.2.2.1)

/-- Case E's pieces for scratch 0 (the running row maximum) cover it. -/
theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case E leaves in scratch 0 (the running row maximum): its pieces read back over junk. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)

/-- Case E's pieces for scratch 1 (the running row sum) cover it. -/
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case E leaves in scratch 1 (the running row sum): its pieces read back over junk. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)

/-- Case E's pieces for scratch 2 (the running weighted sum) cover it. -/
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case E leaves in scratch 2 (the running weighted sum): its pieces read back over junk. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)

/-- Case F's pieces for scratch 0 (the running row maximum) cover it. -/
theorem scover1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case F leaves in scratch 0 (the running row maximum): its pieces read back over junk. -/
def sout1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_F c i arg3 harg3 arg4 harg4 arg5 harg5 arg6 harg6 arg7 harg7 arg8 harg8 arg9 harg9 hc0 hc1 hc2 hc3 x0 x1 x2 xs0 xs1 xs2).2.1)

/-- Case F's pieces for scratch 1 (the running row sum) cover it. -/
theorem scover1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case F leaves in scratch 1 (the running row sum): its pieces read back over junk. -/
def sout1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_F c i arg3 harg3 arg4 harg4 arg5 harg5 arg6 harg6 arg7 harg7 arg8 harg8 arg9 harg9 hc0 hc1 hc2 hc3 x0 x1 x2 xs0 xs1 xs2).2.2.1)

/-- Case F's pieces for scratch 2 (the running weighted sum) cover it. -/
theorem scover1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case F leaves in scratch 2 (the running weighted sum): its pieces read back over junk. -/
def sout1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_F c i arg3 harg3 arg4 harg4 arg5 harg5 arg6 harg6 arg7 harg7 arg8 harg8 arg9 harg9 hc0 hc1 hc2 hc3 x0 x1 x2 xs0 xs1 xs2).2.2.2.1)

/-- Case G's pieces for scratch 0 (the running row maximum) cover it. -/
theorem scover1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case G leaves in scratch 0 (the running row maximum): its pieces read back over junk. -/
def sout1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_G c i arg3 harg3 arg4 harg4 arg5 harg5 arg6 harg6 arg7 harg7 arg8 harg8 arg9 harg9 hc0 hc1 hc2 hc3 x0 x1 x2 xs0 xs1 xs2).2.1)

/-- Case G's pieces for scratch 1 (the running row sum) cover it. -/
theorem scover1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case G leaves in scratch 1 (the running row sum): its pieces read back over junk. -/
def sout1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_G c i arg3 harg3 arg4 harg4 arg5 harg5 arg6 harg6 arg7 harg7 arg8 harg8 arg9 harg9 hc0 hc1 hc2 hc3 x0 x1 x2 xs0 xs1 xs2).2.2.1)

/-- Case G's pieces for scratch 2 (the running weighted sum) cover it. -/
theorem scover1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case G leaves in scratch 2 (the running weighted sum): its pieces read back over junk. -/
def sout1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_G c i arg3 harg3 arg4 harg4 arg5 harg5 arg6 harg6 arg7 harg7 arg8 harg8 arg9 harg9 hc0 hc1 hc2 hc3 x0 x1 x2 xs0 xs1 xs2).2.2.2.1)

/-- Case C's one store into the output's staging buffer covers it. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What case C leaves in the output's staging buffer: its piece read back over junk. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 hc3 x0 x1 x2 xs0 xs1 xs2).1)

/-- Case G's one store into the output's staging buffer covers it. -/
theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What case G leaves in the output's staging buffer: its piece read back over junk. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-- At a point where the output window is idle nothing is stored into its staging buffer: a placeholder (junk read
    back) that nothing consults, the window being neither written back there nor read at the next point. -/
def out1_idle_3 : Vec F S1x1024x64 .f32 :=
  VO1_3.read (Elt F) (VO1_3.writes (Elt F) VO1_3.junk ([] : List (View.Piece (Elt F) S1x1024x64 .f32)))

section Regions
variable (V : (c : Dev nD) → (b : Ref sig .tc) → Buf (Elt F) ((c : Thread nD τ).loc b))

/-! ## What the output's staging buffer and the three scratch buffers hold after the body at a point, case by case -/

/-- Case A at point `t` (ki = 0 = qi: reset, then the diagonal tile). -/
def at1_A (c : Dev nD) (t : Fin cfg1.N) (h0 : t.val % 4 = 0) (h1 : ¬t.val % 4 < t.val % 16 / 4) (h2 : t.val % 4 = t.val % 16 / 4) (h3 : ¬t.val % 4 = 3) :
    Vec F S1x1024x64 .f32 × Vec F S1024x1 .f32 × Vec F S1024x1 .f32 × Vec F S1024x64 .f32 :=
  (out1_idle_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t))

/-- Case B at point `t` (qi < ki < 3: nothing happens; the scratch is carried through), over what the point before left (`p`). -/
def at1_B (c : Dev nD) (t : Fin cfg1.N) (h0 : ¬t.val % 4 = 0) (h1 : ¬t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   p.2.1,
   p.2.2.1,
   p.2.2.2)

/-- Case C at point `t` (qi < ki = 3: the output block is stored; the scratch is carried through), over what the point before left (`p`). -/
def at1_C (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) p.2.1 p.2.2.1 p.2.2.2,
   p.2.1,
   p.2.2.1,
   p.2.2.2)

/-- Case D at point `t` (ki = 0 < qi: reset, then a plain tile). -/
def at1_D (c : Dev nD) (t : Fin cfg1.N) (h0 : t.val % 4 = 0) (h1 : t.val % 4 < t.val % 16 / 4) (h2 : ¬t.val % 4 = t.val % 16 / 4) (h3 : ¬t.val % 4 = 3) :
    Vec F S1x1024x64 .f32 × Vec F S1024x1 .f32 × Vec F S1024x1 .f32 × Vec F S1024x64 .f32 :=
  (out1_idle_3,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t),
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t),
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t))

/-- Case E at point `t` (0 < ki = qi < 3: the diagonal tile over the carried scratch), over what the point before left (`p`). -/
def at1_E (c : Dev nD) (t : Fin cfg1.N) (h0 : ¬t.val % 4 = 0) (h1 : ¬t.val % 4 < t.val % 16 / 4) (h2 : t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2,
   sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2,
   sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2)

/-- Case F at point `t` (0 < ki < qi: a plain tile over the carried scratch), over what the point before left (`p`). -/
def at1_F (c : Dev nD) (t : Fin cfg1.N) (h0 : ¬t.val % 4 = 0) (h1 : t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2,
   sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2,
   sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2)

/-- Case G at point `t` (ki = qi = 3: the diagonal tile over the carried scratch, then the output block), over what the point before left (`p`). -/
def at1_G (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2)

/-! ## What the buffers hold after each point -/

/-- THE ACCUMULATION. What the output's staging buffer and the three scratch buffers hold after the body at position `n`:
    the case the closed forms select at `n`, run at the point's memrefs and input blocks, the carried scratch at what
    this leaves at `n - 1`. An assignment of the conditions no point meets is no case. -/
def outsAt1 (c : Dev nD) : (n : ℕ) → n < cfg1.N → Vec F S1x1024x64 .f32 × Vec F S1024x1 .f32 × Vec F S1024x1 .f32 × Vec F S1024x64 .f32
  | 0, hn => at1_A V c ⟨0, hn⟩ (Nat.zero_mod _) (by show ¬ 0 % 4 < 0 % 16 / 4; decide) (by show 0 % 4 = 0 % 16 / 4; decide) (by show ¬ 0 % 4 = 3; decide)
  | n + 1, hn =>
    if h0 : (n + 1) % 4 = 0 then
      if h1 : (n + 1) % 4 < (n + 1) % 16 / 4 then
        if h2 : (n + 1) % 4 = (n + 1) % 16 / 4 then False.elim (by omega)
        else if h3 : (n + 1) % 4 = 3 then False.elim (by omega)
        else at1_D V c ⟨n + 1, hn⟩ h0 h1 h2 h3
      else
        if h2 : (n + 1) % 4 = (n + 1) % 16 / 4 then
          if h3 : (n + 1) % 4 = 3 then False.elim (by omega)
          else at1_A V c ⟨n + 1, hn⟩ h0 h1 h2 h3
        else False.elim (by omega)
    else
      if h1 : (n + 1) % 4 < (n + 1) % 16 / 4 then
        if h2 : (n + 1) % 4 = (n + 1) % 16 / 4 then False.elim (by omega)
        else if h3 : (n + 1) % 4 = 3 then False.elim (by omega)
        else at1_F V c ⟨n + 1, hn⟩ h0 h1 h2 h3 (outsAt1 c n (Nat.lt_of_succ_lt hn))
      else
        if h2 : (n + 1) % 4 = (n + 1) % 16 / 4 then
          if h3 : (n + 1) % 4 = 3 then at1_G V c ⟨n + 1, hn⟩ h0 h1 h2 h3 (outsAt1 c n (Nat.lt_of_succ_lt hn))
          else at1_E V c ⟨n + 1, hn⟩ h0 h1 h2 h3 (outsAt1 c n (Nat.lt_of_succ_lt hn))
        else
          if h3 : (n + 1) % 4 = 3 then at1_C V c ⟨n + 1, hn⟩ h0 h1 h2 h3 (outsAt1 c n (Nat.lt_of_succ_lt hn))
          else at1_B c ⟨n + 1, hn⟩ h0 h1 h2 h3 (outsAt1 c n (Nat.lt_of_succ_lt hn))

/-- `outsAt1` at a point of case A. -/
theorem outsAt1_A (c : Dev nD) (t : Fin cfg1.N) (h0 : t.val % 4 = 0) (h1 : ¬t.val % 4 < t.val % 16 / 4) (h2 : t.val % 4 = t.val % 16 / 4) (h3 : ¬t.val % 4 = 3) :
    outsAt1 V c t.val t.isLt = at1_A V c t h0 h1 h2 h3 := by
  obtain ⟨n, hn⟩ := t
  cases n with
  | zero => exact rfl
  | succ n => exact (dif_pos h0).trans ((dif_neg h1).trans ((dif_pos h2).trans ((dif_neg h3).trans rfl)))

/-- `outsAt1` at a point of case B, over what the point before left. -/
theorem outsAt1_B (c : Dev nD) (t : Fin cfg1.N) (h0 : ¬t.val % 4 = 0) (h1 : ¬t.val % 4 < t.val % 16 / 4) (h2 : ¬t.val % 4 = t.val % 16 / 4) (h3 : ¬t.val % 4 = 3) :
    outsAt1 V c t.val t.isLt = at1_B c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans ((dif_neg h3).trans rfl)))

/-- `outsAt1` at a point of case C, over what the point before left. -/
theorem outsAt1_C (c : Dev nD) (t : Fin cfg1.N) (h0 : ¬t.val % 4 = 0) (h1 : ¬t.val % 4 < t.val % 16 / 4) (h2 : ¬t.val % 4 = t.val % 16 / 4) (h3 : t.val % 4 = 3) :
    outsAt1 V c t.val t.isLt = at1_C V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans ((dif_pos h3).trans rfl)))

/-- `outsAt1` at a point of case D. -/
theorem outsAt1_D (c : Dev nD) (t : Fin cfg1.N) (h0 : t.val % 4 = 0) (h1 : t.val % 4 < t.val % 16 / 4) (h2 : ¬t.val % 4 = t.val % 16 / 4) (h3 : ¬t.val % 4 = 3) :
    outsAt1 V c t.val t.isLt = at1_D V c t h0 h1 h2 h3 := by
  obtain ⟨n, hn⟩ := t
  cases n with
  | zero => exact absurd h1 (by show ¬ 0 % 4 < 0 % 16 / 4; decide)
  | succ n => exact (dif_pos h0).trans ((dif_pos h1).trans ((dif_neg h2).trans ((dif_neg h3).trans rfl)))

/-- `outsAt1` at a point of case E, over what the point before left. -/
theorem outsAt1_E (c : Dev nD) (t : Fin cfg1.N) (h0 : ¬t.val % 4 = 0) (h1 : ¬t.val % 4 < t.val % 16 / 4) (h2 : t.val % 4 = t.val % 16 / 4) (h3 : ¬t.val % 4 = 3) :
    outsAt1 V c t.val t.isLt = at1_E V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans ((dif_neg h3).trans rfl)))

/-- `outsAt1` at a point of case F, over what the point before left. -/
theorem outsAt1_F (c : Dev nD) (t : Fin cfg1.N) (h0 : ¬t.val % 4 = 0) (h1 : t.val % 4 < t.val % 16 / 4) (h2 : ¬t.val % 4 = t.val % 16 / 4) (h3 : ¬t.val % 4 = 3) :
    outsAt1 V c t.val t.isLt = at1_F V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans ((dif_neg h3).trans rfl)))

/-- `outsAt1` at a point of case G, over what the point before left. -/
theorem outsAt1_G (c : Dev nD) (t : Fin cfg1.N) (h0 : ¬t.val % 4 = 0) (h1 : ¬t.val % 4 < t.val % 16 / 4) (h2 : t.val % 4 = t.val % 16 / 4) (h3 : t.val % 4 = 3) :
    outsAt1 V c t.val t.isLt = at1_G V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans ((dif_pos h3).trans rfl)))

/-- The region invariant before position `n`: before the first point the class's (every scratch at anything); afterwards
    the three scratch buffers at what the point before left in them, the other scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Rest1 (F := F) c ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The inputs' buffers are left at their blocks. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- Where it is live, the output's buffer is left at `outsAt1`'s first component. -/
theorem leaves1_3_live (c : Dev nD) (t : Fin cfg1.N) (h3 : t.val % 4 = 3) : (dat1 V c).leavesExact 3 t = owns (c : Thread nD τ) (ms1_3 t) fullShare (outsAt1 V c t.val t.isLt).1 := by
  rw [show (dat1 V c).leavesExact 3 t = owns (c : Thread nD τ) (ms1_3 t) fullShare ((dat1 V c).after 3 t) from by
    unfold Dat.leavesExact; rw [liveAt1_3 t ((hcond1_3 t).mpr h3)], after1_3]
/-- Where it is idle, the output's buffer is handed back as found. -/
theorem leaves1_3_idle (c : Dev nD) (t : Fin cfg1.N) (h3 : ¬t.val % 4 = 3) : (dat1 V c).leavesExact 3 t = iprop(∃ d, owns (c : Thread nD τ) (ms1_3 t) fullShare ((dat1 V c).before 3 t d)) :=
  Dat.leavesExact_idle (dat1 V c) 3 t (idleAt1_3 t (fun h => h3 ((hcond1_3 t).mp h))) (noFlush1_3 t (fun h => h3 ((hcond1_3 t).mp h)))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of case A (ki = 0 = qi: reset, then the diagonal tile): the inputs' memrefs hold their blocks, the invariant hands the run the
    scratch, the run applies, and the invariant takes the scratch back at this point's contents. -/
theorem sound_body1_A (c : Dev nD) (t : Fin cfg1.N) (h0 : t.val % 4 = 0) (h1 : ¬t.val % 4 < t.val % 16 / 4) (h2 : t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_A V c t h0 h1 h2 h3]
  unfold at1_A sout1_A_0 sout1_A_1 sout1_A_2; (try dsimp only)
  by_cases hz : t.val = 0
  · rw [PhiS1_castSucc V c t, PhiS1_zero V c _ _ hz, PhiA1_eq]
    iintro ⟨⟨⟨HS0, HS1, HS2⟩, HR, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HS0, HS1, HS2⟩, HR, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    iexists _; iexact H3

set_option maxHeartbeats 4800000 in
/-- The body at a point of case B (qi < ki < 3: nothing happens; the scratch is carried through): the inputs' memrefs hold their blocks, the invariant hands the run the
    scratch, the run applies, and the invariant takes the scratch back at this point's contents. -/
theorem sound_body1_B (c : Dev nD) (t : Fin cfg1.N) (h0 : ¬t.val % 4 = 0) (h1 : ¬t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_B V c t h0 h1 h2 h3]
  unfold at1_B; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_B c (grid1.coords t) _ _ _ _ _ _ _ _ _ _ _ _ _ _ (fun h => h0 ((hcond1_0 t).mp h)) (fun h => h1 ((hcond1_1 t).mp h)) (fun h => h2 ((hcond1_2 t).mp h)) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 HR Hg]
  · isplitl [HS0 HS1 HS2]
    · isplitl [HS0]
      · iexact HS0
      isplitl [HS1]
      · iexact HS1
      iexact HS2
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case C (qi < ki = 3: the output block is stored; the scratch is carried through): the inputs' memrefs hold their blocks, the invariant hands the run the
    scratch, the run applies, and the invariant takes the scratch back at this point's contents. -/
theorem sound_body1_C (c : Dev nD) (t : Fin cfg1.N) (h0 : ¬t.val % 4 = 0) (h1 : ¬t.val % 4 < t.val % 16 / 4) (h2 : ¬t.val % 4 = t.val % 16 / 4) (h3 : t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_live V c t h3]
  rw [outsAt1_C V c t h0 h1 h2 h3]
  unfold at1_C out1_C_3; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_C c (grid1.coords t) _ _ _ _ _ _ _ _ _ _ _ _ _ _ (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 HR Hg]
  · isplitl [HS0 HS1 HS2]
    · isplitl [HS0]
      · iexact HS0
      isplitl [HS1]
      · iexact HS1
      iexact HS2
    isplitl [HR]; · iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _ _ _ _ _ _ _ _ _)

set_option maxHeartbeats 4800000 in
/-- The body at a point of case D (ki = 0 < qi: reset, then a plain tile): the inputs' memrefs hold their blocks, the invariant hands the run the
    scratch, the run applies, and the invariant takes the scratch back at this point's contents. -/
theorem sound_body1_D (c : Dev nD) (t : Fin cfg1.N) (h0 : t.val % 4 = 0) (h1 : t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_D V c t h0 h1 h2 h3]
  unfold at1_D sout1_D_0 sout1_D_1 sout1_D_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_D c (grid1.coords t) _ _ _ _ _ _ _ _ _ _ _ _ _ _ ((hcond1_0 t).mpr h0) ((hcond1_1 t).mpr h1) (fun h => h2 ((hcond1_2 t).mp h)) (fun h => h3 ((hcond1_3 t).mp h)) (iblk1 V c 0 t) (iblk1 V c 1 t) (iblk1 V c 2 t)).2.2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_D_0 c _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _)
      unfold owns; iexists _; isplitr
      swap; · iexact HS2
      ipureintro; exact View.read_writes_of_cover _ _ _ _ _ (scover1_D_2 c _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case E (0 < ki = qi < 3: the diagonal tile over the carried scratch): the inputs' memrefs hold their blocks, the invariant hands the run the
    scratch, the run applies, and the invariant takes the scratch back at this point's contents. -/
theorem sound_body1_E (c : Dev nD) (t : Fin cfg1.N) (h0 : ¬t.val % 4 = 0) (h1 : ¬t.val % 4 < t.val % 16 / 4) (h2 : t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_E V c t h0 h1 h2 h3]
  unfold at1_E sout1_E_0 sout1_E_1 sout1_E_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_E c (grid1.coords t) _ _ _ _ _ _ _ _ _ _ _ _ _ _ (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_E_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_E_1 c _ _ _ _ _ _ _ _ _ _ _ _ _ _ _ _ _ _ _ _ _ _ _ _ _)
      unfold owns; iexists _; isplitr
      swap; · iexact HS2
      ipureintro; exact View.read_writes_of_cover _ _ _ _ _ (scover1_E_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case F (0 < ki < qi: a plain tile over the carried scratch): the inputs' memrefs hold their blocks, the invariant hands the run the
    scratch, the run applies, and the invariant takes the scratch back at this point's contents. -/
theorem sound_body1_F (c : Dev nD) (t : Fin cfg1.N) (h0 : ¬t.val % 4 = 0) (h1 : t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_F V c t h0 h1 h2 h3]
  unfold at1_F sout1_F_0 sout1_F_1 sout1_F_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_F c (grid1.coords t) _ _ _ _ _ _ _ _ _ _ _ _ _ _ (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_F_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_F_1 c _ _ _ _ _ _ _ _ _ _ _ _ _ _ _ _ _ _ _ _ _ _ _ _ _)
      unfold owns; iexists _; isplitr
      swap; · iexact HS2
      ipureintro; exact View.read_writes_of_cover _ _ _ _ _ (scover1_F_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case G (ki = qi = 3: the diagonal tile over the carried scratch, then the output block): the inputs' memrefs hold their blocks, the invariant hands the run the
    scratch, the run applies, and the invariant takes the scratch back at this point's contents. -/
theorem sound_body1_G (c : Dev nD) (t : Fin cfg1.N) (h0 : ¬t.val % 4 = 0) (h1 : ¬t.val % 4 < t.val % 16 / 4) (h2 : t.val % 4 = t.val % 16 / 4) (h3 : t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_live V c t h3]
  rw [outsAt1_G V c t h0 h1 h2 h3]
  unfold at1_G sout1_G_0 sout1_G_1 sout1_G_2 out1_G_3; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_G c (grid1.coords t) _ _ _ _ _ _ _ _ _ _ _ _ _ _ (fun h => h0 ((hcond1_0 t).mp h)) (fun h => h1 ((hcond1_1 t).mp h)) ((hcond1_2 t).mpr h2) ((hcond1_3 t).mpr h3) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_G_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_G_1 c _ _ _ _ _ _ _ _ _ _ _ _ _ _ _ _ _ _ _ _ _ _ _ _ _)
      unfold owns; iexists _; isplitr
      swap; · iexact HS2
      ipureintro; exact View.read_writes_of_cover _ _ _ _ _ (scover1_G_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_G_3 c _ _ _ _ _ _ _ _ _ _ _ _ _ _ _ _ _ _ _ _ _ _ _ _ _)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases h0 : t.val % 4 = 0
  · by_cases h1 : t.val % 4 < t.val % 16 / 4
    · exact sound_body1_D V c t h0 h1 (by omega) (by omega)
    · exact sound_body1_A V c t h0 h1 (by omega) (by omega)
  · by_cases h1 : t.val % 4 < t.val % 16 / 4
    · exact sound_body1_F V c t h0 h1 (by omega) (by omega)
    · by_cases h2 : t.val % 4 = t.val % 16 / 4
      · by_cases h3 : t.val % 4 = 3
        · exact sound_body1_G V c t h0 h1 h2 h3
        · exact sound_body1_E V c t h0 h1 h2 h3
      · by_cases h3 : t.val % 4 = 3
        · exact sound_body1_C V c t h0 h1 h2 h3
        · exact sound_body1_B V c t h0 h1 h2 h3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2⟩, HR, Hg⟩
  isplitl [HS0 HS1 HS2]
  · isplitl [HS0]; · iexists _; iexact HS0
    isplitl [HS1]; · iexists _; iexact HS1
    iexists _; iexact HS2
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Run.lean ====
/-
  The whole program: @main is a stretch of five host operations (the scaled query weights, the three weight matrices
  side by side, the conversion to bf16), then the projection region, then the attention region.  The buffer contents at
  each boundary are a fold from the launch memory: after the host stretch; after region 0 (its arrays at what its
  write-backs leave, every other buffer as entered); after region 1 likewise.  Every weakly fair execution terminates,
  and at the end every unscoped buffer holds the last boundary's contents; in particular the four arguments end as
  launched, since no host operation writes one and no region has one as an output.
-/
import proofs.«132881_j16904991277416_2_alg».proof.Proof.Gen.KernelIdeal.Regions
import proofs.«132881_j16904991277416_2_alg».proof.Proof.KI.Qkv
import proofs.«132881_j16904991277416_2_alg».proof.Proof.KI.Flash

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents: no host
    operation stands between the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The fold read at the buffers the value proof needs -/

/-- A buffer no host operation writes holds its launch contents when region 0 is entered. -/
theorem W1_of (c : Dev nD) (r : Ref sig .tc) (h : r ∉ (hostOps0_W : List (Ref sig .tc))) :
    W1 m ρ c (Proc.devRef .tc r) = m ((c : Thread nD τ).loc r) :=
  (Gen.V1_of m c r h).trans rfl

/-- Region 0 leaves its three outputs at what its write-backs fold to, -/
theorem V2_main_v4_0 (c : Dev nD) : V2 m ρ c main_v4_0 = (dat0 (V1 m ρ) c).arrAt 2 cfg0.N := W2_arr m ρ c 2
theorem V2_main_v4_1 (c : Dev nD) : V2 m ρ c main_v4_1 = (dat0 (V1 m ρ) c).arrAt 3 cfg0.N := W2_arr m ρ c 3
theorem V2_main_v4_2 (c : Dev nD) : V2 m ρ c main_v4_2 = (dat0 (V1 m ρ) c).arrAt 4 cfg0.N := W2_arr m ρ c 4
/-- its two inputs as entered, -/
theorem V2_main_arg0 (c : Dev nD) : V2 m ρ c main_arg0 = V1 m ρ c main_arg0 :=
  (W2_arr m ρ c 0).trans (((dat0 (V1 m ρ) c).arrAt_in 0 rfl _).trans (A_eq0 (V1 m ρ) c 0))
theorem V2_main_v3 (c : Dev nD) : V2 m ρ c main_v3 = V1 m ρ c main_v3 :=
  (W2_arr m ρ c 1).trans (((dat0 (V1 m ρ) c).arrAt_in 1 rfl _).trans (A_eq0 (V1 m ρ) c 1))
/-- and every buffer that is none of its arrays as entered. -/
theorem V2_of_ne (c : Dev nD) (b : Ref sig .tc) (hb : ∀ w, Pipeline.arrRef spec0 w ≠ b) : V2 m ρ c b = V1 m ρ c b :=
  W2_of_ne m ρ c b hb

/-- Region 1 leaves its output at what its write-backs fold to. -/
theorem W3_main_v5 (c : Dev nD) : W3 m ρ c (Proc.devRef .tc main_v5) = (dat1 (V2 m ρ) c).arrAt 3 cfg1.N := W3_arr m ρ c 3

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := V2_main_arg0 m ρ c
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at W1, left at W2.  Its arrays split out of the
    unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The plain invariant ΦA (nothing carried between points) from what a region's entry hands over: the generator register and the scoped buffers no
    window stages (there are no prefetched tables). -/
theorem ΦA_in1 (c : Dev nD) :
    iprop((∃ r, prngReg c r) ∗ Pipeline.prefHeld (pcfgs (F := F) 1).pre c (fun _ => fullShare) (adm (F := F) 1).1
        ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp
/-- and back. -/
theorem ΦA_out1 (c : Dev nD) :
    (Pipeline.ΦA spec1 c : sProp 𝕄)
      ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- REGION 1 over the thread state: entered from every unscoped buffer at W2, left at W3 (what the launch reads at the
    end).  Its invariant starts from the plain one ΦA and ends in it: between the two the scratch buffers carry the
    running maximum, the running sum and the accumulator. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in1 c).trans (hin1 (V2 m ρ) c)
  hout c := by
    rw [Pipeline.ownSems0_none]
    exact (hout1 (V2 m ρ) c).trans (ΦA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents W3. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.K.Qkv.lean ====
/-
  Region 0 of @main (the q/k/v projection, one matmul per grid point), at a parameter V: the TensorCore's buffer
  contents when the region is entered.  Per point the body reads the whole block of the input rows and the whole
  weight block, and stores three whole output blocks (the three column bands of the product, rounded to bf16).
  Each output buffer is also read once before it is overwritten; that read is dead, so the outputs may hold
  anything when the body starts.
-/
import proofs.«132881_j16904991277416_2_alg».proof.Proof.Gen.Kernel.Launch
import proofs.«132881_j16904991277416_2_alg».proof.Proof.Gen.Kernel.Skeleton
import proofs.«132881_j16904991277416_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the input rows) holds its block at every point, fetched there or not: where it is not fetched its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weights, one block for the whole grid) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x512x1024 := Rect.unit (s := S1x512x1024) ![0, 0, 0] S1x512x1024.size inb_S1x512x1024_S1x512x1024_0_0_0
abbrev r0_1 : Rect S1024x192 := Rect.unit (s := S1024x192) ![0, 0] S1024x192.size inb_S1024x192_S1024x192_0_0
abbrev r0_2 : Rect S1x512x64 := Rect.unit (s := S1x512x64) ![0, 0, 0] S1x512x64.size inb_S1x512x64_S1x512x64_0_0_0

/-! ## What the body leaves in each output window's buffer -/

/-- Window 2's buffer after the body (the first column band of the product), from the input windows' blocks. -/
def out0_2 (x0 : Vec F S1x512x1024 .f32) (x1 : Vec F S1024x192 .bf16) : Vec F S1x512x64 .bf16 :=
  View.canon [⟨r0_2, k0_pay2 (View.ld x0 r0_0) (View.ld x1 r0_1)⟩]
/-- Window 3's buffer after the body (the second column band). -/
def out0_3 (x0 : Vec F S1x512x1024 .f32) (x1 : Vec F S1024x192 .bf16) : Vec F S1x512x64 .bf16 :=
  View.canon [⟨r0_2, k0_pay3 (View.ld x0 r0_0) (View.ld x1 r0_1)⟩]
/-- Window 4's buffer after the body (the third column band). -/
def out0_4 (x0 : Vec F S1x512x1024 .f32) (x1 : Vec F S1024x192 .bf16) : Vec F S1x512x64 .bf16 :=
  View.canon [⟨r0_2, k0_pay4 (View.ld x0 r0_0) (View.ld x1 r0_1)⟩]

/-- One whole-buffer store covers the buffer. -/
theorem cover0_2 (p0 : Vec F S1x512x64 .bf16) (y : S1x512x64.Idx) :
    ∃ pc ∈ ([⟨r0_2, p0⟩] : List (View.Piece (Elt F) S1x512x64 .bf16)), y ∈ pc.1.set :=
  View.cover_of_tiled [⟨r0_2, p0⟩] S1x512x64.size (by rfl) y

/-! ## The body's triple -/

set_option maxHeartbeats 1000000 in
/-- The kernel body on whole staging memrefs, the inputs' at contents x0, x1 and the outputs' at anything, runs to
    the continuation holding the inputs' as they were and each output's at out0_W of the inputs'. -/
theorem sound_kernel0 (c : Dev nD) (E : Set ℕ) (i : grid0.Coords)
    (arg2 : Memref sig .tc .vmem S1x512x1024 .f32) (harg2 : arg2.IsWhole) (arg3 : Memref sig .tc .vmem S1024x192 .bf16) (harg3 : arg3.IsWhole)
    (arg4 : Memref sig .tc .vmem S1x512x64 .bf16) (harg4 : arg4.IsWhole) (arg5 : Memref sig .tc .vmem S1x512x64 .bf16) (harg5 : arg5.IsWhole)
    (arg6 : Memref sig .tc .vmem S1x512x64 .bf16) (harg6 : arg6.IsWhole)
    (x0 : Vec F S1x512x1024 .f32) (x1 : Vec F S1024x192 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-! ## The pipeline's proof data -/

/-- The proof data of pipeline 0 on core c: the arrays as the region finds them; after the body at point t each
    input's buffer at its block and each output's at out0_W of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.FlashRuns.lean ====
/- Region 1 (the flash-attention call): what the seven control cases' runs share. The windows' blocks read off the
   region-entry contents, the input windows' staging buffers at their blocks, the four branch conditions of the body in
   closed form over the grid, where the output window is idle, the staging and scratch memrefs, and the class invariant
   with the three scratch buffers split off. -/
import proofs.«132881_j16904991277416_2_alg».proof.Proof.Gen.Kernel.Launch
import proofs.«132881_j16904991277416_2_alg».proof.Proof.Gen.Kernel.Skeleton
import proofs.«132881_j16904991277416_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (its block index
    is the minimum of two grid coordinates: a function of the point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions, over the grid point (b, qi, ki) = coordinates (0, 1, 2); the point's position
    is 16·b + 4·qi + ki -/

/-- ki = 0: the first key tile of a query tile (the scratch is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- ki < qi: a key tile strictly below the diagonal (no mask). -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val % 16 / 4 :=
  (by decide +kernel : ∀ t : Fin grid1.N, cond1_1 (grid1.coords t) ↔ t.val % 4 < t.val % 16 / 4)

/-- ki = qi: the diagonal tile (causal mask). -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val % 16 / 4 :=
  (by decide +kernel : ∀ t : Fin grid1.N, cond1_2 (grid1.coords t) ↔ t.val % 4 = t.val % 16 / 4)

/-- ki = 3: the last key tile (the output block is written). -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_3 (grid1.coords t) → cfg1.idle 3 (grid1.coords t) = true := by decide +kernel
/-- and its block is not written back there. -/
theorem noFlush1_3 : ∀ t : Fin cfg1.N, ¬cond1_3 (grid1.coords t) → (cfg1.win 3).flush t = false := by decide +kernel
/-- At the last key tile it is live. -/
theorem liveAt1_3 : ∀ t : Fin cfg1.N, cond1_3 (grid1.coords t) → cfg1.idle 3 (grid1.coords t) = false := by decide +kernel

/-! ## The staging and scratch memrefs -/

/-- One staging buffer of the output window, through which its contents are stated. -/
abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The scratch operands: the running row maximum, the running row sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The class invariant with the scratch split off -/

/-- The scoped buffers of the core that are neither a staging buffer of this call nor its scratch: the other call's
    staging buffers, each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant: the three scratch buffers owned at some contents, the other scoped buffers, the generator register. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  unfold Pipeline.ΦA Rest1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, S0, S1, S2⟩, Hg⟩
    isplitl [S0 S1 S2]
    · isplitl [S0]; · iexact S0
      isplitl [S1]; · iexact S1
      iexact S2
    isplitl [A1 A2 A3 A4 A5 A6 A7 A8 A9]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    iexact Hg
  · show (_ : sProp 𝕄) ⊢ _
    iintro ⟨⟨S0, S1, S2⟩, ⟨A1, A2, A3, A4, A5, A6, A7, A8, A9⟩, Hg⟩
    isplitl [A1 A2 A3 A4 A5 A6 A7 A8 A9 S0 S1 S2]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [S0]; · iexact S0
      isplitl [S1]; · iexact S1
      iexact S2
    iexact Hg

end Cert.Kernel.Hand

end
-- ==== Proof.K.FlashRunA.lean ====
/- Region 1, control case A (ki = 0 = qi: the scratch is reset, then the masked diagonal tile is accumulated; the output
   window is idle): the body's run on whole staging memrefs. The pieces each scratch buffer ends with are the witness. -/
import proofs.«132881_j16904991277416_2_alg».proof.Proof.K.FlashRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (ki = 0, ki = qi, ki ≠ 3). The inputs' buffers at their contents and the idle output's at `xi3` are handed
    back untouched; each scratch buffer, taken at anything, ends with its reset store and then the tile's store. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunB.lean ====
/- Region 1, control case B (qi < ki < 3: a key tile above the diagonal, not the last): no branch of the body is taken.
   Every buffer is handed back as it was found. -/
import proofs.«132881_j16904991277416_2_alg».proof.Proof.K.FlashRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (ki ≠ 0, ki > qi, ki ≠ 3): nothing is loaded or stored; the carried scratch contents `xs·` and the idle
    output's `xi3` come back untouched. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], [], [], [], fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.FlashRunC.lean ====
/- Region 1, control case C (qi < ki = 3: the last key tile, above the diagonal): only the final branch is taken. The
   output block is stored as the running weighted sum divided by the running row sum; the scratch is read, not written. -/
import proofs.«132881_j16904991277416_2_alg».proof.Proof.K.FlashRunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (ki ≠ 0, ki > qi, ki = 3): the output's buffer, taken at anything, ends with one store; the carried scratch
    contents `xs·` come back untouched. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, [], [], [], fun E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.FlashRunD.lean ====
/- Region 1, control case D (ki = 0 < qi: the scratch is reset, then an unmasked tile below the diagonal is accumulated;
   the output window is idle): the body's run on whole staging memrefs. -/
import proofs.«132881_j16904991277416_2_alg».proof.Proof.K.FlashRunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D (ki = 0, ki < qi, ki ≠ 3). The inputs' buffers at their contents and the idle output's at `xi3` are handed
    back untouched; each scratch buffer, taken at anything, ends with its reset store and then the tile's store. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunE.lean ====
/- Region 1, control case E (0 < ki = qi < 3: the masked diagonal tile is accumulated over the carried scratch; the output window is idle): the body's run on whole staging memrefs. -/
import proofs.«132881_j16904991277416_2_alg».proof.Proof.K.FlashRunD

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case E (ki ≠ 0, ki = qi, ki ≠ 3). The inputs' buffers at their contents and the idle output's at `xi3` are handed back untouched;
    each scratch buffer, taken at the contents `xs·` the point before left, ends with the tile's store. -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunF.lean ====
/- Region 1, control case F (0 < ki < qi: an unmasked tile below the diagonal is accumulated over the carried scratch; the output window is idle): the body's run on whole staging memrefs. -/
import proofs.«132881_j16904991277416_2_alg».proof.Proof.K.FlashRunE

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case F (ki ≠ 0, ki < qi, ki ≠ 3). The inputs' buffers at their contents and the idle output's at `xi3` are handed back untouched;
    each scratch buffer, taken at the contents `xs·` the point before left, ends with the tile's store. -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨[], ?_, ?_, ?_, fun xi3 E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunG.lean ====
/- Region 1, control case G (ki = qi = 3: the last key tile is the diagonal one): the masked diagonal tile is accumulated
   over the carried scratch, then the output block is stored as the weighted sum divided by the row sum. -/
import proofs.«132881_j16904991277416_2_alg».proof.Proof.K.FlashRunF

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case G (ki ≠ 0, ki = qi, ki = 3). The inputs' buffers are handed back untouched; each scratch buffer, taken at the
    contents `xs·` the point before left, ends with the tile's store; the output's buffer, taken at anything, ends with one store. -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .f32)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, ?_, fun E K => ?run⟩
  case run =>
    simp only [cc1_flash_kernel_eq_skeleton]; unfold cc1_flash_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Flash.lean ====
/- Region 1 (the flash-attention call) at the region-entry contents `V`: what each control case leaves in the output's
   staging buffer and in the three scratch buffers (with the covers), the same point by point (`outsAt1`), the invariant
   carrying the scratch between points, the proof data, the body obligation by cases on the closed forms, and the
   invariant's entry and exit. -/
import proofs.«132881_j16904991277416_2_alg».proof.Proof.K.FlashRunG

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for scratch 0 (the running row maximum) cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1024x1.size (by sl_kernel_rfl) y

/-- What case A leaves in scratch 0 (the running row maximum): its pieces read back over junk. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).2.1)

/-- Case A's pieces for scratch 1 (the running row sum) cover it. -/
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1024x1.size (by sl_kernel_rfl) y

/-- What case A leaves in scratch 1 (the running row sum): its pieces read back over junk. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.2.1)

/-- Case A's pieces for scratch 2 (the running weighted sum) cover it. -/
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1024x64.size (by sl_kernel_rfl) y

/-- What case A leaves in scratch 2 (the running weighted sum): its pieces read back over junk. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.2.1)

/-- Case D's pieces for scratch 0 (the running row maximum) cover it. -/
theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_D c i arg3 harg3 arg4 harg4 arg5 harg5 arg6 harg6 arg7 harg7 arg8 harg8 arg9 harg9 hc0 hc1 hc2 hc3 x0 x1 x2).2.1, y ∈ pc.1.set :=
  View.cover_of_tiledL (kernelRun1_D c i arg3 harg3 arg4 harg4 arg5 harg5 arg6 harg6 arg7 harg7 arg8 harg8 arg9 harg9 hc0 hc1 hc2 hc3 x0 x1 x2).2.1 S1024x1.size (by sl_kernel_rfl) y

/-- What case D leaves in scratch 0 (the running row maximum): its pieces read back over junk. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2).2.1)

/-- Case D's pieces for scratch 1 (the running row sum) cover it. -/
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x1.Idx) :
    ∃ pc ∈ (kernelRun1_D c i arg3 harg3 arg4 harg4 arg5 harg5 arg6 harg6 arg7 harg7 arg8 harg8 arg9 harg9 hc0 hc1 hc2 hc3 x0 x1 x2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.1 S1024x1.size (by sl_kernel_rfl) y

/-- What case D leaves in scratch 1 (the running row sum): its pieces read back over junk. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2).2.2.1)

/-- Case D's pieces for scratch 2 (the running weighted sum) cover it. -/
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1024x64.Idx) :
    ∃ pc ∈ (kernelRun1_D c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.2.1 S1024x64.size (by sl_kernel_rfl) y

/-- What case D leaves in scratch 2 (the running weighted sum): its pieces read back over junk. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2).2.2.2.1)

/-- Case E's pieces for scratch 0 (the running row maximum) cover it. -/
theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case E leaves in scratch 0 (the running row maximum): its pieces read back over junk. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)

/-- Case E's pieces for scratch 1 (the running row sum) cover it. -/
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case E leaves in scratch 1 (the running row sum): its pieces read back over junk. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)

/-- Case E's pieces for scratch 2 (the running weighted sum) cover it. -/
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case E leaves in scratch 2 (the running weighted sum): its pieces read back over junk. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)

/-- Case F's pieces for scratch 0 (the running row maximum) cover it. -/
theorem scover1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case F leaves in scratch 0 (the running row maximum): its pieces read back over junk. -/
def sout1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_F c i arg3 harg3 arg4 harg4 arg5 harg5 arg6 harg6 arg7 harg7 arg8 harg8 arg9 harg9 hc0 hc1 hc2 hc3 x0 x1 x2 xs0 xs1 xs2).2.1)

/-- Case F's pieces for scratch 1 (the running row sum) cover it. -/
theorem scover1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case F leaves in scratch 1 (the running row sum): its pieces read back over junk. -/
def sout1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_F c i arg3 harg3 arg4 harg4 arg5 harg5 arg6 harg6 arg7 harg7 arg8 harg8 arg9 harg9 hc0 hc1 hc2 hc3 x0 x1 x2 xs0 xs1 xs2).2.2.1)

/-- Case F's pieces for scratch 2 (the running weighted sum) cover it. -/
theorem scover1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case F leaves in scratch 2 (the running weighted sum): its pieces read back over junk. -/
def sout1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_F c i arg3 harg3 arg4 harg4 arg5 harg5 arg6 harg6 arg7 harg7 arg8 harg8 arg9 harg9 hc0 hc1 hc2 hc3 x0 x1 x2 xs0 xs1 xs2).2.2.2.1)

/-- Case G's pieces for scratch 0 (the running row maximum) cover it. -/
theorem scover1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.1 S1024x1.size (by sl_kernel_rfl) y

/-- What case G leaves in scratch 0 (the running row maximum): its pieces read back over junk. -/
def sout1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_G c i arg3 harg3 arg4 harg4 arg5 harg5 arg6 harg6 arg7 harg7 arg8 harg8 arg9 harg9 hc0 hc1 hc2 hc3 x0 x1 x2 xs0 xs1 xs2).2.1)

/-- Case G's pieces for scratch 1 (the running row sum) cover it. -/
theorem scover1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.1 S1024x1.size (by sl_kernel_rfl) y

/-- What case G leaves in scratch 1 (the running row sum): its pieces read back over junk. -/
def sout1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_G c i arg3 harg3 arg4 harg4 arg5 harg5 arg6 harg6 arg7 harg7 arg8 harg8 arg9 harg9 hc0 hc1 hc2 hc3 x0 x1 x2 xs0 xs1 xs2).2.2.1)

/-- Case G's pieces for scratch 2 (the running weighted sum) cover it. -/
theorem scover1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.2.1 S1024x64.size (by sl_kernel_rfl) y

/-- What case G leaves in scratch 2 (the running weighted sum): its pieces read back over junk. -/
def sout1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_G c i arg3 harg3 arg4 harg4 arg5 harg5 arg6 harg6 arg7 harg7 arg8 harg8 arg9 harg9 hc0 hc1 hc2 hc3 x0 x1 x2 xs0 xs1 xs2).2.2.2.1)

/-- Case C's one store into the output's staging buffer covers it. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What case C leaves in the output's staging buffer: its piece read back over junk. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 hc3 x0 x1 x2 xs0 xs1 xs2).1)

/-- Case G's one store into the output's staging buffer covers it. -/
theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What case G leaves in the output's staging buffer: its piece read back over junk. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-- At a point where the output window is idle nothing is stored into its staging buffer: a placeholder (junk read
    back) that nothing consults, the window being neither written back there nor read at the next point. -/
def out1_idle_3 : Vec F S1x1024x64 .f32 :=
  VO1_3.read (Elt F) (VO1_3.writes (Elt F) VO1_3.junk ([] : List (View.Piece (Elt F) S1x1024x64 .f32)))

section Regions
variable (V : (c : Dev nD) → (b : Ref sig .tc) → Buf (Elt F) ((c : Thread nD τ).loc b))

/-! ## What the output's staging buffer and the three scratch buffers hold after the body at a point, case by case -/

/-- Case A at point `t` (ki = 0 = qi: reset, then the diagonal tile). -/
def at1_A (c : Dev nD) (t : Fin cfg1.N) (h0 : t.val % 4 = 0) (h1 : ¬t.val % 4 < t.val % 16 / 4) (h2 : t.val % 4 = t.val % 16 / 4) (h3 : ¬t.val % 4 = 3) :
    Vec F S1x1024x64 .f32 × Vec F S1024x1 .f32 × Vec F S1024x1 .f32 × Vec F S1024x64 .f32 :=
  (out1_idle_3,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) ((hcond1_2 t).mpr h2) (fun h => h3 ((hcond1_3 t).mp h)) (iblk1 V c 0 t) (iblk1 V c 1 t) (iblk1 V c 2 t))

/-- Case B at point `t` (qi < ki < 3: nothing happens; the scratch is carried through), over what the point before left (`p`). -/
def at1_B (c : Dev nD) (t : Fin cfg1.N) (h0 : ¬t.val % 4 = 0) (h1 : ¬t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   p.2.1,
   p.2.2.1,
   p.2.2.2)

/-- Case C at point `t` (qi < ki = 3: the output block is stored; the scratch is carried through), over what the point before left (`p`). -/
def at1_C (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) p.2.1 p.2.2.1 p.2.2.2,
   p.2.1,
   p.2.2.1,
   p.2.2.2)

/-- Case D at point `t` (ki = 0 < qi: reset, then a plain tile). -/
def at1_D (c : Dev nD) (t : Fin cfg1.N) (h0 : t.val % 4 = 0) (h1 : t.val % 4 < t.val % 16 / 4) (h2 : ¬t.val % 4 = t.val % 16 / 4) (h3 : ¬t.val % 4 = 3) :
    Vec F S1x1024x64 .f32 × Vec F S1024x1 .f32 × Vec F S1024x1 .f32 × Vec F S1024x64 .f32 :=
  (out1_idle_3,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t),
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t),
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (fun h => h3 ((hcond1_3 t).mp h)) (iblk1 V c 0 t) (iblk1 V c 1 t) (iblk1 V c 2 t))

/-- Case E at point `t` (0 < ki = qi < 3: the diagonal tile over the carried scratch), over what the point before left (`p`). -/
def at1_E (c : Dev nD) (t : Fin cfg1.N) (h0 : ¬t.val % 4 = 0) (h1 : ¬t.val % 4 < t.val % 16 / 4) (h2 : t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2,
   sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2,
   sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) p.2.1 p.2.2.1 p.2.2.2)

/-- Case F at point `t` (0 < ki < qi: a plain tile over the carried scratch), over what the point before left (`p`). -/
def at1_F (c : Dev nD) (t : Fin cfg1.N) (h0 : ¬t.val % 4 = 0) (h1 : t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_idle_3,
   sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2,
   sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2,
   sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) p.2.1 p.2.2.1 p.2.2.2)

/-- Case G at point `t` (ki = qi = 3: the diagonal tile over the carried scratch, then the output block), over what the point before left (`p`). -/
def at1_G (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    Vec F S1x1024x64 .f32 × Vec F S1024x1 .f32 × Vec F S1024x1 .f32 × Vec F S1024x64 .f32 :=
  (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2,
   sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) ((hcond1_3 t).mpr h3) (iblk1 V c 0 t) (iblk1 V c 1 t) (iblk1 V c 2 t) p.2.1 p.2.2.1 p.2.2.2)

/-! ## What the buffers hold after each point -/

/-- THE ACCUMULATION. What the output's staging buffer and the three scratch buffers hold after the body at position `n`:
    the case the closed forms select at `n`, run at the point's memrefs and input blocks, the carried scratch at what
    this leaves at `n - 1`. An assignment of the conditions no point meets is no case. -/
def outsAt1 (c : Dev nD) : (n : ℕ) → n < cfg1.N → Vec F S1x1024x64 .f32 × Vec F S1024x1 .f32 × Vec F S1024x1 .f32 × Vec F S1024x64 .f32
  | 0, hn => at1_A V c ⟨0, hn⟩ (Nat.zero_mod _) (by show ¬ 0 % 4 < 0 % 16 / 4; decide) (by show 0 % 4 = 0 % 16 / 4; decide) (by show ¬ 0 % 4 = 3; decide)
  | n + 1, hn =>
    if h0 : (n + 1) % 4 = 0 then
      if h1 : (n + 1) % 4 < (n + 1) % 16 / 4 then
        if h2 : (n + 1) % 4 = (n + 1) % 16 / 4 then False.elim (by omega)
        else if h3 : (n + 1) % 4 = 3 then False.elim (by omega)
        else at1_D V c ⟨n + 1, hn⟩ h0 h1 h2 h3
      else
        if h2 : (n + 1) % 4 = (n + 1) % 16 / 4 then
          if h3 : (n + 1) % 4 = 3 then False.elim (by omega)
          else at1_A V c ⟨n + 1, hn⟩ h0 h1 h2 h3
        else False.elim (by omega)
    else
      if h1 : (n + 1) % 4 < (n + 1) % 16 / 4 then
        if h2 : (n + 1) % 4 = (n + 1) % 16 / 4 then False.elim (by omega)
        else if h3 : (n + 1) % 4 = 3 then False.elim (by omega)
        else at1_F V c ⟨n + 1, hn⟩ h0 h1 h2 h3 (outsAt1 c n (Nat.lt_of_succ_lt hn))
      else
        if h2 : (n + 1) % 4 = (n + 1) % 16 / 4 then
          if h3 : (n + 1) % 4 = 3 then at1_G V c ⟨n + 1, hn⟩ h0 h1 h2 h3 (outsAt1 c n (Nat.lt_of_succ_lt hn))
          else at1_E V c ⟨n + 1, hn⟩ h0 h1 h2 h3 (outsAt1 c n (Nat.lt_of_succ_lt hn))
        else
          if h3 : (n + 1) % 4 = 3 then at1_C V c ⟨n + 1, hn⟩ h0 h1 h2 h3 (outsAt1 c n (Nat.lt_of_succ_lt hn))
          else at1_B c ⟨n + 1, hn⟩ h0 h1 h2 h3 (outsAt1 c n (Nat.lt_of_succ_lt hn))

/-- `outsAt1` at a point of case A. -/
theorem outsAt1_A (c : Dev nD) (t : Fin cfg1.N) (h0 : t.val % 4 = 0) (h1 : ¬t.val % 4 < t.val % 16 / 4) (h2 : t.val % 4 = t.val % 16 / 4) (h3 : ¬t.val % 4 = 3) :
    outsAt1 V c t.val t.isLt = at1_A V c t h0 h1 h2 h3 := by
  obtain ⟨n, hn⟩ := t
  cases n with
  | zero => exact rfl
  | succ n => exact (dif_pos h0).trans ((dif_neg h1).trans ((dif_pos h2).trans ((dif_neg h3).trans rfl)))

/-- `outsAt1` at a point of case B, over what the point before left. -/
theorem outsAt1_B (c : Dev nD) (t : Fin cfg1.N) (h0 : ¬t.val % 4 = 0) (h1 : ¬t.val % 4 < t.val % 16 / 4) (h2 : ¬t.val % 4 = t.val % 16 / 4) (h3 : ¬t.val % 4 = 3) :
    outsAt1 V c t.val t.isLt = at1_B c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans ((dif_neg h3).trans rfl)))

/-- `outsAt1` at a point of case C, over what the point before left. -/
theorem outsAt1_C (c : Dev nD) (t : Fin cfg1.N) (h0 : ¬t.val % 4 = 0) (h1 : ¬t.val % 4 < t.val % 16 / 4) (h2 : ¬t.val % 4 = t.val % 16 / 4) (h3 : t.val % 4 = 3) :
    outsAt1 V c t.val t.isLt = at1_C V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans ((dif_pos h3).trans rfl)))

/-- `outsAt1` at a point of case D. -/
theorem outsAt1_D (c : Dev nD) (t : Fin cfg1.N) (h0 : t.val % 4 = 0) (h1 : t.val % 4 < t.val % 16 / 4) (h2 : ¬t.val % 4 = t.val % 16 / 4) (h3 : ¬t.val % 4 = 3) :
    outsAt1 V c t.val t.isLt = at1_D V c t h0 h1 h2 h3 := by
  obtain ⟨n, hn⟩ := t
  cases n with
  | zero => exact absurd h1 (by show ¬ 0 % 4 < 0 % 16 / 4; decide)
  | succ n => exact (dif_pos h0).trans ((dif_pos h1).trans ((dif_neg h2).trans ((dif_neg h3).trans rfl)))

/-- `outsAt1` at a point of case E, over what the point before left. -/
theorem outsAt1_E (c : Dev nD) (t : Fin cfg1.N) (h0 : ¬t.val % 4 = 0) (h1 : ¬t.val % 4 < t.val % 16 / 4) (h2 : t.val % 4 = t.val % 16 / 4) (h3 : ¬t.val % 4 = 3) :
    outsAt1 V c t.val t.isLt = at1_E V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans ((dif_neg h3).trans rfl)))

/-- `outsAt1` at a point of case F, over what the point before left. -/
theorem outsAt1_F (c : Dev nD) (t : Fin cfg1.N) (h0 : ¬t.val % 4 = 0) (h1 : t.val % 4 < t.val % 16 / 4) (h2 : ¬t.val % 4 = t.val % 16 / 4) (h3 : ¬t.val % 4 = 3) :
    outsAt1 V c t.val t.isLt = at1_F V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans ((dif_neg h3).trans rfl)))

/-- `outsAt1` at a point of case G, over what the point before left. -/
theorem outsAt1_G (c : Dev nD) (t : Fin cfg1.N) (h0 : ¬t.val % 4 = 0) (h1 : ¬t.val % 4 < t.val % 16 / 4) (h2 : t.val % 4 = t.val % 16 / 4) (h3 : t.val % 4 = 3) :
    outsAt1 V c t.val t.isLt = at1_G V c t h0 h1 h2 h3 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans ((dif_pos h3).trans rfl)))

/-- The region invariant before position `n`: before the first point the class's (every scratch at anything); afterwards
    the three scratch buffers at what the point before left in them, the other scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Rest1 (F := F) c ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The inputs' buffers are left at their blocks. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- Where it is live, the output's buffer is left at `outsAt1`'s first component. -/
theorem leaves1_3_live (c : Dev nD) (t : Fin cfg1.N) (h3 : t.val % 4 = 3) : (dat1 V c).leavesExact 3 t = owns (c : Thread nD τ) (ms1_3 t) fullShare (outsAt1 V c t.val t.isLt).1 := by
  rw [show (dat1 V c).leavesExact 3 t = owns (c : Thread nD τ) (ms1_3 t) fullShare ((dat1 V c).after 3 t) from by
    unfold Dat.leavesExact; rw [liveAt1_3 t ((hcond1_3 t).mpr h3)], after1_3]
/-- Where it is idle, the output's buffer is handed back as found. -/
theorem leaves1_3_idle (c : Dev nD) (t : Fin cfg1.N) (h3 : ¬t.val % 4 = 3) : (dat1 V c).leavesExact 3 t = iprop(∃ d, owns (c : Thread nD τ) (ms1_3 t) fullShare ((dat1 V c).before 3 t d)) :=
  Dat.leavesExact_idle (dat1 V c) 3 t (idleAt1_3 t (fun h => h3 ((hcond1_3 t).mp h))) (noFlush1_3 t (fun h => h3 ((hcond1_3 t).mp h)))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point of case A (ki = 0 = qi: reset, then the diagonal tile): the inputs' memrefs hold their blocks, the invariant hands the run the
    scratch, the run applies, and the invariant takes the scratch back at this point's contents. -/
theorem sound_body1_A (c : Dev nD) (t : Fin cfg1.N) (h0 : t.val % 4 = 0) (h1 : ¬t.val % 4 < t.val % 16 / 4) (h2 : t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_A V c t h0 h1 h2 h3]
  unfold at1_A sout1_A_0 sout1_A_1 sout1_A_2; (try dsimp only)
  by_cases hz : t.val = 0
  · rw [PhiS1_castSucc V c t, PhiS1_zero V c _ _ hz, PhiA1_eq]
    iintro ⟨⟨⟨HS0, HS1, HS2⟩, HR, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    iexists _; iexact H3
  · rw [PhiS1_castSucc V c t, PhiS1_pos V c _ _ hz]
    iintro ⟨⟨⟨HS0, HS1, HS2⟩, HR, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) (fun h => h1 ((hcond1_1 t).mp h)) ((hcond1_2 t).mpr h2) (fun h => h3 ((hcond1_3 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    iexists _; iexact H3

set_option maxHeartbeats 4800000 in
/-- The body at a point of case B (qi < ki < 3: nothing happens; the scratch is carried through): the inputs' memrefs hold their blocks, the invariant hands the run the
    scratch, the run applies, and the invariant takes the scratch back at this point's contents. -/
theorem sound_body1_B (c : Dev nD) (t : Fin cfg1.N) (h0 : ¬t.val % 4 = 0) (h1 : ¬t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_B V c t h0 h1 h2 h3]
  unfold at1_B; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_B c (grid1.coords t) _ _ _ _ _ _ _ _ _ _ _ _ _ _ (fun h => h0 ((hcond1_0 t).mp h)) (fun h => h1 ((hcond1_1 t).mp h)) (fun h => h2 ((hcond1_2 t).mp h)) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 HR Hg]
  · isplitl [HS0 HS1 HS2]
    · isplitl [HS0]
      · iexact HS0
      isplitl [HS1]
      · iexact HS1
      iexact HS2
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case C (qi < ki = 3: the output block is stored; the scratch is carried through): the inputs' memrefs hold their blocks, the invariant hands the run the
    scratch, the run applies, and the invariant takes the scratch back at this point's contents. -/
theorem sound_body1_C (c : Dev nD) (t : Fin cfg1.N) (h0 : ¬t.val % 4 = 0) (h1 : ¬t.val % 4 < t.val % 16 / 4) (h2 : ¬t.val % 4 = t.val % 16 / 4) (h3 : t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_live V c t h3]
  rw [outsAt1_C V c t h0 h1 h2 h3]
  unfold at1_C out1_C_3; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_C c (grid1.coords t) _ _ _ _ _ _ _ _ _ _ _ _ _ _ (fun h => h0 ((hcond1_0 t).mp h)) (fun h => h1 ((hcond1_1 t).mp h)) (fun h => h2 ((hcond1_2 t).mp h)) ((hcond1_3 t).mpr h3) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 HR Hg]
  · isplitl [HS0 HS1 HS2]
    · isplitl [HS0]
      · iexact HS0
      isplitl [HS1]
      · iexact HS1
      iexact HS2
    isplitl [HR]; · iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _ _ _ _ _ _ _ _ _)

set_option maxHeartbeats 4800000 in
/-- The body at a point of case D (ki = 0 < qi: reset, then a plain tile): the inputs' memrefs hold their blocks, the invariant hands the run the
    scratch, the run applies, and the invariant takes the scratch back at this point's contents. -/
theorem sound_body1_D (c : Dev nD) (t : Fin cfg1.N) (h0 : t.val % 4 = 0) (h1 : t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_D V c t h0 h1 h2 h3]
  unfold at1_D sout1_D_0 sout1_D_1 sout1_D_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_D c (grid1.coords t) _ _ _ _ _ _ _ _ _ _ _ _ _ _ ((hcond1_0 t).mpr h0) ((hcond1_1 t).mpr h1) (fun h => h2 ((hcond1_2 t).mp h)) (fun h => h3 ((hcond1_3 t).mp h)) (iblk1 V c 0 t) (iblk1 V c 1 t) (iblk1 V c 2 t)).2.2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_D_0 c _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _)
      unfold owns; iexists _; isplitr
      swap; · iexact HS2
      ipureintro; exact View.read_writes_of_cover _ _ _ _ _ (scover1_D_2 c _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case E (0 < ki = qi < 3: the diagonal tile over the carried scratch): the inputs' memrefs hold their blocks, the invariant hands the run the
    scratch, the run applies, and the invariant takes the scratch back at this point's contents. -/
theorem sound_body1_E (c : Dev nD) (t : Fin cfg1.N) (h0 : ¬t.val % 4 = 0) (h1 : ¬t.val % 4 < t.val % 16 / 4) (h2 : t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_E V c t h0 h1 h2 h3]
  unfold at1_E sout1_E_0 sout1_E_1 sout1_E_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_E c (grid1.coords t) _ _ _ _ _ _ _ _ _ _ _ _ _ _ (fun h => h0 ((hcond1_0 t).mp h)) (fun h => h1 ((hcond1_1 t).mp h)) ((hcond1_2 t).mpr h2) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_E_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_E_1 c _ _ _ _ _ _ _ _ _ _ _ _ _ _ _ _ _ _ _ _ _ _ _ _ _)
      unfold owns; iexists _; isplitr
      swap; · iexact HS2
      ipureintro; exact View.read_writes_of_cover _ _ _ _ _ (scover1_E_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case F (0 < ki < qi: a plain tile over the carried scratch): the inputs' memrefs hold their blocks, the invariant hands the run the
    scratch, the run applies, and the invariant takes the scratch back at this point's contents. -/
theorem sound_body1_F (c : Dev nD) (t : Fin cfg1.N) (h0 : ¬t.val % 4 = 0) (h1 : t.val % 4 < t.val % 16 / 4) (h2 : ¬t.val % 4 = t.val % 16 / 4) (h3 : ¬t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_idle V c t h3]
  rw [outsAt1_F V c t h0 h1 h2 h3]
  unfold at1_F sout1_F_0 sout1_F_1 sout1_F_2; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_F c (grid1.coords t) _ _ _ _ _ _ _ _ _ _ _ _ _ _ (fun h => h0 ((hcond1_0 t).mp h)) ((hcond1_1 t).mpr h1) (fun h => h2 ((hcond1_2 t).mp h)) (fun h => h3 ((hcond1_3 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_F_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_F_1 c _ _ _ _ _ _ _ _ _ _ _ _ _ _ _ _ _ _ _ _ _ _ _ _ _)
      unfold owns; iexists _; isplitr
      swap; · iexact HS2
      ipureintro; exact View.read_writes_of_cover _ _ _ _ _ (scover1_F_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  iexists _; iexact H3

set_option maxHeartbeats 4800000 in
/-- The body at a point of case G (ki = qi = 3: the diagonal tile over the carried scratch, then the output block): the inputs' memrefs hold their blocks, the invariant hands the run the
    scratch, the run applies, and the invariant takes the scratch back at this point's contents. -/
theorem sound_body1_G (c : Dev nD) (t : Fin cfg1.N) (h0 : ¬t.val % 4 = 0) (h1 : ¬t.val % 4 < t.val % 16 / 4) (h2 : t.val % 4 = t.val % 16 / 4) (h3 : t.val % 4 = 3) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3_live V c t h3]
  rw [outsAt1_G V c t h0 h1 h2 h3]
  unfold at1_G sout1_G_0 sout1_G_1 sout1_G_2 out1_G_3; (try dsimp only)
  have hz : t.val ≠ 0 := by omega
  rw [PhiS1_castSucc V c t, PhiS1_pos V c _ _ hz]
  iintro ⟨⟨⟨HS0, HS1, HS2⟩, HR, Hg⟩, Ho, ⟨%d0, H0⟩, ⟨%d1, H1⟩, ⟨%d2, H2⟩, ⟨%d3, H3⟩⟩
  iapply ((kernelRun1_G c (grid1.coords t) _ _ _ _ _ _ _ _ _ _ _ _ _ _ (fun h => h0 ((hcond1_0 t).mp h)) (fun h => h1 ((hcond1_1 t).mp h)) ((hcond1_2 t).mpr h2) ((hcond1_3 t).mpr h3) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [HS0 HS1 HS2 HR Hg]
  · isplitl [HS0 HS1 HS2]
    · isplitl [HS0]
      · unfold owns; iexists _; isplitr
        swap; · iexact HS0
        ipureintro; exact View.read_writes_of_cover _ _ _ _ _ (scover1_G_0 c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_G_1 c _ _ _ _ _ _ _ _ _ _ _ _ _ _ _ _ _ _ _ _ _ _ _ _ _)
      unfold owns; iexists _; isplitr
      swap; · iexact HS2
      ipureintro; exact View.read_writes_of_cover _ _ _ _ _ (scover1_G_2 c _ _ _ _ _ _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_G_3 c _ _ _ _ _ _ _ _ _ _ _ _ _ _ _ _ _ _ _ _ _ _ _ _ _)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases h0 : t.val % 4 = 0
  · by_cases h1 : t.val % 4 < t.val % 16 / 4
    · exact sound_body1_D V c t h0 h1 (by omega) (by omega)
    · exact sound_body1_A V c t h0 h1 (by omega) (by omega)
  · by_cases h1 : t.val % 4 < t.val % 16 / 4
    · exact sound_body1_F V c t h0 h1 (by omega) (by omega)
    · by_cases h2 : t.val % 4 = t.val % 16 / 4
      · by_cases h3 : t.val % 4 = 3
        · exact sound_body1_G V c t h0 h1 h2 h3
        · exact sound_body1_E V c t h0 h1 h2 h3
      · by_cases h3 : t.val % 4 = 3
        · exact sound_body1_C V c t h0 h1 h2 h3
        · exact sound_body1_B V c t h0 h1 h2 h3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2⟩, HR, Hg⟩
  isplitl [HS0 HS1 HS2]
  · isplitl [HS0]; · iexists _; iexact HS0
    isplitl [HS1]; · iexists _; iexact HS1
    iexists _; iexact HS2
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.K.Run.lean ====
/-
  The whole program: @main is a stretch of five host operations (the scaled query weights, the three weight matrices
  side by side, the conversion to bf16), then the projection region, then the attention region.  The buffer contents at
  each boundary are a fold from the launch memory: after the host stretch; after region 0 (its arrays at what its
  write-backs leave, every other buffer as entered); after region 1 likewise.  Every weakly fair execution terminates,
  and at the end every unscoped buffer holds the last boundary's contents; in particular the four arguments end as
  launched, since no host operation writes one and no region has one as an output.
-/
import proofs.«132881_j16904991277416_2_alg».proof.Proof.Gen.Kernel.Regions
import proofs.«132881_j16904991277416_2_alg».proof.Proof.K.Qkv
import proofs.«132881_j16904991277416_2_alg».proof.Proof.K.Flash

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents: no host
    operation stands between the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The fold read at the buffers the value proof needs -/

/-- A buffer no host operation writes holds its launch contents when region 0 is entered. -/
theorem W1_of (c : Dev nD) (r : Ref sig .tc) (h : r ∉ (hostOps0_W : List (Ref sig .tc))) :
    W1 m ρ c (Proc.devRef .tc r) = m ((c : Thread nD τ).loc r) :=
  (Gen.V1_of m c r h).trans rfl

/-- Region 0 leaves its three outputs at what its write-backs fold to, -/
theorem V2_main_v4_0 (c : Dev nD) : V2 m ρ c main_v4_0 = (dat0 (V1 m ρ) c).arrAt 2 cfg0.N := W2_arr m ρ c 2
theorem V2_main_v4_1 (c : Dev nD) : V2 m ρ c main_v4_1 = (dat0 (V1 m ρ) c).arrAt 3 cfg0.N := W2_arr m ρ c 3
theorem V2_main_v4_2 (c : Dev nD) : V2 m ρ c main_v4_2 = (dat0 (V1 m ρ) c).arrAt 4 cfg0.N := W2_arr m ρ c 4
/-- its two inputs as entered, -/
theorem V2_main_arg0 (c : Dev nD) : V2 m ρ c main_arg0 = V1 m ρ c main_arg0 :=
  (W2_arr m ρ c 0).trans (((dat0 (V1 m ρ) c).arrAt_in 0 rfl _).trans (A_eq0 (V1 m ρ) c 0))
theorem V2_main_v3 (c : Dev nD) : V2 m ρ c main_v3 = V1 m ρ c main_v3 :=
  (W2_arr m ρ c 1).trans (((dat0 (V1 m ρ) c).arrAt_in 1 rfl _).trans (A_eq0 (V1 m ρ) c 1))
/-- and every buffer that is none of its arrays as entered. -/
theorem V2_of_ne (c : Dev nD) (b : Ref sig .tc) (hb : ∀ w, Pipeline.arrRef spec0 w ≠ b) : V2 m ρ c b = V1 m ρ c b :=
  W2_of_ne m ρ c b hb

/-- Region 1 leaves its output at what its write-backs fold to. -/
theorem W3_main_v5 (c : Dev nD) : W3 m ρ c (Proc.devRef .tc main_v5) = (dat1 (V2 m ρ) c).arrAt 3 cfg1.N := W3_arr m ρ c 3

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := V2_main_arg0 m ρ c
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at W1, left at W2.  Its arrays split out of the
    unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The plain invariant ΦA (nothing carried between points) from what a region's entry hands over: the generator register and the scoped buffers no
    window stages (there are no prefetched tables). -/
theorem ΦA_in1 (c : Dev nD) :
    iprop((∃ r, prngReg c r) ∗ Pipeline.prefHeld (pcfgs (F := F) 1).pre c (fun _ => fullShare) (adm (F := F) 1).1
        ∗ Pipeline.scopedRest (Pipeline.pin (pcfgs (F := F)) adm 1).spec c)
      ⊢ (Pipeline.ΦA spec1 c : sProp 𝕄) := by
  unfold Pipeline.ΦA
  iintro ⟨Hp, -, Hr⟩
  isplitl [Hr]; · iexact Hr
  iexact Hp
/-- and back. -/
theorem ΦA_out1 (c : Dev nD) :
    (Pipeline.ΦA spec1 c : sProp 𝕄)
      ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- REGION 1 over the thread state: entered from every unscoped buffer at W2, left at W3 (what the launch reads at the
    end).  Its invariant starts from the plain one ΦA and ends in it: between the two the scratch buffers carry the
    running maximum, the running sum and the accumulator. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in1 c).trans (hin1 (V2 m ρ) c)
  hout c := by
    rw [Pipeline.ownSems0_none]
    exact (hout1 (V2 m ρ) c).trans (ΦA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents W3. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KI.QkvTile.lean ====
/-
  The projection kernel's payloads over the extended reals, read at coordinates.

  One grid point multiplies a block of 512 input rows (each of 1024 features) by the 1024 × 192 matrix that holds the three
  weight matrices side by side, and stores columns 0..63, 64..127 and 128..191 of the product as the query, key and value
  rows of the block. Changes of float format are the identity on the extended reals.
-/
import proofs.«132881_j16904991277416_2_alg».proof.Proof.Gen.KernelIdeal.Skeleton
import proofs.«132881_j16904991277416_2_alg».proof.Proof.LibLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.QkvTile

open Cert.KernelIdeal Cert.KernelIdeal.Gen Idealize.ShloMosaic Idealize.ShloMosaic.ValueIdx

/-- The product of a block of input rows with the fused weights: entry `(p, g)` is `∑ c, x[0, p, c] · w[c, g]`. -/
theorem prod_apply (x : Vec Ideal S1x512x1024 .f32) (w : Vec Ideal S1024x192 .bf16) (p : Fin 512) (g : Fin 192) :
    k0_pay1 (F := Ideal) x w (ix2 p g) = ∑ c : Fin 1024, x (ix3 (0 : Fin 1) p c) * w (ix2 c g) := by
  unfold k0_pay1
  refine (Cert.LibLayout.matmul_rows_cols_apply dot_S512x1024_S1024x192_S512x192_1_0_0_1_n_n rfl rfl rfl rfl
    (fun j k => ?_) (fun j k => ?_) none _ _ p g).trans ?_
  · unfold DotDims.lhsIdx
    rw [dif_neg (by decide), dif_pos (by decide)]; rfl
  · unfold DotDims.rhsIdx
    rw [dif_neg (by decide), dif_pos (by decide)]; rfl
  · refine Finset.sum_congr rfl fun c _ => ?_
    rw [shapeCast_self]
    exact congrArg (· * w (ix2 c g)) (shapeCast_1ab_ab_apply x _ p c)

/-- The stored query rows are columns 0..63 of the product, -/
theorem q_apply (x : Vec Ideal S1x512x1024 .f32) (w : Vec Ideal S1024x192 .bf16) (u : Fin 1) (p : Fin 512) (h : Fin 64) :
    k0_pay2 (F := Ideal) x w (ix3 u p h) = ∑ c : Fin 1024, x (ix3 (0 : Fin 1) p c) * w (ix2 c ⟨h.val, by omega⟩) := by
  unfold k0_pay2
  refine (shapeCast_ab_1ab_apply _ _ u p h).trans ?_
  refine (truncf_apply (ψ := .bf16) _ bitsLt_bf16_f32 _).trans ?_
  refine (slice2_axis1_apply 0 (k0_pay1 (F := Ideal) x w) slices_S512x192_o0_0_S512x64 p h ⟨h.val, by omega⟩ (by simp)).trans ?_
  exact prod_apply x w p _

/-- the key rows columns 64..127, -/
theorem k_apply (x : Vec Ideal S1x512x1024 .f32) (w : Vec Ideal S1024x192 .bf16) (u : Fin 1) (p : Fin 512) (h : Fin 64) :
    k0_pay3 (F := Ideal) x w (ix3 u p h) = ∑ c : Fin 1024, x (ix3 (0 : Fin 1) p c) * w (ix2 c ⟨64 + h.val, by omega⟩) := by
  unfold k0_pay3
  refine (shapeCast_ab_1ab_apply _ _ u p h).trans ?_
  refine (truncf_apply (ψ := .bf16) _ bitsLt_bf16_f32 _).trans ?_
  refine (slice2_axis1_apply 64 (k0_pay1 (F := Ideal) x w) slices_S512x192_o0_64_S512x64 p h ⟨64 + h.val, by omega⟩ rfl).trans ?_
  exact prod_apply x w p _

/-- the value rows columns 128..191. -/
theorem v_apply (x : Vec Ideal S1x512x1024 .f32) (w : Vec Ideal S1024x192 .bf16) (u : Fin 1) (p : Fin 512) (h : Fin 64) :
    k0_pay4 (F := Ideal) x w (ix3 u p h) = ∑ c : Fin 1024, x (ix3 (0 : Fin 1) p c) * w (ix2 c ⟨128 + h.val, by omega⟩) := by
  unfold k0_pay4
  refine (shapeCast_ab_1ab_apply _ _ u p h).trans ?_
  refine (truncf_apply (ψ := .bf16) _ bitsLt_bf16_f32 _).trans ?_
  refine (slice2_axis1_apply 128 (k0_pay1 (F := Ideal) x w) slices_S512x192_o0_128_S512x64 p h ⟨128 + h.val, by omega⟩ rfl).trans ?_
  exact prod_apply x w p _

end Cert.KernelIdeal.QkvTile

end
-- ==== Proof.KI.QkvValue.lean ====
/-
  What the projection kernel leaves in its three result arrays, over the extended reals.

  Grid point (b, s) reads rows 512·s … 512·s + 511 of batch b of the input and the whole 1024 × 192 fused weight matrix, and
  writes the same rows of batch b of the three results: entry (b, i, h) of result number g (0, 1, 2) is
      ∑ c, x[b, i, c] · w[c, 64·g + h].
  The 32 blocks tile each result array, so each array after the run is that one function of the two arrays the region
  found on entry.
-/
import proofs.«132881_j16904991277416_2_alg».proof.Proof.KI.Qkv
import proofs.«132881_j16904991277416_2_alg».proof.Proof.KI.QkvTile
import Idealize.ShloMosaic.Lib.Pipeline.Value

noncomputable section

namespace Cert.KernelIdeal.QkvValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Rows of `X` against the band of 64 columns of `W` that starts at column `o`. -/
def band (o : Nat) (ho : o + 64 ≤ 192) (X : S4x4096x1024.Idx → EReal) (W : S1024x192.Idx → EReal) : S4x4096x64.Idx → EReal :=
  fun i => ∑ c : Fin 1024, X (ix3 (i 0) (i 1) c) * W (ix2 c ⟨o + (i 2).val, by have h : (i 2).val < 64 := (i 2).isLt; omega⟩)

/-- The printed index maps, decided over the grid: the input rows move with the result rows, the weights never move. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = 0 ∧ win0_1.index t (1 : Fin 2) = 0
    ∧ win0_2.index t (2 : Fin 3) = 0 ∧ win0_2.index t (0 : Fin 3) ≤ 3 ∧ win0_2.index t (1 : Fin 3) ≤ 7
    ∧ win0_3.index t = win0_2.index t ∧ win0_4.index t = win0_2.index t :=
  (by decide +kernel : ∀ t : Fin grid0.N, _)

/-- Every block of a result array is some point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- The input block at point `t`, read at a coordinate of the block, is the input array at the matching row. -/
theorem x_read (c : Dev nD) (t : Fin cfg0.N) (y : S1x512x1024.Idx) (i : S4x4096x1024.Idx)
    (h0 : (i 0).val = win0_2.index t (0 : Fin 3)) (h1 : (i 1).val = win0_2.index t (1 : Fin 3) * 512 + (y 1).val)
    (h2 : (i 2).val = (y 2).val) :
    (iblk0 V c 0 t : Vec Ideal S1x512x1024 .f32) y = V c main_arg0 i := by
  obtain ⟨e0, e1, e2, -⟩ := idx_facts t
  unfold iblk0
  rw [View.read_apply]
  show V c main_arg0 (((cfg0.win 0).blk t).view.emb y) = V c main_arg0 i
  refine congrArg (V c main_arg0) (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 1024 + 1 * (y 2).val = (i 2).val; omega

/-- The weight block is the whole weight array at every point. -/
theorem w_read (c : Dev nD) (t : Fin cfg0.N) (y : S1024x192.Idx) :
    (iblk0 V c 1 t : Vec Ideal S1024x192 .bf16) y = V c main_v3 y := by
  obtain ⟨-, -, -, e3, e4, -⟩ := idx_facts t
  unfold iblk0
  rw [View.read_apply]
  show V c main_v3 (((cfg0.win 1).blk t).view.emb y) = V c main_v3 y
  refine congrArg (V c main_v3) (funext fun a => Fin.ext ?_)
  match a with
  | ⟨0, _⟩ => show win0_1.index t (0 : Fin 2) * 1024 + 1 * (y 0).val = (y 0).val; omega
  | ⟨1, _⟩ => show win0_1.index t (1 : Fin 2) * 192 + 1 * (y 1).val = (y 1).val; omega

/-! ## Result 0: window 2, the band of columns from 0 -/

/-- The printed index maps of window 2, decided over the grid. -/
theorem idx_facts2 : ∀ t : Fin cfg0.N,
    win0_0.index t (0 : Fin 3) = win0_2.index t (0 : Fin 3) ∧ win0_0.index t (1 : Fin 3) = win0_2.index t (1 : Fin 3)
    ∧ win0_2.index t (2 : Fin 3) = 0 ∧ win0_2.index t (0 : Fin 3) ≤ 3 ∧ win0_2.index t (1 : Fin 3) ≤ 7 :=
  (by decide +kernel : ∀ t : Fin grid0.N, _)

theorem idx_onto2 : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- What point `t` writes back in this result is block `t` of the band function of the two arrays. -/
theorem flushed2_eq (c : Dev nD) (t : Fin cfg0.N) :
    (dat0 V c).flushed 2 t = ((cfg0.win 2).blk t).view.read (Elt Ideal) (band 0 (by omega) (V c main_arg0) (V c main_v3)) := by
  show (cfg0.win 2).cut (grid0.coords t) ((dat0 V c).after 2 t) = _
  rw [after0_2]
  unfold out0_2
  rw [View.canon_unit_zero hz3]
  simp only [View.ld_unit_zero (S := S1x512x1024) hz3, View.ld_unit_zero (S := S1024x192) hz2]
  obtain ⟨f0, f1, f2, -, -⟩ := idx_facts2 t
  obtain ⟨e0, e1, -⟩ := idx_facts t
  funext j
  obtain ⟨u, p, h, rfl⟩ : ∃ (u : Fin 1) (p : Fin 512) (h : Fin 64), j = ix3 u p h := ⟨j 0, j 1, j 2, eq_ix3 j⟩
  have hu : u.val < 1 := u.isLt
  refine (QkvTile.q_apply _ _ u p h).trans ?_
  rw [View.read_apply]
  unfold band
  refine Finset.sum_congr rfl fun k _ => ?_
  refine congrArg₂ (· * ·) ?_ ?_
  · refine x_read V c t (ix3 (0 : Fin 1) p k) _ ?_ ?_ ?_
    · show win0_2.index t (0 : Fin 3) * 1 + 1 * u.val = win0_2.index t (0 : Fin 3); omega
    · show win0_2.index t (1 : Fin 3) * 512 + 1 * p.val = win0_2.index t (1 : Fin 3) * 512 + p.val; omega
    · rfl
  · refine (w_read V c t _).trans (congrArg (V c main_v3) (funext fun a => Fin.ext ?_))
    match a with
    | ⟨0, _⟩ => rfl
    | ⟨1, _⟩ => show h.val = 0 + (win0_2.index t (2 : Fin 3) * 64 + 1 * h.val); omega

/-- An index of the array is in point `t`'s block iff each coordinate is in the block's range on its axis. -/
theorem mem_blk2 (t : Fin cfg0.N) (i : S4x4096x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v4_0).slice (win0_2.rect t)).set ↔ _
  rw [View.set_slice_whole, Rect.mem_set_unit]
  exact Iff.rfl

/-- The 32 blocks cover the array. -/
theorem cover2 (i : S4x4096x64.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := idx_onto2 ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- THE ARRAY after the region: the band function of the input rows and the fused weights the region found. -/
theorem final_q (c : Dev nD) : (dat0 V c).arrAt 2 cfg0.N = band 0 (by omega) (V c main_arg0) (V c main_v3) :=
  (dat0 V c).arrAt_eq_of_cover 2 _ (fun t _ => flushed2_eq V c t) (cover2)

/-! ## Result 1: window 3, the band of columns from 64 -/

/-- The printed index maps of window 3, decided over the grid. -/
theorem idx_facts3 : ∀ t : Fin cfg0.N,
    win0_0.index t (0 : Fin 3) = win0_3.index t (0 : Fin 3) ∧ win0_0.index t (1 : Fin 3) = win0_3.index t (1 : Fin 3)
    ∧ win0_3.index t (2 : Fin 3) = 0 ∧ win0_3.index t (0 : Fin 3) ≤ 3 ∧ win0_3.index t (1 : Fin 3) ≤ 7 :=
  (by decide +kernel : ∀ t : Fin grid0.N, _)

theorem idx_onto3 : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- What point `t` writes back in this result is block `t` of the band function of the two arrays. -/
theorem flushed3_eq (c : Dev nD) (t : Fin cfg0.N) :
    (dat0 V c).flushed 3 t = ((cfg0.win 3).blk t).view.read (Elt Ideal) (band 64 (by omega) (V c main_arg0) (V c main_v3)) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x192) hz2]
  obtain ⟨f0, f1, f2, -, -⟩ := idx_facts3 t
  obtain ⟨e0, e1, -⟩ := idx_facts t
  funext j
  obtain ⟨u, p, h, rfl⟩ : ∃ (u : Fin 1) (p : Fin 512) (h : Fin 64), j = ix3 u p h := ⟨j 0, j 1, j 2, eq_ix3 j⟩
  have hu : u.val < 1 := u.isLt
  refine (QkvTile.k_apply _ _ u p h).trans ?_
  rw [View.read_apply]
  unfold band
  refine Finset.sum_congr rfl fun k _ => ?_
  refine congrArg₂ (· * ·) ?_ ?_
  · refine x_read V c t (ix3 (0 : Fin 1) p k) _ ?_ ?_ ?_
    · show win0_3.index t (0 : Fin 3) * 1 + 1 * u.val = win0_2.index t (0 : Fin 3); omega
    · show win0_3.index t (1 : Fin 3) * 512 + 1 * p.val = win0_2.index t (1 : Fin 3) * 512 + p.val; omega
    · rfl
  · refine (w_read V c t _).trans (congrArg (V c main_v3) (funext fun a => Fin.ext ?_))
    match a with
    | ⟨0, _⟩ => rfl
    | ⟨1, _⟩ => show 64 + h.val = 64 + (win0_3.index t (2 : Fin 3) * 64 + 1 * h.val); omega

/-- An index of the array is in point `t`'s block iff each coordinate is in the block's range on its axis. -/
theorem mem_blk3 (t : Fin cfg0.N) (i : S4x4096x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v4_1).slice (win0_3.rect t)).set ↔ _
  rw [View.set_slice_whole, Rect.mem_set_unit]
  exact Iff.rfl

/-- The 32 blocks cover the array. -/
theorem cover3 (i : S4x4096x64.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE ARRAY after the region: the band function of the input rows and the fused weights the region found. -/
theorem final_k (c : Dev nD) : (dat0 V c).arrAt 3 cfg0.N = band 64 (by omega) (V c main_arg0) (V c main_v3) :=
  (dat0 V c).arrAt_eq_of_cover 3 _ (fun t _ => flushed3_eq V c t) (cover3)

/-! ## Result 2: window 4, the band of columns from 128 -/

/-- The printed index maps of window 4, decided over the grid. -/
theorem idx_facts4 : ∀ t : Fin cfg0.N,
    win0_0.index t (0 : Fin 3) = win0_4.index t (0 : Fin 3) ∧ win0_0.index t (1 : Fin 3) = win0_4.index t (1 : Fin 3)
    ∧ win0_4.index t (2 : Fin 3) = 0 ∧ win0_4.index t (0 : Fin 3) ≤ 3 ∧ win0_4.index t (1 : Fin 3) ≤ 7 :=
  (by decide +kernel : ∀ t : Fin grid0.N, _)

theorem idx_onto4 : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- What point `t` writes back in this result is block `t` of the band function of the two arrays. -/
theorem flushed4_eq (c : Dev nD) (t : Fin cfg0.N) :
    (dat0 V c).flushed 4 t = ((cfg0.win 4).blk t).view.read (Elt Ideal) (band 128 (by omega) (V c main_arg0) (V c main_v3)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x192) hz2]
  obtain ⟨f0, f1, f2, -, -⟩ := idx_facts4 t
  obtain ⟨e0, e1, -⟩ := idx_facts t
  funext j
  obtain ⟨u, p, h, rfl⟩ : ∃ (u : Fin 1) (p : Fin 512) (h : Fin 64), j = ix3 u p h := ⟨j 0, j 1, j 2, eq_ix3 j⟩
  have hu : u.val < 1 := u.isLt
  refine (QkvTile.v_apply _ _ u p h).trans ?_
  rw [View.read_apply]
  unfold band
  refine Finset.sum_congr rfl fun k _ => ?_
  refine congrArg₂ (· * ·) ?_ ?_
  · refine x_read V c t (ix3 (0 : Fin 1) p k) _ ?_ ?_ ?_
    · show win0_4.index t (0 : Fin 3) * 1 + 1 * u.val = win0_2.index t (0 : Fin 3); omega
    · show win0_4.index t (1 : Fin 3) * 512 + 1 * p.val = win0_2.index t (1 : Fin 3) * 512 + p.val; omega
    · rfl
  · refine (w_read V c t _).trans (congrArg (V c main_v3) (funext fun a => Fin.ext ?_))
    match a with
    | ⟨0, _⟩ => rfl
    | ⟨1, _⟩ => show 128 + h.val = 128 + (win0_4.index t (2 : Fin 3) * 64 + 1 * h.val); omega

/-- An index of the array is in point `t`'s block iff each coordinate is in the block's range on its axis. -/
theorem mem_blk4 (t : Fin cfg0.N) (i : S4x4096x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v4_2).slice (win0_4.rect t)).set ↔ _
  rw [View.set_slice_whole, Rect.mem_set_unit]
  exact Iff.rfl

/-- The 32 blocks cover the array. -/
theorem cover4 (i : S4x4096x64.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ARRAY after the region: the band function of the input rows and the fused weights the region found. -/
theorem final_v (c : Dev nD) : (dat0 V c).arrAt 4 cfg0.N = band 128 (by omega) (V c main_arg0) (V c main_v3) :=
  (dat0 V c).arrAt_eq_of_cover 4 _ (fun t _ => flushed4_eq V c t) (cover4)

end Cert.KernelIdeal.QkvValue

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.KI.HostValue.lean ====
/-
  The fused weight matrix the host builds before the first kernel: the query weights scaled by 1/8, the key weights and
  the value weights side by side, 1024 × 192; the change of float format is the identity on the extended reals.
-/
import proofs.«132881_j16904991277416_2_alg».proof.Proof.Gen.KernelIdeal.Launch
import proofs.«132881_j16904991277416_2_alg».proof.Proof.LibConcat3
import Idealize.ShloMosaic.Lib.StableHlo.Run
import Idealize.ShloMosaic.Lib.ValueIdx
import Idealize.ShloMosaic.Lib.Pipeline.Value

noncomputable section

namespace Cert.KernelIdeal.HostValue

open Cert.KernelIdeal Cert.KernelIdeal.Gen
open Idealize.ShloMosaic Idealize.ShloMosaic.TcCoe Idealize.SL.Sem Idealize.ShloMosaic.ValueIdx Idealize.ShloMosaic.StableHlo

/-- A weight array read at coordinates. -/
abbrev at2 (X : S1024x64.Idx → EReal) (c : Fin 1024) (h : Fin 64) : EReal := X (ix2 c h)

/-- The fused weights as the host operations compute them from the three weight arrays. -/
theorem fused_eq (W : Valuation τ sig (Elt Ideal)) :
    (StableHlo.after (hostOps0 (F := Ideal)) W (Proc.devRef .tc main_v3) : S1024x192.Idx → EReal)
      = truncf .bf16 (concatenate S1024x192 1 [⟨S1024x64, mulf (W (Proc.devRef .tc main_arg1) : S1024x64.Idx → EReal) (broadcastInDim S1024x64 ![] bcast_S_S1024x64 (constant (F := Ideal) S_ .f32 0x3E000000#32))⟩,
          ⟨S1024x64, (W (Proc.devRef .tc main_arg2) : S1024x64.Idx → EReal)⟩, ⟨S1024x64, (W (Proc.devRef .tc main_arg3) : S1024x64.Idx → EReal)⟩] concatenates_S1024x64_S1024x64_S1024x64_S1024x192_d1) bitsLt_bf16_f32 := by
  after_results
  rfl

/-- Columns 0..63 hold the query weights times the scale, -/
theorem fused_q (W : Valuation τ sig (Elt Ideal)) (c : Fin 1024) (h : Fin 64) :
    (StableHlo.after (hostOps0 (F := Ideal)) W (Proc.devRef .tc main_v3) : S1024x192.Idx → EReal) (ix2 c (⟨h.val, by omega⟩ : Fin 192))
      = at2 (W (Proc.devRef .tc main_arg1)) c h * Ideal.ofBits .f32 0x3E000000#32 := by
  rw [fused_eq]
  refine (truncf_apply (ψ := .bf16) _ bitsLt_bf16_f32 _).trans ?_
  refine (Cert.LibConcat3.concat3_cols_apply_fst (b := 192) _ _ _ concatenates_S1024x64_S1024x64_S1024x64_S1024x192_d1 c ⟨h.val, by omega⟩ h rfl).trans ?_
  rfl

/-- columns 64..127 the key weights, -/
theorem fused_k (W : Valuation τ sig (Elt Ideal)) (c : Fin 1024) (h : Fin 64) :
    (StableHlo.after (hostOps0 (F := Ideal)) W (Proc.devRef .tc main_v3) : S1024x192.Idx → EReal) (ix2 c (⟨64 + h.val, by omega⟩ : Fin 192))
      = at2 (W (Proc.devRef .tc main_arg2)) c h := by
  rw [fused_eq]
  refine (truncf_apply (ψ := .bf16) _ bitsLt_bf16_f32 _).trans ?_
  exact Cert.LibConcat3.concat3_cols_apply_snd (b := 192) _ _ _ concatenates_S1024x64_S1024x64_S1024x64_S1024x192_d1 c ⟨64 + h.val, by omega⟩ h rfl

/-- columns 128..191 the value weights. -/
theorem fused_v (W : Valuation τ sig (Elt Ideal)) (c : Fin 1024) (h : Fin 64) :
    (StableHlo.after (hostOps0 (F := Ideal)) W (Proc.devRef .tc main_v3) : S1024x192.Idx → EReal) (ix2 c (⟨128 + h.val, by omega⟩ : Fin 192))
      = at2 (W (Proc.devRef .tc main_arg3)) c h := by
  rw [fused_eq]
  refine (truncf_apply (ψ := .bf16) _ bitsLt_bf16_f32 _).trans ?_
  exact Cert.LibConcat3.concat3_cols_apply_thd (b := 192) _ _ _ concatenates_S1024x64_S1024x64_S1024x64_S1024x192_d1 c ⟨128 + h.val, by omega⟩ h rfl

end Cert.KernelIdeal.HostValue

end
-- ==== Proof.LibOnlineSoftmax.lean ====
/-
  The online softmax: a row of scores is read tile by tile, keeping a running maximum `m`, a running
  denominator `l` and a running weighted sum `acc`; each new tile rescales what was kept by
  `exp (m_old − m_new)`. On the extended reals, for scores that are real or `-∞` (never `+∞`) and real
  values, the state after any set `A` of columns holding at least one real score is
      m = sup_{j ∈ A} s j,   l = ∑_{j ∈ A} exp (s j − m),   acc = ∑_{j ∈ A} exp (s j − m) · v j
  (the empty set gives the start state `m = -∞, l = 0, acc = 0`), and `acc / l` is the softmax-weighted
  sum `∑_{j ∈ A} (exp (s j − m) / l) · v j`. Columns scoring `-∞` weigh nothing, so a row may be
  extended by such columns without changing any of the three.

  The one law used is `exp (μ − μ') · exp (r − μ) = exp (r − μ')` on the reals; every quantity is shown
  to be the image of a real number, where products distribute over sums.
-/
import Idealize.ShloMosaic.PureOps.Ideal

noncomputable section

namespace Cert.OnlineSoftmax

open Idealize.ShloMosaic

variable {ι : Type} [DecidableEq ι]

/-- The image of a finite real sum is the sum of the images. -/
theorem coe_sum (A : Finset ι) (f : ι → ℝ) : ((∑ j ∈ A, f j : ℝ) : EReal) = ∑ j ∈ A, (f j : EReal) := by
  induction A using Finset.induction_on with
  | empty => simp
  | insert a A ha ih => rw [Finset.sum_insert ha, Finset.sum_insert ha, EReal.coe_add, ih]

/-- The real weight of a score `x` against a real maximum `μ`: `exp (x − μ)`, and `0` for `x = -∞`. -/
def wt (x : EReal) (μ : ℝ) : ℝ := if x = ⊥ then 0 else Real.exp (x.toReal - μ)

theorem wt_nonneg (x : EReal) (μ : ℝ) : 0 ≤ wt x μ := by
  unfold wt; split_ifs
  · exact le_rfl
  · exact (Real.exp_pos _).le

theorem wt_coe (r μ : ℝ) : wt (r : EReal) μ = Real.exp (r - μ) := by
  unfold wt; rw [if_neg (EReal.coe_ne_bot r), EReal.toReal_coe]

theorem wt_bot (μ : ℝ) : wt ⊥ μ = 0 := by unfold wt; rw [if_pos rfl]

/-- `exp (x − μ)` on the extended reals is the image of the real weight. -/
theorem exp_sub (x : EReal) (hx : x ≠ ⊤) (μ : ℝ) : Ideal.exp (x - (μ : EReal)) = ((wt x μ : ℝ) : EReal) := by
  induction x using EReal.rec with
  | bot => rw [EReal.bot_sub, wt_bot]; rfl
  | coe r => rw [← EReal.coe_sub, wt_coe]; rfl
  | top => exact absurd rfl hx

/-- The rescaling law: `exp (μ − μ') · exp (x − μ) = exp (x − μ')`. -/
theorem rescale (x : EReal) (μ μ' : ℝ) : Real.exp (μ - μ') * wt x μ = wt x μ' := by
  unfold wt; split_ifs
  · exact mul_zero _
  · rw [← Real.exp_add]; congr 1; ring

/-- A score that is real or `-∞`. -/
def Score (x : EReal) : Prop := x ≠ ⊤

/-- The supremum of finitely many scores, one of them real, is real. -/
theorem sup_real (s : ι → EReal) (A : Finset ι) (hs : ∀ j ∈ A, s j ≠ ⊤) (hA : ∃ j ∈ A, s j ≠ ⊥) :
    ∃ μ : ℝ, A.sup s = (μ : EReal) := by
  obtain ⟨j0, hj0, hne⟩ := hA
  obtain ⟨j1, hj1, he⟩ := Finset.exists_mem_eq_sup A ⟨j0, hj0⟩ s
  have hle : s j0 ≤ A.sup s := Finset.le_sup hj0
  have htop : A.sup s ≠ ⊤ := he ▸ hs j1 hj1
  have hbot : A.sup s ≠ ⊥ := fun h => hne (le_bot_iff.mp (h ▸ hle))
  exact ⟨(A.sup s).toReal, (EReal.coe_toReal htop hbot).symm⟩

/-- Every score is at most the supremum, so its weight against it is at most one; the largest weighs one. -/
theorem exists_wt_one (s : ι → EReal) (A : Finset ι) (hA : ∃ j ∈ A, s j ≠ ⊥) (μ : ℝ) (hμ : A.sup s = (μ : EReal)) :
    ∃ j ∈ A, wt (s j) μ = 1 := by
  obtain ⟨j0, hj0, _⟩ := hA
  obtain ⟨j1, hj1, he⟩ := Finset.exists_mem_eq_sup A ⟨j0, hj0⟩ s
  refine ⟨j1, hj1, ?_⟩
  rw [← he, hμ, wt_coe, sub_self, Real.exp_zero]

/-- The denominator is a positive real. -/
theorem den_pos (s : ι → EReal) (A : Finset ι) (hA : ∃ j ∈ A, s j ≠ ⊥) (μ : ℝ) (hμ : A.sup s = (μ : EReal)) :
    0 < ∑ j ∈ A, wt (s j) μ := by
  obtain ⟨j, hj, h1⟩ := exists_wt_one s A hA μ hμ
  calc (0 : ℝ) < 1 := one_pos
    _ = wt (s j) μ := h1.symm
    _ ≤ ∑ j ∈ A, wt (s j) μ := Finset.single_le_sum (f := fun j => wt (s j) μ) (fun i _ => wt_nonneg _ _) hj

/-- The denominator over the extended reals is the image of the real denominator. -/
theorem den_coe (s : ι → EReal) (A : Finset ι) (hs : ∀ j ∈ A, s j ≠ ⊤) (μ : ℝ) :
    ∑ j ∈ A, Ideal.exp (s j - (μ : EReal)) = ((∑ j ∈ A, wt (s j) μ : ℝ) : EReal) := by
  rw [coe_sum]; exact Finset.sum_congr rfl fun j hj => exp_sub (s j) (hs j hj) μ

/-- The weighted sum over the extended reals is the image of the real weighted sum. -/
theorem acc_coe (s : ι → EReal) (v : ι → ℝ) (A : Finset ι) (hs : ∀ j ∈ A, s j ≠ ⊤) (μ : ℝ) :
    ∑ j ∈ A, Ideal.exp (s j - (μ : EReal)) * (v j : EReal) = ((∑ j ∈ A, wt (s j) μ * v j : ℝ) : EReal) := by
  rw [coe_sum]; exact Finset.sum_congr rfl fun j hj => by rw [exp_sub (s j) (hs j hj) μ, EReal.coe_mul]

/-- ONE STEP of the online softmax. `A` is what has been read (possibly nothing), `B` the new tile,
    disjoint from it; the scores are real or `-∞`, one of `A ∪ B` is real, and `A`, if not empty, already
    holds a real one. Then the new maximum is the supremum over `A ∪ B`, and the kept denominator and
    weighted sum, rescaled by `exp (m_old − m_new)`, plus the tile's own, are those of `A ∪ B`. -/
theorem step (s : ι → EReal) (v : ι → ℝ) (A B : Finset ι) (hd : Disjoint A B)
    (hs : ∀ j ∈ A ∪ B, s j ≠ ⊤) (hA : A = ∅ ∨ ∃ j ∈ A, s j ≠ ⊥) (hAB : ∃ j ∈ A ∪ B, s j ≠ ⊥) :
    max (A.sup s) (B.sup s) = (A ∪ B).sup s
    ∧ Ideal.exp (A.sup s - (A ∪ B).sup s) * (∑ j ∈ A, Ideal.exp (s j - A.sup s))
        + ∑ j ∈ B, Ideal.exp (s j - (A ∪ B).sup s)
      = ∑ j ∈ A ∪ B, Ideal.exp (s j - (A ∪ B).sup s)
    ∧ Ideal.exp (A.sup s - (A ∪ B).sup s) * (∑ j ∈ A, Ideal.exp (s j - A.sup s) * (v j : EReal))
        + ∑ j ∈ B, Ideal.exp (s j - (A ∪ B).sup s) * (v j : EReal)
      = ∑ j ∈ A ∪ B, Ideal.exp (s j - (A ∪ B).sup s) * (v j : EReal) := by
  refine ⟨(Finset.sup_union).symm, ?_, ?_⟩
  all_goals rw [Finset.sum_union hd]; congr 1
  all_goals
    rcases hA with rfl | hA
    · simp only [Finset.sum_empty, mul_zero]
    · obtain ⟨μ, hμ⟩ := sup_real s A (fun j hj => hs j (Finset.mem_union_left _ hj)) hA
      obtain ⟨μ', hμ'⟩ := sup_real s (A ∪ B) hs hAB
      have hsA : ∀ j ∈ A, s j ≠ ⊤ := fun j hj => hs j (Finset.mem_union_left _ hj)
      rw [hμ, hμ', ← EReal.coe_sub]
      first
        | rw [den_coe s A hsA μ, den_coe s A hsA μ', show Ideal.exp ((μ - μ' : ℝ) : EReal) = ((Real.exp (μ - μ') : ℝ) : EReal) from rfl,
            ← EReal.coe_mul, Finset.mul_sum]
          exact congrArg _ (Finset.sum_congr rfl fun j _ => rescale (s j) μ μ')
        | rw [acc_coe s v A hsA μ, acc_coe s v A hsA μ', show Ideal.exp ((μ - μ' : ℝ) : EReal) = ((Real.exp (μ - μ') : ℝ) : EReal) from rfl,
            ← EReal.coe_mul, Finset.mul_sum]
          exact congrArg _ (Finset.sum_congr rfl fun j _ => by rw [← mul_assoc, rescale (s j) μ μ'])

/-- THE END of the online softmax: the weighted sum divided by the denominator is the softmax-weighted sum. -/
theorem finish (s : ι → EReal) (v : ι → ℝ) (A : Finset ι) (hs : ∀ j ∈ A, s j ≠ ⊤) (hA : ∃ j ∈ A, s j ≠ ⊥) :
    Ideal.div (∑ j ∈ A, Ideal.exp (s j - A.sup s) * (v j : EReal)) (∑ j ∈ A, Ideal.exp (s j - A.sup s))
      = ∑ j ∈ A, Ideal.div (Ideal.exp (s j - A.sup s)) (∑ j ∈ A, Ideal.exp (s j - A.sup s)) * (v j : EReal) := by
  obtain ⟨μ, hμ⟩ := sup_real s A hs hA
  have hpos := den_pos s A hA μ hμ
  have hne : ((∑ j ∈ A, wt (s j) μ : ℝ) : EReal) ≠ 0 := by
    rw [ne_eq, EReal.coe_eq_zero]; exact hpos.ne'
  rw [hμ, den_coe s A hs μ, acc_coe s v A hs μ]
  unfold Ideal.div
  rw [if_neg hne, ← EReal.coe_inv, ← EReal.coe_mul, Finset.sum_mul, coe_sum]
  refine Finset.sum_congr rfl fun j hj => ?_
  rw [if_neg hne, exp_sub (s j) (hs j hj) μ, ← EReal.coe_mul, ← EReal.coe_mul]
  congr 1; ring

/-- Columns scoring `-∞` change neither the maximum nor, against a real maximum, any sum: a row's three
    quantities over a set `A` are those over any larger set whose extra columns all score `-∞`. -/
theorem extend_sup (s : ι → EReal) (A C : Finset ι) (hAC : A ⊆ C) (hbot : ∀ j ∈ C, j ∉ A → s j = ⊥) :
    C.sup s = A.sup s := by
  apply le_antisymm
  · refine Finset.sup_le fun j hj => ?_
    by_cases hjA : j ∈ A
    · exact Finset.le_sup hjA
    · rw [hbot j hj hjA]; exact bot_le
  · exact Finset.sup_mono hAC

theorem extend_sum (s : ι → EReal) (f : ι → EReal → EReal) (A C : Finset ι) (hAC : A ⊆ C) (μ : ℝ)
    (hbot : ∀ j ∈ C, j ∉ A → s j = ⊥) (hf : ∀ j, f j 0 = 0) :
    ∑ j ∈ C, f j (Ideal.exp (s j - (μ : EReal))) = ∑ j ∈ A, f j (Ideal.exp (s j - (μ : EReal))) := by
  refine (Finset.sum_subset hAC fun j hj hjA => ?_).symm
  rw [hbot j hj hjA, EReal.bot_sub]; exact hf j

/-- THE WHOLE ROW from a prefix: when every column outside `A` scores `-∞`, the kept weighted sum over the kept
    denominator is the softmax-weighted sum over ALL columns, with the maximum and the denominator taken over all columns. -/
theorem row_final (s : ι → EReal) (v : ι → ℝ) [Fintype ι] (A : Finset ι) (hs : ∀ j, s j ≠ ⊤) (hA : ∃ j ∈ A, s j ≠ ⊥)
    (hbot : ∀ j, j ∉ A → s j = ⊥) :
    Ideal.div (∑ j ∈ A, Ideal.exp (s j - A.sup s) * (v j : EReal)) (∑ j ∈ A, Ideal.exp (s j - A.sup s))
      = ∑ j, Ideal.div (Ideal.exp (s j - Finset.univ.sup s)) (∑ j', Ideal.exp (s j' - Finset.univ.sup s)) * (v j : EReal) := by
  rw [finish s v A (fun j _ => hs j) hA]
  have hsup : Finset.univ.sup s = A.sup s := extend_sup s A Finset.univ (Finset.subset_univ _) fun j _ hj => hbot j hj
  obtain ⟨μ, hμ⟩ := sup_real s A (fun j _ => hs j) hA
  have hpos := den_pos s A hA μ hμ
  rw [hsup, hμ]
  have hden : ∑ j', Ideal.exp (s j' - (μ : EReal)) = ∑ j ∈ A, Ideal.exp (s j - (μ : EReal)) :=
    extend_sum s (fun _ x => x) A Finset.univ (Finset.subset_univ _) μ (fun j _ hj => hbot j hj) (fun _ => rfl)
  rw [hden]
  have hne : ∑ j ∈ A, Ideal.exp (s j - (μ : EReal)) ≠ 0 := by
    rw [den_coe s A (fun j _ => hs j) μ, ne_eq, EReal.coe_eq_zero]; exact hpos.ne'
  refine (extend_sum s (fun j x => Ideal.div x (∑ j ∈ A, Ideal.exp (s j - (μ : EReal))) * (v j : EReal)) A Finset.univ
    (Finset.subset_univ _) μ (fun j _ hj => hbot j hj) (fun j => ?_)).symm
  unfold Ideal.div
  rw [if_neg hne, zero_mul, zero_mul]

/-! ## A row read in consecutive tiles of equal width -/

section Tiles

variable {N : ℕ}

/-- The columns before tile `k` (tiles of width `w`). -/
def before (w k : ℕ) : Finset (Fin N) := Finset.univ.filter fun j => j.val < k * w
/-- The columns of tile `k`. -/
def tile (w k : ℕ) : Finset (Fin N) := Finset.univ.filter fun j => k * w ≤ j.val ∧ j.val < (k + 1) * w

theorem before_zero (w : ℕ) : (before w 0 : Finset (Fin N)) = ∅ := by
  unfold before; rw [Finset.filter_eq_empty_iff]; intro j _; omega

theorem before_succ (w k : ℕ) : (before w (k + 1) : Finset (Fin N)) = before w k ∪ tile w k := by
  ext j
  simp only [before, tile, Finset.mem_union, Finset.mem_filter, Finset.mem_univ, true_and]
  constructor
  · intro h; by_cases h' : j.val < k * w
    · exact Or.inl h'
    · exact Or.inr ⟨by omega, h⟩
  · rintro (h | h)
    · have : k * w ≤ (k + 1) * w := Nat.mul_le_mul_right _ (Nat.le_succ _); omega
    · exact h.2

theorem before_disjoint (w k : ℕ) : Disjoint (before w k : Finset (Fin N)) (tile w k) := by
  rw [Finset.disjoint_left]; intro j hj hj'
  simp only [before, tile, Finset.mem_filter, Finset.mem_univ, true_and] at hj hj'
  omega

/-- Column `c` of tile `k`. -/
def col (w k : ℕ) (hk : (k + 1) * w ≤ N) (c : Fin w) : Fin N :=
  ⟨k * w + c.val, by have := c.isLt; have : (k + 1) * w = k * w + w := by ring
                     omega⟩

/-- A sum over a tile is the sum over its columns. -/
theorem sum_tile {M : Type*} [AddCommMonoid M] (w k : ℕ) (hk : (k + 1) * w ≤ N) (f : Fin N → M) :
    ∑ j ∈ tile w k, f j = ∑ c : Fin w, f (col w k hk c) := by
  symm
  refine Finset.sum_bij (fun c _ => col w k hk c) (fun c _ => ?_) (fun c _ c' _ h => ?_) (fun j hj => ?_) (fun _ _ => rfl)
  · simp only [tile, col, Finset.mem_filter, Finset.mem_univ, true_and]
    have := c.isLt; have : (k + 1) * w = k * w + w := by ring
    omega
  · have := congrArg Fin.val h; simp only [col] at this; exact Fin.ext (by omega)
  · simp only [tile, Finset.mem_filter, Finset.mem_univ, true_and] at hj
    have e : (k + 1) * w = k * w + w := by ring
    exact ⟨⟨j.val - k * w, by omega⟩, Finset.mem_univ _, Fin.ext (by simp only [col]; omega)⟩

/-- The supremum over a tile is the supremum over its columns. -/
theorem sup_tile (w k : ℕ) (hk : (k + 1) * w ≤ N) (s : Fin N → EReal) :
    (tile w k).sup s = Finset.univ.sup fun c : Fin w => s (col w k hk c) := by
  apply le_antisymm
  · refine Finset.sup_le fun j hj => ?_
    simp only [tile, Finset.mem_filter, Finset.mem_univ, true_and] at hj
    have e : (k + 1) * w = k * w + w := by ring
    have : j = col w k hk ⟨j.val - k * w, by omega⟩ := Fin.ext (by simp only [col]; omega)
    rw [this]; exact Finset.le_sup (f := fun c : Fin w => s (col w k hk c)) (Finset.mem_univ _)
  · refine Finset.sup_le fun c _ => ?_
    refine Finset.le_sup (f := s) ?_
    simp only [tile, col, Finset.mem_filter, Finset.mem_univ, true_and]
    have := c.isLt; have : (k + 1) * w = k * w + w := by ring
    omega

/-- ONE TILE of the online softmax, as a kernel computes it: from the state over the columns before tile `k`, the
    tile's scores `T` and values `vt` give the state over the columns before tile `k + 1`. Column 0 of the row
    scores a real number (so every non-empty prefix has a real score). -/
theorem tile_step (w k : ℕ) (hw : 0 < w) (hk : (k + 1) * w ≤ N) (s : Fin N → EReal) (v : Fin N → ℝ)
    (hs : ∀ j, s j ≠ ⊤) (h0 : s ⟨0, by have : w ≤ (k + 1) * w := Nat.le_mul_of_pos_left _ (Nat.succ_pos _); omega⟩ ≠ ⊥)
    (T : Fin w → EReal) (hT : ∀ c, T c = s (col w k hk c)) (vt : Fin w → EReal) (hv : ∀ c, vt c = (v (col w k hk c) : EReal)) :
    max ((before w k).sup s) (Finset.univ.sup T) = (before w (k + 1)).sup s
    ∧ Ideal.exp ((before w k).sup s - (before w (k + 1)).sup s) * (∑ j ∈ before w k, Ideal.exp (s j - (before w k).sup s))
        + ∑ c : Fin w, Ideal.exp (T c - (before w (k + 1)).sup s)
      = ∑ j ∈ before w (k + 1), Ideal.exp (s j - (before w (k + 1)).sup s)
    ∧ Ideal.exp ((before w k).sup s - (before w (k + 1)).sup s) * (∑ j ∈ before w k, Ideal.exp (s j - (before w k).sup s) * (v j : EReal))
        + ∑ c : Fin w, Ideal.exp (T c - (before w (k + 1)).sup s) * vt c
      = ∑ j ∈ before w (k + 1), Ideal.exp (s j - (before w (k + 1)).sup s) * (v j : EReal) := by
  have hw' : w ≤ (k + 1) * w := Nat.le_mul_of_pos_left _ (Nat.succ_pos _)
  have hmem : (⟨0, by omega⟩ : Fin N) ∈ before w (k + 1) := by
    simp only [before, Finset.mem_filter, Finset.mem_univ, true_and]; omega
  have hA : (before w k : Finset (Fin N)) = ∅ ∨ ∃ j ∈ before w k, s j ≠ ⊥ := by
    rcases Nat.eq_zero_or_pos k with rfl | hkpos
    · exact Or.inl (before_zero w)
    · refine Or.inr ⟨⟨0, by omega⟩, ?_, h0⟩
      simp only [before, Finset.mem_filter, Finset.mem_univ, true_and]
      exact Nat.mul_pos hkpos hw
  have hT' : (fun c : Fin w => s (col w k hk c)) = T := funext fun c => (hT c).symm
  obtain ⟨e1, e2, e3⟩ := step s v (before w k) (tile w k) (before_disjoint w k) (fun j _ => hs j) hA
    (by rw [← before_succ]; exact ⟨_, hmem, h0⟩)
  rw [← before_succ] at e1 e2 e3
  rw [sup_tile w k hk s, hT'] at e1
  rw [sum_tile w k hk] at e2 e3
  refine ⟨e1, ?_, ?_⟩
  · rw [← e2]; congr 1
    exact Finset.sum_congr rfl fun c _ => by rw [hT c]
  · rw [← e3]; congr 1
    exact Finset.sum_congr rfl fun c _ => by rw [hT c, hv c]

end Tiles

end Cert.OnlineSoftmax

end
-- ==== Proof.AttnMath.lean ====
/-
  The attention the two kernels compute from their three projected arrays is the specification's.

  The first kernel leaves query rows projected by the query weights ALREADY multiplied by the scale 1/8, where the
  specification multiplies each score by the scale afterwards; for real inputs the two agree, a product distributing over
  a finite sum of reals. Everything else (the causal mask, the softmax, the weighted sum of value rows) is the same
  expression on both sides.
-/
import proofs.«132881_j16904991277416_2_alg».proof.Proof.Spec
import proofs.«132881_j16904991277416_2_alg».proof.Proof.LibOnlineSoftmax

noncomputable section

namespace Cert.AttnMath

open Cert.Attn Cert.OnlineSoftmax Idealize.ShloMosaic Idealize.ShloMosaic.ValueIdx

/-- An array of real numbers. -/
def RealArr {S : Shape} (X : S.Idx → EReal) : Prop := ∀ i, ∃ r : ℝ, X i = (r : EReal)

/-- The scale is a real number. -/
theorem scale_real : ∃ σ : ℝ, scale = (σ : EReal) := by
  unfold scale
  simp only [Ideal.ofBits, Ideal.ieee]
  exact ⟨_, by norm_num; rfl⟩

/-- A finite sum of products of reals is real. -/
theorem real_dot {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  exact ⟨∑ k, a k * b k, by rw [coe_sum]; exact Finset.sum_congr rfl fun k _ => by rw [ha, hb, EReal.coe_mul]⟩

/-- The masked scores of the kernels' projected arrays. -/
def sc (qA kA : (⟨3, ![4, 4096, 64]⟩ : Shape).Idx → EReal) (b : Fin 4) (i j : Fin 4096) : EReal :=
  if j ≤ i then ∑ h : Fin 64, qA (ix3 b i h) * kA (ix3 b j h) else ⊥

/-- Causal softmax attention of three projected arrays. -/
def attn (qA kA vA : (⟨3, ![4, 4096, 64]⟩ : Shape).Idx → EReal) : (⟨3, ![4, 4096, 64]⟩ : Shape).Idx → EReal :=
  fun e => attend (sc qA kA) (fun b j h => vA (ix3 b j h)) (e 0) (e 1) (e 2)

/-- Scaling the weights before the projection is scaling the score after it, over the reals. -/
theorem scale_dot (x : Fin 1024 → ℝ) (w : Fin 1024 → Fin 64 → ℝ) (k : Fin 64 → ℝ) (σ : ℝ) :
    ∑ h : Fin 64, (∑ c : Fin 1024, x c * (w c h * σ)) * k h = (∑ h : Fin 64, (∑ c : Fin 1024, x c * w c h) * k h) * σ := by
  rw [Finset.sum_mul]
  refine Finset.sum_congr rfl fun h _ => ?_
  rw [Finset.sum_mul, Finset.sum_mul, Finset.sum_mul]
  exact Finset.sum_congr rfl fun c _ => by ring

/-- THE BRIDGE: from real inputs, the attention of the first kernel's three result arrays — input rows against the
    scaled query weights, the key weights and the value weights — is the specification's result array. -/
theorem attn_eq_G (X : (⟨3, ![4, 4096, 1024]⟩ : Shape).Idx → EReal) (Wq Wk Wv : (⟨2, ![1024, 64]⟩ : Shape).Idx → EReal)
    (qA kA vA : (⟨3, ![4, 4096, 64]⟩ : Shape).Idx → EReal)
    (hX : RealArr X) (hWq : RealArr Wq) (hWk : RealArr Wk)
    (hQ : ∀ b i h, qA (ix3 b i h) = ∑ c : Fin 1024, X (ix3 b i c) * (Wq (ix2 c h) * scale))
    (hK : ∀ b i h, kA (ix3 b i h) = ∑ c : Fin 1024, X (ix3 b i c) * Wk (ix2 c h))
    (hV : ∀ b i h, vA (ix3 b i h) = ∑ c : Fin 1024, X (ix3 b i c) * Wv (ix2 c h)) :
    attn qA kA vA = G X Wq Wk Wv := by
  funext e
  unfold attn G out
  have hv : (fun b j h => vA (ix3 b j h)) = proj (arr3 X) (arr2 Wv) := by
    funext b j h; rw [hV]; rfl
  have hs : sc qA kA = masked (score (proj (arr3 X) (arr2 Wq)) (proj (arr3 X) (arr2 Wk))) := by
    funext b i j
    unfold sc masked
    split_ifs with hji
    · unfold score proj
      obtain ⟨σ, hσ⟩ := scale_real
      choose xr hxr using hX
      choose qr hqr using hWq
      choose kr hkr using hWk
      simp only [hQ, hK, arr3, arr2, hxr, hqr, hkr, hσ, ← EReal.coe_mul, ← coe_sum]
      exact congrArg _ (scale_dot (fun c => xr (ix3 b i c)) (fun c h => qr (ix2 c h)) (fun h => ∑ c : Fin 1024, xr (ix3 b j c) * kr (ix2 c h)) σ)
    · rfl
  rw [hv, hs]

end Cert.AttnMath

end
-- ==== Proof.Finite.lean ====
/-
  The precondition read as finiteness.  The precondition is the conjunction, over the four argument arrays, of
  "every entry's absolute value is below +∞".  At the extended reals the absolute value of x is max x (-x), which is +∞
  at both infinities; so an entry satisfying the test is neither infinity: it is a real number.
-/
import proofs.«132881_j16904991277416_2_alg».proof.Defs
import proofs.«132881_j16904991277416_2_alg».proof.Proof.Gen.Pre_finite_inputs
import Idealize.ShloMosaic.Lib.ReduceAll
import Idealize.ShloMosaic.Lib.ValueIdx

noncomputable section

namespace Cert.FiniteInputs

open Idealize.ShloMosaic Idealize.SL.Sem
open Cert.Pre_finite_inputs (S4x4096x1024 S1024x64 S_)

/-- The scalar shape has one index. -/
instance : Subsingleton S_.Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is strictly below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- One array's test: if the conjunction over all entries of "|x| < +∞" is true, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf x) (broadcastInDim s ![] hb (constant (F := Ideal) S_ .f32 0x7F800000#32))) init hr hu
      ValueIdx.ix0 = 1#1) (i : s.Idx) : ∃ r : ℝ, x i = (r : EReal) :=
  real_of_abs_lt (x i) (Host.reduce_andi_all _ init hr hu ValueIdx.ix0 h i)

/-- The precondition's function is all ones only if every entry of the four arrays is a real number. -/
theorem real_of_pre (x0 : FVec Ideal S4x4096x1024 .f32) (x1 x2 x3 : FVec Ideal S1024x64 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ _ h0', real_of_all x1 _ _ _ _ h1, real_of_all x2 _ _ _ _ h2, real_of_all x3 _ _ _ _ h3⟩

/-- Under the precondition every entry of the four argument arrays, on every device, is a real number. -/
theorem real_of_Pre_KernelIdeal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_pre _ _ _ _ (h c)

end Cert.FiniteInputs

end
-- ==== Proof.KI.FlashPieces.lean ====
/-
  What each control case of the attention kernel's body leaves in the three scratch buffers and in the output block, as the
  skeleton's payloads of the case's inputs.

  A case's run lists, per buffer, the stores it made (the last first). Read back, the list is its last whole-buffer store's
  value; a load that follows a whole-buffer store of the same point reads that store's value; a load of an untouched
  buffer reads its contents. So: off the diagonal the scratch ends at the plain tile's update of the carried maximum,
  denominator and accumulator; on the diagonal at the masked tile's update; at the first key block the carried values are the
  reset values; at the last key block the output block is the quotient of the accumulator and the denominator just
  stored (or carried, above the diagonal).
-/
import proofs.«132881_j16904991277416_2_alg».proof.Proof.KI.FlashRunG
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a whole-buffer rectangle, however spelt. -/
theorem pz2 : (![0, 0] : Fin 2 → Nat) = fun _ => 0 := funext fun a => by fin_cases a <;> rfl
theorem pz3 : (![0, 0, 0] : Fin 3 → Nat) = fun _ => 0 := funext fun a => by fin_cases a <;> rfl

/-! ## Case F: a tile below the diagonal, over the carried scratch -/

theorem piece_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    VS1_0.read (Elt F) (VS1_0.writes (Elt F) VS1_0.junk (kernelRun1_F c i arg3 harg3 arg4 harg4 arg5 harg5 arg6 harg6 arg7 harg7 arg8 harg8 arg9 harg9 hc0 hc1 hc2 hc3 x0 x1 x2 xs0 xs1 xs2).2.1)
      = k1_pay4 (k1_pay9 x0 x1 xs0) := by
  rw [View.read_writes_junk_eq_canon]
  unfold kernelRun1_F
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    VS1_1.read (Elt F) (VS1_1.writes (Elt F) VS1_1.junk (kernelRun1_F c i arg3 harg3 arg4 harg4 arg5 harg5 arg6 harg6 arg7 harg7 arg8 harg8 arg9 harg9 hc0 hc1 hc2 hc3 x0 x1 x2 xs0 xs1 xs2).2.2.1)
      = k1_pay12 x0 x1 xs0 xs1 := by
  rw [View.read_writes_junk_eq_canon]
  unfold kernelRun1_F
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    VS1_2.read (Elt F) (VS1_2.writes (Elt F) VS1_2.junk (kernelRun1_F c i arg3 harg3 arg4 harg4 arg5 harg5 arg6 harg6 arg7 harg7 arg8 harg8 arg9 harg9 hc0 hc1 hc2 hc3 x0 x1 x2 xs0 xs1 xs2).2.2.2.1)
      = k1_pay13 x0 x1 xs0 xs2 x2 := by
  rw [View.read_writes_junk_eq_canon]
  unfold kernelRun1_F
  dsimp only
  sl_unfold_words
  rw [View.canon_unit_zero (S := S1024x64) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

/-! ## Case E: the diagonal tile, over the carried scratch -/

theorem piece_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)
      = k1_pay6 (k1_pay15 (BitVec.ofNat 32 (i 1).val) (BitVec.ofNat 32 (i 2).val) x0 x1 xs0) := by
  rw [View.read_writes_junk_eq_canon]
  unfold kernelRun1_E
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)
      = k1_pay18 (BitVec.ofNat 32 (i 1).val) (BitVec.ofNat 32 (i 2).val) x0 x1 xs0 xs1 := by
  rw [View.read_writes_junk_eq_canon]
  unfold kernelRun1_E
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)
      = k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2 := by
  rw [View.read_writes_junk_eq_canon]
  unfold kernelRun1_E
  dsimp only
  sl_unfold_words
  rw [View.canon_unit_zero (S := S1024x64) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

/-! ## Case D: the first key block below the diagonal (reset, then the tile) -/

theorem piece_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2).2.1)
      = k1_pay4 (k1_pay9 x0 x1 k1_pay1) := by
  rw [View.read_writes_junk_eq_canon]
  unfold kernelRun1_D
  dsimp only
  sl_unfold_words
  rw [View.canon_cons_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

theorem piece_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2).2.2.1)
      = k1_pay12 x0 x1 k1_pay1 k1_pay2 := by
  rw [View.read_writes_junk_eq_canon]
  unfold kernelRun1_D
  dsimp only
  sl_unfold_words
  rw [View.canon_cons_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

theorem piece_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2).2.2.2.1)
      = k1_pay13 x0 x1 k1_pay1 k1_pay3 x2 := by
  rw [View.read_writes_junk_eq_canon]
  unfold kernelRun1_D
  dsimp only
  sl_unfold_words
  rw [View.canon_cons_unit_zero (S := S1024x64) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

/-! ## Case A: the first key block on the diagonal (reset, then the masked tile) -/

theorem piece_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).2.1)
      = k1_pay6 (k1_pay15 (BitVec.ofNat 32 (i 1).val) (BitVec.ofNat 32 (i 2).val) x0 x1 k1_pay1) := by
  rw [View.read_writes_junk_eq_canon]
  unfold kernelRun1_A
  dsimp only
  sl_unfold_words
  rw [View.canon_cons_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

theorem piece_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.2.1)
      = k1_pay18 (BitVec.ofNat 32 (i 1).val) (BitVec.ofNat 32 (i 2).val) x0 x1 k1_pay1 k1_pay2 := by
  rw [View.read_writes_junk_eq_canon]
  unfold kernelRun1_A
  dsimp only
  sl_unfold_words
  rw [View.canon_cons_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

theorem piece_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.2.1)
      = k1_pay5 (k1_pay19 (BitVec.ofNat 32 (i 1).val) (BitVec.ofNat 32 (i 2).val) x0 x1 k1_pay1 k1_pay3) (k1_pay20 (BitVec.ofNat 32 (i 1).val) (BitVec.ofNat 32 (i 2).val) x0 x1 k1_pay1) x2 := by
  rw [View.read_writes_junk_eq_canon]
  unfold kernelRun1_A
  dsimp only
  sl_unfold_words
  rw [View.canon_cons_unit_zero (S := S1024x64) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

/-! ## Case G: the diagonal tile at the last key block (the masked tile, then the division) -/

theorem piece_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    VS1_0.read (Elt F) (VS1_0.writes (Elt F) VS1_0.junk (kernelRun1_G c i arg3 harg3 arg4 harg4 arg5 harg5 arg6 harg6 arg7 harg7 arg8 harg8 arg9 harg9 hc0 hc1 hc2 hc3 x0 x1 x2 xs0 xs1 xs2).2.1)
      = k1_pay6 (k1_pay15 (BitVec.ofNat 32 (i 1).val) (BitVec.ofNat 32 (i 2).val) x0 x1 xs0) := by
  rw [View.read_writes_junk_eq_canon]
  unfold kernelRun1_G
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    VS1_1.read (Elt F) (VS1_1.writes (Elt F) VS1_1.junk (kernelRun1_G c i arg3 harg3 arg4 harg4 arg5 harg5 arg6 harg6 arg7 harg7 arg8 harg8 arg9 harg9 hc0 hc1 hc2 hc3 x0 x1 x2 xs0 xs1 xs2).2.2.1)
      = k1_pay18 (BitVec.ofNat 32 (i 1).val) (BitVec.ofNat 32 (i 2).val) x0 x1 xs0 xs1 := by
  rw [View.read_writes_junk_eq_canon]
  unfold kernelRun1_G
  dsimp only
  sl_unfold_words
  rw [View.canon_unit_zero (S := S1024x1) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    VS1_2.read (Elt F) (VS1_2.writes (Elt F) VS1_2.junk (kernelRun1_G c i arg3 harg3 arg4 harg4 arg5 harg5 arg6 harg6 arg7 harg7 arg8 harg8 arg9 harg9 hc0 hc1 hc2 hc3 x0 x1 x2 xs0 xs1 xs2).2.2.2.1)
      = k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2 := by
  rw [View.read_writes_junk_eq_canon]
  unfold kernelRun1_G
  dsimp only
  sl_unfold_words
  rw [View.canon_unit_zero (S := S1024x64) pz2]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

theorem piece_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)
      = k1_pay7 (k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2) (k1_pay18 (BitVec.ofNat 32 (i 1).val) (BitVec.ofNat 32 (i 2).val) x0 x1 xs0 xs1) := by
  rw [View.read_writes_junk_eq_canon]
  unfold kernelRun1_G
  dsimp only
  sl_unfold_words
  rw [View.canon_unit_zero (S := S1x1024x64) pz3]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2, View.readCov_unit_zero (S := S1024x1) _ pz2,
    View.readCov_unit_zero (S := S1024x64) _ pz2]

/-! ## Case C: the last key block above the diagonal (the division only) -/

theorem piece_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 x1 x2 : Vec F S1x1024x64 .bf16) (xs0 xs1 : Vec F S1024x1 .f32) (xs2 : Vec F S1024x64 .f32) :
    VO1_3.read (Elt F) (VO1_3.writes (Elt F) VO1_3.junk (kernelRun1_C c i arg3 harg3 arg4 harg4 arg5 harg5 arg6 harg6 arg7 harg7 arg8 harg8 arg9 harg9 hc0 hc1 hc2 hc3 x0 x1 x2 xs0 xs1 xs2).1)
      = k1_pay7 xs2 xs1 := by
  rw [View.read_writes_junk_eq_canon]
  unfold kernelRun1_C
  dsimp only
  sl_unfold_words
  rw [View.canon_unit_zero (S := S1x1024x64) pz3]
  simp only [View.readAt_eq_ld, harg3.read_unread, harg4.read_unread, harg5.read_unread, harg7.read_unread, harg8.read_unread,
    harg9.read_unread, View.ld_unit_zero (S := S1x1024x64) pz3, View.ld_unit_zero (S := S1024x1) pz2,
    View.ld_unit_zero (S := S1024x64) pz2]

end Cert.KernelIdeal.Hand

end
-- ==== Proof.KI.FlashAt.lean ====
/-
  What each control case leaves, stated over the named contents of a case and over a point's tuple of contents: the
  scratch buffers and the output block after the body at a grid point are the skeleton's payloads of the point's input
  blocks and of what the point before left.
-/
import proofs.«132881_j16904991277416_2_alg».proof.Proof.KI.Flash
import proofs.«132881_j16904991277416_2_alg».proof.Proof.KI.FlashPieces

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The named contents of a case -/

theorem spiece_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    sout1_F_0 c i arg3 harg3 arg4 harg4 arg5 harg5 arg6 harg6 arg7 harg7 arg8 harg8 arg9 harg9 hc0 hc1 hc2 hc3 x0 x1 x2 xs0 xs1 xs2 = k1_pay4 (k1_pay9 x0 x1 xs0) :=
  piece_F_0 c i arg3 harg3 arg4 harg4 arg5 harg5 arg6 harg6 arg7 harg7 arg8 harg8 arg9 harg9 hc0 hc1 hc2 hc3 x0 x1 x2 xs0 xs1 xs2

theorem spiece_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    sout1_F_1 c i arg3 harg3 arg4 harg4 arg5 harg5 arg6 harg6 arg7 harg7 arg8 harg8 arg9 harg9 hc0 hc1 hc2 hc3 x0 x1 x2 xs0 xs1 xs2 = k1_pay12 x0 x1 xs0 xs1 :=
  piece_F_1 c i arg3 harg3 arg4 harg4 arg5 harg5 arg6 harg6 arg7 harg7 arg8 harg8 arg9 harg9 hc0 hc1 hc2 hc3 x0 x1 x2 xs0 xs1 xs2

theorem spiece_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i) (hc3 : ¬cond1_3 i)
    (x0 x1 x2 : Vec F S1x1024x64 .bf16) (xs0 xs1 : Vec F S1024x1 .f32) (xs2 : Vec F S1024x64 .f32) :
    sout1_F_2 c i arg3 harg3 arg4 harg4 arg5 harg5 arg6 harg6 arg7 harg7 arg8 harg8 arg9 harg9 hc0 hc1 hc2 hc3 x0 x1 x2 xs0 xs1 xs2 = k1_pay13 x0 x1 xs0 xs2 x2 :=
  piece_F_2 c i arg3 harg3 arg4 harg4 arg5 harg5 arg6 harg6 arg7 harg7 arg8 harg8 arg9 harg9 hc0 hc1 hc2 hc3 x0 x1 x2 xs0 xs1 xs2

theorem spiece_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    sout1_E_0 c i arg3 harg3 arg4 harg4 arg5 harg5 arg6 harg6 arg7 harg7 arg8 harg8 arg9 harg9 hc0 hc1 hc2 hc3 x0 x1 x2 xs0 xs1 xs2 = k1_pay6 (k1_pay15 (BitVec.ofNat 32 (i 1).val) (BitVec.ofNat 32 (i 2).val) x0 x1 xs0) :=
  piece_E_0 c i arg3 harg3 arg4 harg4 arg5 harg5 arg6 harg6 arg7 harg7 arg8 harg8 arg9 harg9 hc0 hc1 hc2 hc3 x0 x1 x2 xs0 xs1 xs2

theorem spiece_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    sout1_E_1 c i arg3 harg3 arg4 harg4 arg5 harg5 arg6 harg6 arg7 harg7 arg8 harg8 arg9 harg9 hc0 hc1 hc2 hc3 x0 x1 x2 xs0 xs1 xs2 = k1_pay18 (BitVec.ofNat 32 (i 1).val) (BitVec.ofNat 32 (i 2).val) x0 x1 xs0 xs1 :=
  piece_E_1 c i arg3 harg3 arg4 harg4 arg5 harg5 arg6 harg6 arg7 harg7 arg8 harg8 arg9 harg9 hc0 hc1 hc2 hc3 x0 x1 x2 xs0 xs1 xs2

theorem spiece_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : ¬cond1_3 i)
    (x0 x1 x2 : Vec F S1x1024x64 .bf16) (xs0 xs1 : Vec F S1024x1 .f32) (xs2 : Vec F S1024x64 .f32) :
    sout1_E_2 c i arg3 harg3 arg4 harg4 arg5 harg5 arg6 harg6 arg7 harg7 arg8 harg8 arg9 harg9 hc0 hc1 hc2 hc3 x0 x1 x2 xs0 xs1 xs2 = k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2 :=
  piece_E_2 c i arg3 harg3 arg4 harg4 arg5 harg5 arg6 harg6 arg7 harg7 arg8 harg8 arg9 harg9 hc0 hc1 hc2 hc3 x0 x1 x2 xs0 xs1 xs2

theorem spiece_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    sout1_G_0 c i arg3 harg3 arg4 harg4 arg5 harg5 arg6 harg6 arg7 harg7 arg8 harg8 arg9 harg9 hc0 hc1 hc2 hc3 x0 x1 x2 xs0 xs1 xs2 = k1_pay6 (k1_pay15 (BitVec.ofNat 32 (i 1).val) (BitVec.ofNat 32 (i 2).val) x0 x1 xs0) :=
  piece_G_0 c i arg3 harg3 arg4 harg4 arg5 harg5 arg6 harg6 arg7 harg7 arg8 harg8 arg9 harg9 hc0 hc1 hc2 hc3 x0 x1 x2 xs0 xs1 xs2

theorem spiece_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    sout1_G_1 c i arg3 harg3 arg4 harg4 arg5 harg5 arg6 harg6 arg7 harg7 arg8 harg8 arg9 harg9 hc0 hc1 hc2 hc3 x0 x1 x2 xs0 xs1 xs2 = k1_pay18 (BitVec.ofNat 32 (i 1).val) (BitVec.ofNat 32 (i 2).val) x0 x1 xs0 xs1 :=
  piece_G_1 c i arg3 harg3 arg4 harg4 arg5 harg5 arg6 harg6 arg7 harg7 arg8 harg8 arg9 harg9 hc0 hc1 hc2 hc3 x0 x1 x2 xs0 xs1 xs2

theorem spiece_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    sout1_G_2 c i arg3 harg3 arg4 harg4 arg5 harg5 arg6 harg6 arg7 harg7 arg8 harg8 arg9 harg9 hc0 hc1 hc2 hc3 x0 x1 x2 xs0 xs1 xs2 = k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2 :=
  piece_G_2 c i arg3 harg3 arg4 harg4 arg5 harg5 arg6 harg6 arg7 harg7 arg8 harg8 arg9 harg9 hc0 hc1 hc2 hc3 x0 x1 x2 xs0 xs1 xs2

theorem spiece_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    sout1_D_0 c i arg3 harg3 arg4 harg4 arg5 harg5 arg6 harg6 arg7 harg7 arg8 harg8 arg9 harg9 hc0 hc1 hc2 hc3 x0 x1 x2 = k1_pay4 (k1_pay9 x0 x1 k1_pay1) :=
  piece_D_0 c i arg3 harg3 arg4 harg4 arg5 harg5 arg6 harg6 arg7 harg7 arg8 harg8 arg9 harg9 hc0 hc1 hc2 hc3 x0 x1 x2

theorem spiece_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    sout1_D_1 c i arg3 harg3 arg4 harg4 arg5 harg5 arg6 harg6 arg7 harg7 arg8 harg8 arg9 harg9 hc0 hc1 hc2 hc3 x0 x1 x2 = k1_pay12 x0 x1 k1_pay1 k1_pay2 :=
  piece_D_1 c i arg3 harg3 arg4 harg4 arg5 harg5 arg6 harg6 arg7 harg7 arg8 harg8 arg9 harg9 hc0 hc1 hc2 hc3 x0 x1 x2

theorem spiece_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i) (hc3 : ¬cond1_3 i)
    (x0 x1 x2 : Vec F S1x1024x64 .bf16) :
    sout1_D_2 c i arg3 harg3 arg4 harg4 arg5 harg5 arg6 harg6 arg7 harg7 arg8 harg8 arg9 harg9 hc0 hc1 hc2 hc3 x0 x1 x2 = k1_pay13 x0 x1 k1_pay1 k1_pay3 x2 :=
  piece_D_2 c i arg3 harg3 arg4 harg4 arg5 harg5 arg6 harg6 arg7 harg7 arg8 harg8 arg9 harg9 hc0 hc1 hc2 hc3 x0 x1 x2

theorem spiece_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    sout1_A_0 c i arg3 harg3 arg4 harg4 arg5 harg5 arg6 harg6 arg7 harg7 arg8 harg8 arg9 harg9 hc0 hc1 hc2 hc3 x0 x1 x2 = k1_pay6 (k1_pay15 (BitVec.ofNat 32 (i 1).val) (BitVec.ofNat 32 (i 2).val) x0 x1 k1_pay1) :=
  piece_A_0 c i arg3 harg3 arg4 harg4 arg5 harg5 arg6 harg6 arg7 harg7 arg8 harg8 arg9 harg9 hc0 hc1 hc2 hc3 x0 x1 x2

theorem spiece_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    sout1_A_1 c i arg3 harg3 arg4 harg4 arg5 harg5 arg6 harg6 arg7 harg7 arg8 harg8 arg9 harg9 hc0 hc1 hc2 hc3 x0 x1 x2 = k1_pay18 (BitVec.ofNat 32 (i 1).val) (BitVec.ofNat 32 (i 2).val) x0 x1 k1_pay1 k1_pay2 :=
  piece_A_1 c i arg3 harg3 arg4 harg4 arg5 harg5 arg6 harg6 arg7 harg7 arg8 harg8 arg9 harg9 hc0 hc1 hc2 hc3 x0 x1 x2

theorem spiece_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (hc2 : cond1_2 i) (hc3 : ¬cond1_3 i)
    (x0 x1 x2 : Vec F S1x1024x64 .bf16) :
    sout1_A_2 c i arg3 harg3 arg4 harg4 arg5 harg5 arg6 harg6 arg7 harg7 arg8 harg8 arg9 harg9 hc0 hc1 hc2 hc3 x0 x1 x2 = k1_pay5 (k1_pay19 (BitVec.ofNat 32 (i 1).val) (BitVec.ofNat 32 (i 2).val) x0 x1 k1_pay1 k1_pay3) (k1_pay20 (BitVec.ofNat 32 (i 1).val) (BitVec.ofNat 32 (i 2).val) x0 x1 k1_pay1) x2 :=
  piece_A_2 c i arg3 harg3 arg4 harg4 arg5 harg5 arg6 harg6 arg7 harg7 arg8 harg8 arg9 harg9 hc0 hc1 hc2 hc3 x0 x1 x2

theorem spiece_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1024x1 .f32) (xs2 : Vec F S1024x64 .f32) :
    out1_G_3 c i arg3 harg3 arg4 harg4 arg5 harg5 arg6 harg6 arg7 harg7 arg8 harg8 arg9 harg9 hc0 hc1 hc2 hc3 x0 x1 x2 xs0 xs1 xs2 = k1_pay7 (k1_pay5 (k1_pay19 (BitVec.ofNat 32 (i 1).val) (BitVec.ofNat 32 (i 2).val) x0 x1 xs0 xs2) (k1_pay20 (BitVec.ofNat 32 (i 1).val) (BitVec.ofNat 32 (i 2).val) x0 x1 xs0) x2) (k1_pay18 (BitVec.ofNat 32 (i 1).val) (BitVec.ofNat 32 (i 2).val) x0 x1 xs0 xs1) :=
  piece_G_3 c i arg3 harg3 arg4 harg4 arg5 harg5 arg6 harg6 arg7 harg7 arg8 harg8 arg9 harg9 hc0 hc1 hc2 hc3 x0 x1 x2 xs0 xs1 xs2

theorem spiece_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i) (hc3 : cond1_3 i)
    (x0 x1 x2 : Vec F S1x1024x64 .bf16) (xs0 xs1 : Vec F S1024x1 .f32) (xs2 : Vec F S1024x64 .f32) :
    out1_C_3 c i arg3 harg3 arg4 harg4 arg5 harg5 arg6 harg6 arg7 harg7 arg8 harg8 arg9 harg9 hc0 hc1 hc2 hc3 x0 x1 x2 xs0 xs1 xs2 = k1_pay7 xs2 xs1 :=
  piece_C_3 c i arg3 harg3 arg4 harg4 arg5 harg5 arg6 harg6 arg7 harg7 arg8 harg8 arg9 harg9 hc0 hc1 hc2 hc3 x0 x1 x2 xs0 xs1 xs2

/-! ## A point's tuple of contents -/

section At

variable (V : (c : Dev nD) → (b : Ref sig .tc) → Buf (Elt F) ((c : Thread nD τ).loc b))

theorem at1_F_m (c : Dev nD) (t : Fin cfg1.N) (h0 : ¬t.val % 4 = 0) (h1 : t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_F V c t h0 h1 h2 h3 p).2.1 = k1_pay4 (k1_pay9 (iblk1 V c 0 t) (iblk1 V c 1 t) p.2.1) := by
  unfold at1_F; dsimp only; apply spiece_F_0 (F := F)

theorem at1_F_l (c : Dev nD) (t : Fin cfg1.N) (h0 : ¬t.val % 4 = 0) (h1 : t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_F V c t h0 h1 h2 h3 p).2.2.1 = k1_pay12 (iblk1 V c 0 t) (iblk1 V c 1 t) p.2.1 p.2.2.1 := by
  unfold at1_F; dsimp only; apply spiece_F_1 (F := F)

theorem at1_F_a (c : Dev nD) (t : Fin cfg1.N) (h0 : ¬t.val % 4 = 0) (h1 : t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_F V c t h0 h1 h2 h3 p).2.2.2 = k1_pay13 (iblk1 V c 0 t) (iblk1 V c 1 t) p.2.1 p.2.2.2 (iblk1 V c 2 t) := by
  unfold at1_F; dsimp only; apply spiece_F_2 (F := F)

theorem at1_E_m (c : Dev nD) (t : Fin cfg1.N) (h0 : ¬t.val % 4 = 0) (h1 : ¬t.val % 4 < t.val % 16 / 4) (h2 : t.val % 4 = t.val % 16 / 4) (h3 : ¬t.val % 4 = 3) (p : Vec F S1x1024x64 .f32 × Vec F S1024x1 .f32 × Vec F S1024x1 .f32 × Vec F S1024x64 .f32) :
    (at1_E V c t h0 h1 h2 h3 p).2.1 = k1_pay6 (k1_pay15 (BitVec.ofNat 32 (grid1.coords t 1).val) (BitVec.ofNat 32 (grid1.coords t 2).val) (iblk1 V c 0 t) (iblk1 V c 1 t) p.2.1) := by
  unfold at1_E; dsimp only; apply spiece_E_0 (F := F)

theorem at1_E_l (c : Dev nD) (t : Fin cfg1.N) (h0 : ¬t.val % 4 = 0) (h1 : ¬t.val % 4 < t.val % 16 / 4) (h2 : t.val % 4 = t.val % 16 / 4) (h3 : ¬t.val % 4 = 3) (p : Vec F S1x1024x64 .f32 × Vec F S1024x1 .f32 × Vec F S1024x1 .f32 × Vec F S1024x64 .f32) :
    (at1_E V c t h0 h1 h2 h3 p).2.2.1 = k1_pay18 (BitVec.ofNat 32 (grid1.coords t 1).val) (BitVec.ofNat 32 (grid1.coords t 2).val) (iblk1 V c 0 t) (iblk1 V c 1 t) p.2.1 p.2.2.1 := by
  unfold at1_E; dsimp only; apply spiece_E_1 (F := F)

theorem at1_E_a (c : Dev nD) (t : Fin cfg1.N) (h0 : ¬t.val % 4 = 0) (h1 : ¬t.val % 4 < t.val % 16 / 4) (h2 : t.val % 4 = t.val % 16 / 4) (h3 : ¬t.val % 4 = 3) (p : Vec F S1x1024x64 .f32 × Vec F S1024x1 .f32 × Vec F S1024x1 .f32 × Vec F S1024x64 .f32) :
    (at1_E V c t h0 h1 h2 h3 p).2.2.2 = k1_pay5 (k1_pay19 (BitVec.ofNat 32 (grid1.coords t 1).val) (BitVec.ofNat 32 (grid1.coords t 2).val) (iblk1 V c 0 t) (iblk1 V c 1 t) p.2.1 p.2.2.2) (k1_pay20 (BitVec.ofNat 32 (grid1.coords t 1).val) (BitVec.ofNat 32 (grid1.coords t 2).val) (iblk1 V c 0 t) (iblk1 V c 1 t) p.2.1) (iblk1 V c 2 t) := by
  unfold at1_E; dsimp only; apply spiece_E_2 (F := F)

theorem at1_G_m (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    (at1_G V c t h0 h1 h2 h3 p).2.1 = k1_pay6 (k1_pay15 (BitVec.ofNat 32 (grid1.coords t 1).val) (BitVec.ofNat 32 (grid1.coords t 2).val) (iblk1 V c 0 t) (iblk1 V c 1 t) p.2.1) := by
  unfold at1_G; dsimp only; apply spiece_G_0 (F := F)

theorem at1_G_l (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    (at1_G V c t h0 h1 h2 h3 p).2.2.1 = k1_pay18 (BitVec.ofNat 32 (grid1.coords t 1).val) (BitVec.ofNat 32 (grid1.coords t 2).val) (iblk1 V c 0 t) (iblk1 V c 1 t) p.2.1 p.2.2.1 := by
  unfold at1_G; dsimp only; apply spiece_G_1 (F := F)

theorem at1_G_a (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    (at1_G V c t h0 h1 h2 h3 p).2.2.2 = k1_pay5 (k1_pay19 (BitVec.ofNat 32 (grid1.coords t 1).val) (BitVec.ofNat 32 (grid1.coords t 2).val) (iblk1 V c 0 t) (iblk1 V c 1 t) p.2.1 p.2.2.2) (k1_pay20 (BitVec.ofNat 32 (grid1.coords t 1).val) (BitVec.ofNat 32 (grid1.coords t 2).val) (iblk1 V c 0 t) (iblk1 V c 1 t) p.2.1) (iblk1 V c 2 t) := by
  unfold at1_G; dsimp only; apply spiece_G_2 (F := F)

theorem at1_D_m (c : Dev nD) (t : Fin cfg1.N) (h0 : t.val % 4 = 0) (h1 : t.val % 4 < t.val % 16 / 4) (h2 : ¬t.val % 4 = t.val % 16 / 4) (h3 : ¬t.val % 4 = 3) :
    (at1_D V c t h0 h1 h2 h3).2.1 = k1_pay4 (k1_pay9 (iblk1 V c 0 t) (iblk1 V c 1 t) k1_pay1) := by
  unfold at1_D; dsimp only; apply spiece_D_0 (F := F)

theorem at1_D_l (c : Dev nD) (t : Fin cfg1.N) (h0 : t.val % 4 = 0) (h1 : t.val % 4 < t.val % 16 / 4) (h2 : ¬t.val % 4 = t.val % 16 / 4) (h3 : ¬t.val % 4 = 3) :
    (at1_D V c t h0 h1 h2 h3).2.2.1 = k1_pay12 (iblk1 V c 0 t) (iblk1 V c 1 t) k1_pay1 k1_pay2 := by
  unfold at1_D; dsimp only; apply spiece_D_1 (F := F)

theorem at1_D_a (c : Dev nD) (t : Fin cfg1.N) (h0 : t.val % 4 = 0) (h1 : t.val % 4 < t.val % 16 / 4) (h2 : ¬t.val % 4 = t.val % 16 / 4) (h3 : ¬t.val % 4 = 3) :
    (at1_D V c t h0 h1 h2 h3).2.2.2 = k1_pay13 (iblk1 V c 0 t) (iblk1 V c 1 t) k1_pay1 k1_pay3 (iblk1 V c 2 t) := by
  unfold at1_D; dsimp only; apply spiece_D_2 (F := F)

theorem at1_A_m (c : Dev nD) (t : Fin cfg1.N) (h0 : t.val % 4 = 0) (h1 : ¬t.val % 4 < t.val % 16 / 4) (h2 : t.val % 4 = t.val % 16 / 4) (h3 : ¬t.val % 4 = 3) :
    (at1_A V c t h0 h1 h2 h3).2.1 = k1_pay6 (k1_pay15 (BitVec.ofNat 32 (grid1.coords t 1).val) (BitVec.ofNat 32 (grid1.coords t 2).val) (iblk1 V c 0 t) (iblk1 V c 1 t) k1_pay1) := by
  unfold at1_A; dsimp only; apply spiece_A_0 (F := F)

theorem at1_A_l (c : Dev nD) (t : Fin cfg1.N) (h0 : t.val % 4 = 0) (h1 : ¬t.val % 4 < t.val % 16 / 4) (h2 : t.val % 4 = t.val % 16 / 4) (h3 : ¬t.val % 4 = 3) :
    (at1_A V c t h0 h1 h2 h3).2.2.1 = k1_pay18 (BitVec.ofNat 32 (grid1.coords t 1).val) (BitVec.ofNat 32 (grid1.coords t 2).val) (iblk1 V c 0 t) (iblk1 V c 1 t) k1_pay1 k1_pay2 := by
  unfold at1_A; dsimp only; apply spiece_A_1 (F := F)

theorem at1_A_a (c : Dev nD) (t : Fin cfg1.N) (h0 : t.val % 4 = 0) (h1 : ¬t.val % 4 < t.val % 16 / 4) (h2 : t.val % 4 = t.val % 16 / 4) (h3 : ¬t.val % 4 = 3) :
    (at1_A V c t h0 h1 h2 h3).2.2.2 = k1_pay5 (k1_pay19 (BitVec.ofNat 32 (grid1.coords t 1).val) (BitVec.ofNat 32 (grid1.coords t 2).val) (iblk1 V c 0 t) (iblk1 V c 1 t) k1_pay1 k1_pay3) (k1_pay20 (BitVec.ofNat 32 (grid1.coords t 1).val) (BitVec.ofNat 32 (grid1.coords t 2).val) (iblk1 V c 0 t) (iblk1 V c 1 t) k1_pay1) (iblk1 V c 2 t) := by
  unfold at1_A; dsimp only; apply spiece_A_2 (F := F)

theorem at1_G_o (c : Dev nD) (t : Fin cfg1.N) (h0 : ¬t.val % 4 = 0) (h1 : ¬t.val % 4 < t.val % 16 / 4) (h2 : t.val % 4 = t.val % 16 / 4) (h3 : t.val % 4 = 3) (p : Vec F S1x1024x64 .f32 × Vec F S1024x1 .f32 × Vec F S1024x1 .f32 × Vec F S1024x64 .f32) :
    (at1_G V c t h0 h1 h2 h3 p).1 = k1_pay7 (k1_pay5 (k1_pay19 (BitVec.ofNat 32 (grid1.coords t 1).val) (BitVec.ofNat 32 (grid1.coords t 2).val) (iblk1 V c 0 t) (iblk1 V c 1 t) p.2.1 p.2.2.2) (k1_pay20 (BitVec.ofNat 32 (grid1.coords t 1).val) (BitVec.ofNat 32 (grid1.coords t 2).val) (iblk1 V c 0 t) (iblk1 V c 1 t) p.2.1) (iblk1 V c 2 t)) (k1_pay18 (BitVec.ofNat 32 (grid1.coords t 1).val) (BitVec.ofNat 32 (grid1.coords t 2).val) (iblk1 V c 0 t) (iblk1 V c 1 t) p.2.1 p.2.2.1) := by
  unfold at1_G; dsimp only; apply spiece_G_3 (F := F)

theorem at1_C_o (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    (at1_C V c t h0 h1 h2 h3 p).1 = k1_pay7 p.2.2.2 p.2.2.1 := by
  unfold at1_C; dsimp only; apply spiece_C_3 (F := F)

theorem at1_C_m (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    (at1_C V c t h0 h1 h2 h3 p).2.1 = p.2.1 := rfl

theorem at1_C_l (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    (at1_C V c t h0 h1 h2 h3 p).2.2.1 = p.2.2.1 := rfl

theorem at1_C_a (c : Dev nD) (t : Fin cfg1.N) (h0 : ¬t.val % 4 = 0) (h1 : ¬t.val % 4 < t.val % 16 / 4) (h2 : ¬t.val % 4 = t.val % 16 / 4) (h3 : t.val % 4 = 3) (p : Vec F S1x1024x64 .f32 × Vec F S1024x1 .f32 × Vec F S1024x1 .f32 × Vec F S1024x64 .f32) :
    (at1_C V c t h0 h1 h2 h3 p).2.2.2 = p.2.2.2 := rfl

end At

theorem at1_B_m (c : Dev nD) (t : Fin cfg1.N) (h0 : ¬t.val % 4 = 0) (h1 : ¬t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_B (F := F) c t h0 h1 h2 h3 p).2.1 = p.2.1 := rfl

theorem at1_B_l (c : Dev nD) (t : Fin cfg1.N) (h0 : ¬t.val % 4 = 0) (h1 : ¬t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_B (F := F) c t h0 h1 h2 h3 p).2.2.1 = p.2.2.1 := rfl

theorem at1_B_a (c : Dev nD) (t : Fin cfg1.N) (h0 : ¬t.val % 4 = 0) (h1 : ¬t.val % 4 < t.val % 16 / 4) (h2 : ¬t.val % 4 = t.val % 16 / 4) (h3 : ¬t.val % 4 = 3) (p : Vec F S1x1024x64 .f32 × Vec F S1024x1 .f32 × Vec F S1024x1 .f32 × Vec F S1024x64 .f32) :
    (at1_B (F := F) c t h0 h1 h2 h3 p).2.2.2 = p.2.2.2 := rfl

end Cert.KernelIdeal.Hand

end
-- ==== Proof.KI.FlashTile.lean ====
/-
  The attention kernel's payloads over the extended reals, read at coordinates.

  One grid point holds a block of 1024 query rows and a block of 1024 key and value rows. Its score tile is
  T[r, c] = ∑ h, q[r, h] · k[c, h]; on the diagonal block a key row after the query row is replaced by −∞. The running
  maximum m, denominator l and accumulator a of the online softmax are updated by
    m' = max m (sup_c T[r, c]),   l' = exp (m − m') · l + ∑ c, exp (T[r, c] − m'),
    a'[r, h] = exp (m − m') · a[r, h] + ∑ c, exp (T[r, c] − m') · v[c, h],
  and the last key block writes a / l. Changes of float format are the identity on the extended reals.
-/
import proofs.«132881_j16904991277416_2_alg».proof.Proof.Gen.KernelIdeal.Skeleton
import proofs.«132881_j16904991277416_2_alg».proof.Proof.LibLayout
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.FlashTile

open Cert.KernelIdeal Cert.KernelIdeal.Gen Idealize.ShloMosaic Idealize.ShloMosaic.ValueIdx

/-! ## The tile's functions over rows -/

/-- The score of query row `r` against key row `c` of the two blocks. -/
def S (Q K : Vec Ideal S1x1024x64 .bf16) (r c : Fin 1024) : EReal :=
  ∑ h : Fin 64, Q (ix3 (0 : Fin 1) r h) * K (ix3 (0 : Fin 1) c h)

/-- The score on the diagonal block: a key row after the query row scores `-∞`. -/
def Sd (Q K : Vec Ideal S1x1024x64 .bf16) (r c : Fin 1024) : EReal := if c ≤ r then S Q K r c else ⊥

/-- The running maximum after a tile. -/
def updM (T : Fin 1024 → Fin 1024 → EReal) (m : Fin 1024 → EReal) (r : Fin 1024) : EReal :=
  max (m r) (Finset.univ.sup (T r))

/-- The running denominator after a tile. -/
def updL (T : Fin 1024 → Fin 1024 → EReal) (m l : Fin 1024 → EReal) (r : Fin 1024) : EReal :=
  Ideal.exp (m r - updM T m r) * l r + ∑ c : Fin 1024, Ideal.exp (T r c - updM T m r)

/-- The running accumulator after a tile. -/
def updA (T : Fin 1024 → Fin 1024 → EReal) (m : Fin 1024 → EReal) (a v : Fin 1024 → Fin 64 → EReal) (r : Fin 1024)
    (h : Fin 64) : EReal :=
  Ideal.exp (m r - updM T m r) * a r h + ∑ c : Fin 1024, Ideal.exp (T r c - updM T m r) * v c h

/-- A column, a matrix and a block read at coordinates. -/
abbrev col (x : Vec Ideal S1024x1 .f32) (r : Fin 1024) : EReal := x (ix2 r (0 : Fin 1))
abbrev mat (x : Vec Ideal S1024x64 .f32) (r : Fin 1024) (h : Fin 64) : EReal := x (ix2 r h)
abbrev blk (x : Vec Ideal S1x1024x64 .bf16) (r : Fin 1024) (h : Fin 64) : EReal := x (ix3 (0 : Fin 1) r h)

/-! ## Words and extended reals -/

/-- The f32 word of minus infinity is the bottom of the extended reals. -/
theorem negInf_f32 : Ideal.ofBits .f32 0xFF800000#32 = (⊥ : EReal) := by simp [Ideal.ofBits, Ideal.ieee]

/-- The named mask value is the bottom of the extended reals. -/
theorem neg_big : Named.named (F := Ideal) Cert.KernelIdeal.κ "neg_big" (φ := .f32) 0xFF333332#32 = (⊥ : EReal) :=
  IdealRules.named_const.ideal_named_scalar _ _ _ _ rfl

/-- A fold of `max` from the bottom over a finite type is the supremum. -/
theorem fold_max_bot_eq_sup {n : Nat} (f : Fin n → EReal) :
    (Finset.univ : Finset (Fin n)).fold max (⊥ : EReal) f = Finset.univ.sup f := rfl

/-- A column has one entry per row. -/
theorem col_eq (x : Vec Ideal S1024x1 .f32) (r : Fin 1024) (u : Fin 1) : x (ix2 r u) = col x r :=
  congrArg (fun u => x (ix2 r u)) (Subsingleton.elim u 0)

/-- Block `n`'s word times 1024 plus a coordinate below 1024 is, as a signed integer, the global coordinate. -/
theorem toInt_global (n : Nat) (hn : n < 4) (x : Fin 1024) :
    (BitVec.ofNat 32 n * 1024#32 + BitVec.ofNat 32 x.val).toInt = ((n * 1024 + x.val : Nat) : Int) := by
  have hx := x.isLt
  have h1 : (BitVec.ofNat 32 n * 1024#32 + BitVec.ofNat 32 x.val).toNat = n * 1024 + x.val := by
    simp only [BitVec.toNat_add, BitVec.toNat_mul, BitVec.toNat_ofNat]
    omega
  rw [BitVec.toInt_eq_toNat_of_lt (by rw [h1]; omega), h1]

/-- On the diagonal block the signed comparison of the global column against the global row is the bit of
    `c ≤ r`. -/
theorem mask_bit (n : Nat) (hn : n < 4) (r c : Fin 1024) :
    IntOp.cmpi .sle (IntOp.addi (Scalar.muli (BitVec.ofNat 32 n) 1024#32) (BitVec.ofNat 32 c.val))
      (IntOp.addi (Scalar.muli (BitVec.ofNat 32 n) 1024#32) (BitVec.ofNat 32 r.val)) = if c ≤ r then 1#1 else 0#1 := by
  show BitVec.ofBool ((BitVec.ofNat 32 n * 1024#32 + BitVec.ofNat 32 c.val).sle (BitVec.ofNat 32 n * 1024#32 + BitVec.ofNat 32 r.val)) = _
  rw [BitVec.sle, toInt_global n hn c, toInt_global n hn r]
  by_cases h : c ≤ r
  · rw [if_pos h]
    have h' : c.val ≤ r.val := h
    have : (((n * 1024 + c.val : Nat) : Int) ≤ ((n * 1024 + r.val : Nat) : Int)) := by omega
    rw [decide_eq_true this]; rfl
  · rw [if_neg h]
    have h' : ¬ c.val ≤ r.val := h
    have : ¬ (((n * 1024 + c.val : Nat) : Int) ≤ ((n * 1024 + r.val : Nat) : Int)) := by omega
    rw [decide_eq_false this]; rfl

/-- A select on a decided bit. -/
theorem select_ite (b : BitVec 1) (x y x' y' : EReal) (p : Prop) [Decidable p] (hb : b = if p then 1#1 else 0#1)
    (hx : x = x') (hy : y = y') : Scalar.select b x y = if p then x' else y' := by
  subst hx hy hb
  by_cases h : p
  · rw [if_pos h, if_pos h, select_one]
  · rw [if_neg h, if_neg h, select_zero]

/-! ## The operations of one tile, over any score tile -/

section Generic

variable (T : FVec Ideal S1024x1024 .f32) (m M l A : FVec Ideal S1024x1 .f32) (P : FVec Ideal S1024x1024 .f32)
  (acc : FVec Ideal S1024x64 .f32) (V : FVec Ideal S1x1024x64 .bf16)

/-- The tile's row maximum as a column. -/
theorem rowmax_col (r : Fin 1024) (u : Fin 1) :
    shapeCast S1024x1 (multiReduction .maximumf [1] S1024 T 0xFF800000#32 reduces_S1024x1024_S1024 (.inl rfl) rfl)
        shapeCasts_S1024_S1024x1 (ix2 r u)
      = Finset.univ.sup fun c : Fin 1024 => T (ix2 r c) := by
  refine (Cert.LibLayout.shapeCast_a_a1_apply _ _ r u).trans ?_
  refine (Cert.LibLayout.max_rows_apply T _ _ _ r).trans ?_
  rw [negInf_f32]
  exact fold_max_bot_eq_sup _

/-- The tile's row sum as a column. -/
theorem rowsum_col (r : Fin 1024) (u : Fin 1) :
    shapeCast S1024x1 (multiReduction .add [1] S1024 P 0x00000000#32 reduces_S1024x1024_S1024 (.inl rfl) rfl)
        shapeCasts_S1024_S1024x1 (ix2 r u)
      = ∑ c : Fin 1024, P (ix2 r c) := by
  refine (Cert.LibLayout.shapeCast_a_a1_apply _ _ r u).trans ?_
  exact Cert.LibLayout.sum_rows_apply P _ _ _ r

/-- The new maximum. -/
theorem newmax_apply (r : Fin 1024) (u : Fin 1) :
    maximumf m (shapeCast S1024x1 (multiReduction .maximumf [1] S1024 T 0xFF800000#32 reduces_S1024x1024_S1024 (.inl rfl) rfl)
        shapeCasts_S1024_S1024x1) (ix2 r u)
      = updM (fun r c => T (ix2 r c)) (col m) r := by
  refine (maximumf_apply _ _ _).trans ?_
  unfold updM
  exact congrArg₂ max (col_eq m r u) (rowmax_col T r u)

/-- The rescaling factor `exp (m − m')`. -/
theorem alpha_apply (r : Fin 1024) (u : Fin 1) :
    exp (subf m M) (ix2 r u) = Ideal.exp (col m r - col M r) := by
  show Ideal.exp (m (ix2 r u) - M (ix2 r u)) = _
  rw [col_eq m r u, col_eq M r u]

/-- The tile's weights `exp (T − m')`. -/
theorem p_apply (r c : Fin 1024) :
    exp (subf T (broadcastTo S1024x1024 M broadcasts_S1024x1_S1024x1024)) (ix2 r c)
      = Ideal.exp (T (ix2 r c) - col M r) := by
  show Ideal.exp (T (ix2 r c) - broadcastTo S1024x1024 M broadcasts_S1024x1_S1024x1024 (ix2 r c)) = _
  rw [Cert.LibLayout.broadcastTo_a1_ab_apply]

/-- The new denominator. -/
theorem newl_apply (r : Fin 1024) (u : Fin 1) :
    shapeCast S1024x1 (addf (mulf A l) (shapeCast S1024x1
        (multiReduction .add [1] S1024 P 0x00000000#32 reduces_S1024x1024_S1024 (.inl rfl) rfl) shapeCasts_S1024_S1024x1))
        shapeCasts_S1024x1_S1024x1 (ix2 r u)
      = col A r * col l r + ∑ c : Fin 1024, P (ix2 r c) := by
  rw [shapeCast_self]
  refine (addf_apply _ _ _).trans ?_
  refine congrArg₂ (· + ·) ?_ (rowsum_col P r u)
  refine (mulf_apply _ _ _).trans ?_
  rw [col_eq A r u, col_eq l r u]

/-- The product of the tile's weights with the value rows. -/
theorem pv_apply (r : Fin 1024) (h : Fin 64) :
    matmul dot_S1024x1024_S1024x64_S1024x64_1_0_0_1_n_n none (truncf .bf16 P bitsLt_bf16_f32)
        (shapeCast S1024x64 V shapeCasts_S1x1024x64_S1024x64) (constant S1024x64 .f32 0x00000000#32) (ix2 r h)
      = ∑ c : Fin 1024, P (ix2 r c) * blk V c h := by
  refine (Cert.LibLayout.matmul_rows_cols_apply dot_S1024x1024_S1024x64_S1024x64_1_0_0_1_n_n rfl rfl rfl rfl
    (fun j k => ?_) (fun j k => ?_) none _ _ r h).trans ?_
  · unfold DotDims.lhsIdx
    rw [dif_neg (by decide), dif_pos (by decide)]; rfl
  · unfold DotDims.rhsIdx
    rw [dif_neg (by decide), dif_pos (by decide)]; rfl
  · refine Finset.sum_congr rfl fun c _ => ?_
    exact congrArg₂ (· * ·) (truncf_apply (ψ := .bf16) P bitsLt_bf16_f32 _) (shapeCast_1ab_ab_apply V _ c h)

/-- The new accumulator. -/
theorem newacc_apply (r : Fin 1024) (h : Fin 64) :
    shapeCast S1024x64 (addf (mulf (broadcastTo S1024x64 A broadcasts_S1024x1_S1024x64) acc)
        (matmul dot_S1024x1024_S1024x64_S1024x64_1_0_0_1_n_n none (truncf .bf16 P bitsLt_bf16_f32)
          (shapeCast S1024x64 V shapeCasts_S1x1024x64_S1024x64) (constant S1024x64 .f32 0x00000000#32)))
        shapeCasts_S1024x64_S1024x64 (ix2 r h)
      = col A r * mat acc r h + ∑ c : Fin 1024, P (ix2 r c) * blk V c h := by
  rw [shapeCast_self]
  refine (addf_apply _ _ _).trans ?_
  refine congrArg₂ (· + ·) ?_ (pv_apply P V r h)
  refine (mulf_apply _ _ _).trans ?_
  rw [Cert.LibLayout.broadcastTo_a1_ab_apply]

end Generic

/-! ## The payloads -/

section Payloads

/-- The score tile. -/
theorem pay8_apply (Q K : Vec Ideal S1x1024x64 .bf16) (r c : Fin 1024) : k1_pay8 (F := Ideal) Q K (ix2 r c) = S Q K r c := by
  unfold k1_pay8
  refine (Cert.LibLayout.matmul_rows_rows_apply dot_S1024x64_S1024x64_S1024x1024_1_1_0_0_n_n rfl rfl rfl rfl
    (fun j k => ?_) (fun j k => ?_) none _ _ r c).trans ?_
  · unfold DotDims.lhsIdx
    rw [dif_neg (by decide), dif_pos (by decide)]; rfl
  · unfold DotDims.rhsIdx
    rw [dif_neg (by decide), dif_pos (by decide)]; rfl
  · unfold S
    refine Finset.sum_congr rfl fun h _ => ?_
    exact congrArg₂ (· * ·) (shapeCast_1ab_ab_apply Q _ r h) (shapeCast_1ab_ab_apply K _ c h)

/-- The masked score tile of the diagonal block `n`. -/
theorem pay14_apply (n : Nat) (hn : n < 4) (Q K : Vec Ideal S1x1024x64 .bf16) (r c : Fin 1024) :
    k1_pay14 (F := Ideal) (BitVec.ofNat 32 n) (BitVec.ofNat 32 n) Q K (ix2 r c) = Sd Q K r c := by
  unfold k1_pay14
  refine (select_apply _ _ _ (ix2 r c)).trans ?_
  unfold Sd
  refine select_ite _ _ _ _ _ (c ≤ r) ?_ (pay8_apply Q K r c) neg_big
  show IntOp.cmpi .sle
      (IntOp.addi (Scalar.muli (BitVec.ofNat 32 n) 1024#32) (iota .tc S1024x1024 32 [1] iota_S1024x1024_d1_w32 (ix2 r c)))
      (IntOp.addi (Scalar.muli (BitVec.ofNat 32 n) 1024#32) (iota .tc S1024x1024 32 [0] iota_S1024x1024_d0_w32 (ix2 r c))) = _
  rw [iota_single_apply, iota_single_apply]
  exact mask_bit n hn r c

/-- The values the first key block resets the running maximum, denominator and accumulator to. -/
theorem pay1_apply (r : Fin 1024) (u : Fin 1) : k1_pay1 (F := Ideal) (ix2 r u) = (⊥ : EReal) := by
  unfold k1_pay1
  exact (congrFun (shapeCast_self _ _) (ix2 r u)).trans negInf_f32
theorem pay2_apply (r : Fin 1024) (u : Fin 1) : k1_pay2 (F := Ideal) (ix2 r u) = (0 : EReal) := by
  unfold k1_pay2
  exact (congrFun (shapeCast_self _ _) (ix2 r u)).trans Ideal.ofBits_zero_f32
theorem pay3_apply (r : Fin 1024) (h : Fin 64) : k1_pay3 (F := Ideal) (ix2 r h) = (0 : EReal) := by
  unfold k1_pay3
  exact (congrFun (shapeCast_self _ _) (ix2 r h)).trans Ideal.ofBits_zero_f32

/-- A cast to the same shape stores what it is given. -/
theorem pay4_eq (v : FVec Ideal S1024x1 .f32) : k1_pay4 (F := Ideal) v = v := shapeCast_self v _
theorem pay6_eq (v : FVec Ideal S1024x1 .f32) : k1_pay6 (F := Ideal) v = v := shapeCast_self v _

/-- Off the diagonal: the new maximum, the rescaling factor, the weights, the new denominator and accumulator. -/
theorem pay9_apply (Q K : Vec Ideal S1x1024x64 .bf16) (m : Vec Ideal S1024x1 .f32) (r : Fin 1024) (u : Fin 1) : k1_pay9 (F := Ideal) Q K m (ix2 r u) = updM (S Q K) (col m) r := by
  unfold k1_pay9
  refine (newmax_apply (k1_pay8 (F := Ideal) Q K) m r u).trans ?_
  exact congrArg (fun T => updM T (col m) r) (funext fun r => funext fun c => pay8_apply Q K r c)

theorem pay10_apply (Q K : Vec Ideal S1x1024x64 .bf16) (m : Vec Ideal S1024x1 .f32) (r : Fin 1024) (u : Fin 1) :
    k1_pay10 (F := Ideal) Q K m (ix2 r u) = Ideal.exp (col m r - updM (S Q K) (col m) r) := by
  unfold k1_pay10
  refine (alpha_apply m (k1_pay9 (F := Ideal) Q K m) r u).trans ?_
  exact congrArg (fun z => Ideal.exp (col m r - z)) (pay9_apply Q K m r 0)

theorem pay11_apply (Q K : Vec Ideal S1x1024x64 .bf16) (m : Vec Ideal S1024x1 .f32) (r c : Fin 1024) :
    k1_pay11 (F := Ideal) Q K m (ix2 r c) = Ideal.exp (S Q K r c - updM (S Q K) (col m) r) := by
  unfold k1_pay11
  refine (p_apply (k1_pay8 (F := Ideal) Q K) (k1_pay9 (F := Ideal) Q K m) r c).trans ?_
  exact congrArg₂ (fun a b => Ideal.exp (a - b)) (pay8_apply Q K r c) (pay9_apply Q K m r 0)

theorem pay12_apply (Q K : Vec Ideal S1x1024x64 .bf16) (m l : Vec Ideal S1024x1 .f32) (r : Fin 1024) (u : Fin 1) :
    k1_pay12 (F := Ideal) Q K m l (ix2 r u) = updL (S Q K) (col m) (col l) r := by
  unfold k1_pay12
  refine (newl_apply l (k1_pay10 (F := Ideal) Q K m) (k1_pay11 (F := Ideal) Q K m) r u).trans ?_
  unfold updL
  exact congrArg₂ (· + ·) (congrArg (· * col l r) (pay10_apply Q K m r 0))
    (Finset.sum_congr rfl fun c _ => pay11_apply Q K m r c)

theorem pay13_apply (Q K : Vec Ideal S1x1024x64 .bf16) (m : Vec Ideal S1024x1 .f32) (acc : Vec Ideal S1024x64 .f32) (V : Vec Ideal S1x1024x64 .bf16) (r : Fin 1024) (h : Fin 64) :
    k1_pay13 (F := Ideal) Q K m acc V (ix2 r h) = updA (S Q K) (col m) (mat acc) (blk V) r h := by
  unfold k1_pay13
  refine (newacc_apply (k1_pay10 (F := Ideal) Q K m) (k1_pay11 (F := Ideal) Q K m) acc V r h).trans ?_
  unfold updA
  exact congrArg₂ (· + ·) (congrArg (· * mat acc r h) (pay10_apply Q K m r 0))
    (Finset.sum_congr rfl fun c _ => congrArg (· * blk V c h) (pay11_apply Q K m r c))

/-- On the diagonal block `n`: the same five over the masked tile. -/
theorem pay15_apply (n : Nat) (hn : n < 4) (Q K : Vec Ideal S1x1024x64 .bf16) (m : Vec Ideal S1024x1 .f32) (r : Fin 1024) (u : Fin 1) :
    k1_pay15 (F := Ideal) (BitVec.ofNat 32 n) (BitVec.ofNat 32 n) Q K m (ix2 r u) = updM (Sd Q K) (col m) r := by
  unfold k1_pay15
  refine (newmax_apply (k1_pay14 (F := Ideal) (BitVec.ofNat 32 n) (BitVec.ofNat 32 n) Q K) m r u).trans ?_
  exact congrArg (fun T => updM T (col m) r) (funext fun r => funext fun c => pay14_apply n hn Q K r c)

theorem pay16_apply (n : Nat) (hn : n < 4) (Q K : Vec Ideal S1x1024x64 .bf16) (m : Vec Ideal S1024x1 .f32) (r : Fin 1024) (u : Fin 1) :
    k1_pay16 (F := Ideal) (BitVec.ofNat 32 n) (BitVec.ofNat 32 n) Q K m (ix2 r u)
      = Ideal.exp (col m r - updM (Sd Q K) (col m) r) := by
  unfold k1_pay16
  refine (alpha_apply m (k1_pay15 (F := Ideal) (BitVec.ofNat 32 n) (BitVec.ofNat 32 n) Q K m) r u).trans ?_
  exact congrArg (fun z => Ideal.exp (col m r - z)) (pay15_apply n hn Q K m r 0)

theorem pay17_apply (n : Nat) (hn : n < 4) (Q K : Vec Ideal S1x1024x64 .bf16) (m : Vec Ideal S1024x1 .f32) (r c : Fin 1024) :
    k1_pay17 (F := Ideal) (BitVec.ofNat 32 n) (BitVec.ofNat 32 n) Q K m (ix2 r c)
      = Ideal.exp (Sd Q K r c - updM (Sd Q K) (col m) r) := by
  unfold k1_pay17
  refine (p_apply (k1_pay14 (F := Ideal) (BitVec.ofNat 32 n) (BitVec.ofNat 32 n) Q K)
    (k1_pay15 (F := Ideal) (BitVec.ofNat 32 n) (BitVec.ofNat 32 n) Q K m) r c).trans ?_
  exact congrArg₂ (fun a b => Ideal.exp (a - b)) (pay14_apply n hn Q K r c) (pay15_apply n hn Q K m r 0)

theorem pay18_apply (n : Nat) (hn : n < 4) (Q K : Vec Ideal S1x1024x64 .bf16) (m l : Vec Ideal S1024x1 .f32) (r : Fin 1024) (u : Fin 1) :
    k1_pay18 (F := Ideal) (BitVec.ofNat 32 n) (BitVec.ofNat 32 n) Q K m l (ix2 r u) = updL (Sd Q K) (col m) (col l) r := by
  unfold k1_pay18
  refine (newl_apply l (k1_pay16 (F := Ideal) (BitVec.ofNat 32 n) (BitVec.ofNat 32 n) Q K m)
    (k1_pay17 (F := Ideal) (BitVec.ofNat 32 n) (BitVec.ofNat 32 n) Q K m) r u).trans ?_
  unfold updL
  exact congrArg₂ (· + ·) (congrArg (· * col l r) (pay16_apply n hn Q K m r 0))
    (Finset.sum_congr rfl fun c _ => pay17_apply n hn Q K m r c)

theorem pay5_apply (n : Nat) (hn : n < 4) (Q K : Vec Ideal S1x1024x64 .bf16) (m : Vec Ideal S1024x1 .f32) (acc : Vec Ideal S1024x64 .f32) (V : Vec Ideal S1x1024x64 .bf16) (r : Fin 1024) (h : Fin 64) :
    k1_pay5 (F := Ideal) (k1_pay19 (BitVec.ofNat 32 n) (BitVec.ofNat 32 n) Q K m acc)
        (k1_pay20 (BitVec.ofNat 32 n) (BitVec.ofNat 32 n) Q K m) V (ix2 r h)
      = updA (Sd Q K) (col m) (mat acc) (blk V) r h := by
  unfold k1_pay5 k1_pay19 k1_pay20
  refine (newacc_apply (k1_pay16 (F := Ideal) (BitVec.ofNat 32 n) (BitVec.ofNat 32 n) Q K m)
    (k1_pay17 (F := Ideal) (BitVec.ofNat 32 n) (BitVec.ofNat 32 n) Q K m) acc V r h).trans ?_
  unfold updA
  exact congrArg₂ (· + ·) (congrArg (· * mat acc r h) (pay16_apply n hn Q K m r 0))
    (Finset.sum_congr rfl fun c _ => congrArg (· * blk V c h) (pay17_apply n hn Q K m r c))

/-- The last key block writes the accumulator divided by the denominator. -/
theorem pay7_apply (acc : Vec Ideal S1024x64 .f32) (l : Vec Ideal S1024x1 .f32) (u : Fin 1) (r : Fin 1024) (h : Fin 64) :
    k1_pay7 (F := Ideal) acc l (ix3 u r h) = Ideal.div (mat acc r h) (col l r) := by
  unfold k1_pay7
  refine (shapeCast_ab_1ab_apply _ _ u r h).trans ?_
  refine (divf_apply _ _ _).trans ?_
  exact congrArg (Ideal.div (mat acc r h)) (Cert.LibLayout.broadcastTo_a1_ab_apply l _ r h)

end Payloads

end Cert.KernelIdeal.FlashTile

end
-- ==== Proof.KI.FlashStep.lean ====
/-
  The flash kernel's scratch buffers as the online softmax's state, one grid point at a time.

  A query block has 1024 rows; row `r` has a row `s r` of 4096 scores (real, or `-∞` where masked) read in tiles of 1024
  columns, and values `v j h`. After `n` tiles the three scratch buffers hold, per row, the maximum over the first
  `1024 n` columns, the sum of `exp (score − maximum)` over them, and that sum weighted by the value rows. The reset
  gives the state after no tile; a plain tile and the masked diagonal tile each advance the state by one tile; the
  final division gives the softmax-weighted sum over the whole row once every later column is masked.
-/
import proofs.«132881_j16904991277416_2_alg».proof.Proof.KI.FlashTile
import proofs.«132881_j16904991277416_2_alg».proof.Proof.LibOnlineSoftmax

noncomputable section

namespace Cert.KernelIdeal.FlashStep

open Cert.KernelIdeal Cert.KernelIdeal.Gen Cert.KernelIdeal.FlashTile Idealize.ShloMosaic Idealize.ShloMosaic.ValueIdx
open Cert.OnlineSoftmax (before tile_step row_final)

/-- The scratch buffers hold the online softmax's state after `n` tiles. -/
def RowState (s : Fin 1024 → Fin 4096 → EReal) (v : Fin 4096 → Fin 64 → ℝ) (n : ℕ)
    (m l : Vec Ideal S1024x1 .f32) (acc : Vec Ideal S1024x64 .f32) : Prop :=
  (∀ r, col m r = (before 1024 n).sup (s r))
  ∧ (∀ r, col l r = ∑ j ∈ before 1024 n, Ideal.exp (s r j - (before 1024 n).sup (s r)))
  ∧ (∀ r h, mat acc r h = ∑ j ∈ before 1024 n, Ideal.exp (s r j - (before 1024 n).sup (s r)) * (v j h : EReal))

/-- The reset: maximum `-∞`, sums zero — the state after no tile. -/
theorem reset_state (s : Fin 1024 → Fin 4096 → EReal) (v : Fin 4096 → Fin 64 → ℝ) :
    RowState s v 0 (k1_pay1 (F := Ideal)) (k1_pay2 (F := Ideal)) (k1_pay3 (F := Ideal)) := by
  refine ⟨fun r => ?_, fun r => ?_, fun r h => ?_⟩
  · rw [Cert.OnlineSoftmax.before_zero]; exact pay1_apply r 0
  · rw [Cert.OnlineSoftmax.before_zero]; exact pay2_apply r 0
  · rw [Cert.OnlineSoftmax.before_zero]; exact pay3_apply r h

/-- ONE TILE, whatever its scores `T`: the three updates of FlashTile advance the state. -/
theorem upd_state (s : Fin 1024 → Fin 4096 → EReal) (v : Fin 4096 → Fin 64 → ℝ) (k : ℕ) (hk : (k + 1) * 1024 ≤ 4096)
    (hs : ∀ r j, s r j ≠ ⊤) (h0 : ∀ r, s r ⟨0, by omega⟩ ≠ ⊥)
    (T : Fin 1024 → Fin 1024 → EReal) (hT : ∀ r c, T r c = s r (Cert.OnlineSoftmax.col 1024 k hk c))
    (vt : Fin 1024 → Fin 64 → EReal) (hV : ∀ c h, vt c h = (v (Cert.OnlineSoftmax.col 1024 k hk c) h : EReal))
    (m l : Fin 1024 → EReal) (a : Fin 1024 → Fin 64 → EReal)
    (hm : ∀ r, m r = (before 1024 k).sup (s r))
    (hl : ∀ r, l r = ∑ j ∈ before 1024 k, Ideal.exp (s r j - (before 1024 k).sup (s r)))
    (ha : ∀ r h, a r h = ∑ j ∈ before 1024 k, Ideal.exp (s r j - (before 1024 k).sup (s r)) * (v j h : EReal)) :
    (∀ r, updM T m r = (before 1024 (k + 1)).sup (s r))
    ∧ (∀ r, updL T m l r = ∑ j ∈ before 1024 (k + 1), Ideal.exp (s r j - (before 1024 (k + 1)).sup (s r)))
    ∧ (∀ r h, updA T m a vt r h = ∑ j ∈ before 1024 (k + 1), Ideal.exp (s r j - (before 1024 (k + 1)).sup (s r)) * (v j h : EReal)) := by
  have key : ∀ r h, _ := fun r h => tile_step 1024 k (by omega) hk (s r) (fun j => v j h) (hs r) (h0 r) (T r) (hT r)
    (fun c => vt c h) (fun c => hV c h)
  have hM : ∀ r, updM T m r = (before 1024 (k + 1)).sup (s r) := fun r => by
    unfold updM; rw [hm r]; exact (key r 0).1
  refine ⟨hM, fun r => ?_, fun r h => ?_⟩
  · unfold updL; rw [hM r, hm r, hl r]; exact (key r 0).2.1
  · unfold updA; rw [hM r, hm r, ha r h]; exact (key r h).2.2

/-- A plain tile (every column at or before the query rows) advances the state. -/
theorem plain_state (s : Fin 1024 → Fin 4096 → EReal) (v : Fin 4096 → Fin 64 → ℝ) (k : ℕ) (hk : (k + 1) * 1024 ≤ 4096)
    (hs : ∀ r j, s r j ≠ ⊤) (h0 : ∀ r, s r ⟨0, by omega⟩ ≠ ⊥)
    (Q K Vb : Vec Ideal S1x1024x64 .bf16) (m l : Vec Ideal S1024x1 .f32) (acc : Vec Ideal S1024x64 .f32)
    (hT : ∀ r c, S Q K r c = s r (Cert.OnlineSoftmax.col 1024 k hk c))
    (hV : ∀ c h, blk Vb c h = (v (Cert.OnlineSoftmax.col 1024 k hk c) h : EReal))
    (hst : RowState s v k m l acc) :
    RowState s v (k + 1) (k1_pay4 (F := Ideal) (k1_pay9 Q K m)) (k1_pay12 (F := Ideal) Q K m l) (k1_pay13 (F := Ideal) Q K m acc Vb) := by
  obtain ⟨e1, e2, e3⟩ := upd_state s v k hk hs h0 (S Q K) hT (blk Vb) hV (col m) (col l) (mat acc) hst.1 hst.2.1 hst.2.2
  refine ⟨fun r => ?_, fun r => ?_, fun r h => ?_⟩
  · rw [pay4_eq]; exact (pay9_apply Q K m r 0).trans (e1 r)
  · exact (pay12_apply Q K m l r 0).trans (e2 r)
  · exact (pay13_apply Q K m acc Vb r h).trans (e3 r h)

/-- The masked diagonal tile (query block `n` against key block `n`) advances the state. -/
theorem diag_state (s : Fin 1024 → Fin 4096 → EReal) (v : Fin 4096 → Fin 64 → ℝ) (k : ℕ) (hk : (k + 1) * 1024 ≤ 4096)
    (hs : ∀ r j, s r j ≠ ⊤) (h0 : ∀ r, s r ⟨0, by omega⟩ ≠ ⊥) (n : ℕ) (hn : n < 4)
    (Q K Vb : Vec Ideal S1x1024x64 .bf16) (m l : Vec Ideal S1024x1 .f32) (acc : Vec Ideal S1024x64 .f32)
    (hT : ∀ r c, Sd Q K r c = s r (Cert.OnlineSoftmax.col 1024 k hk c))
    (hV : ∀ c h, blk Vb c h = (v (Cert.OnlineSoftmax.col 1024 k hk c) h : EReal))
    (hst : RowState s v k m l acc) :
    RowState s v (k + 1) (k1_pay6 (F := Ideal) (k1_pay15 (BitVec.ofNat 32 n) (BitVec.ofNat 32 n) Q K m))
      (k1_pay18 (F := Ideal) (BitVec.ofNat 32 n) (BitVec.ofNat 32 n) Q K m l)
      (k1_pay5 (F := Ideal) (k1_pay19 (BitVec.ofNat 32 n) (BitVec.ofNat 32 n) Q K m acc) (k1_pay20 (BitVec.ofNat 32 n) (BitVec.ofNat 32 n) Q K m) Vb) := by
  obtain ⟨e1, e2, e3⟩ := upd_state s v k hk hs h0 (Sd Q K) hT (blk Vb) hV (col m) (col l) (mat acc) hst.1 hst.2.1 hst.2.2
  refine ⟨fun r => ?_, fun r => ?_, fun r h => ?_⟩
  · rw [pay6_eq]; exact (pay15_apply n hn Q K m r 0).trans (e1 r)
  · exact (pay18_apply n hn Q K m l r 0).trans (e2 r)
  · exact (pay5_apply n hn Q K m acc Vb r h).trans (e3 r h)

/-- THE FINAL DIVISION: once every column after the tiles read is masked, `acc / l` is the softmax-weighted sum of the
    value rows over the whole row. -/
theorem final_out (s : Fin 1024 → Fin 4096 → EReal) (v : Fin 4096 → Fin 64 → ℝ) (n : ℕ) (hn : 0 < n)
    (hs : ∀ r j, s r j ≠ ⊤) (h0 : ∀ r, s r ⟨0, by omega⟩ ≠ ⊥)
    (hbot : ∀ r j, j ∉ (before 1024 n : Finset (Fin 4096)) → s r j = ⊥)
    (m l : Vec Ideal S1024x1 .f32) (acc : Vec Ideal S1024x64 .f32) (hst : RowState s v n m l acc)
    (u : Fin 1) (r : Fin 1024) (h : Fin 64) :
    k1_pay7 (F := Ideal) acc l (ix3 u r h)
      = ∑ j, Ideal.div (Ideal.exp (s r j - Finset.univ.sup (s r))) (∑ j', Ideal.exp (s r j' - Finset.univ.sup (s r))) * (v j h : EReal) := by
  rw [pay7_apply, hst.2.2 r h, hst.2.1 r]
  refine row_final (s r) (fun j => v j h) (before 1024 n) (hs r) ⟨⟨0, by omega⟩, ?_, h0 r⟩ (hbot r)
  simp only [before, Finset.mem_filter, Finset.mem_univ, true_and]
  omega

end Cert.KernelIdeal.FlashStep

end
-- ==== Proof.KI.FlashBlocks.lean ====
/-
  The attention kernel's windows read at coordinates.

  Grid point number t stands for (b, qi, ki) with t = 16·b + 4·qi + ki. Its query block is rows 1024·qi … of batch b of the
  query array, its key and value blocks rows 1024·min(ki, qi) … of batch b of the key and value arrays, and its output
  block rows 1024·qi … of batch b of the result.
-/
import proofs.«132881_j16904991277416_2_alg».proof.Proof.KI.FlashRuns
import Idealize.ShloMosaic.Lib.Pipeline.Value
import Idealize.ShloMosaic.Lib.ValueIdx

noncomputable section

namespace Cert.KernelIdeal.FlashBlocks

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-- The printed index maps and grid coordinates in closed form, decided over the 64 points. -/
theorem idx_facts : ∀ t : Fin cfg1.N,
    win1_0.index t (0 : Fin 3) = t.val / 16 ∧ win1_0.index t (1 : Fin 3) = t.val % 16 / 4 ∧ win1_0.index t (2 : Fin 3) = 0
    ∧ win1_1.index t (0 : Fin 3) = t.val / 16 ∧ win1_1.index t (1 : Fin 3) = min (t.val % 4) (t.val % 16 / 4) ∧ win1_1.index t (2 : Fin 3) = 0
    ∧ win1_2.index t (0 : Fin 3) = t.val / 16 ∧ win1_2.index t (1 : Fin 3) = min (t.val % 4) (t.val % 16 / 4) ∧ win1_2.index t (2 : Fin 3) = 0
    ∧ win1_3.index t (0 : Fin 3) = t.val / 16 ∧ win1_3.index t (1 : Fin 3) = t.val % 16 / 4 ∧ win1_3.index t (2 : Fin 3) = 0
    ∧ (grid1.coords t 1).val = t.val % 16 / 4 ∧ (grid1.coords t 2).val = t.val % 4 :=
  (by decide +kernel : ∀ t : Fin grid1.N, _)

/-- The query block at point `t`, read at a coordinate of the block, is the query array at the matching row. -/
theorem q_read (c : Dev nD) (t : Fin cfg1.N) (y : S1x1024x64.Idx) (i : S4x4096x64.Idx)
    (h0 : (i 0).val = t.val / 16) (h1 : (i 1).val = t.val % 16 / 4 * 1024 + (y 1).val) (h2 : (i 2).val = (y 2).val) :
    (iblk1 V c 0 t : Vec Ideal S1x1024x64 .bf16) y = V c main_v4_0 i := by
  obtain ⟨e0, e1, e2, -⟩ := idx_facts t
  unfold iblk1
  rw [View.read_apply]
  show V c main_v4_0 (((cfg1.win 0).blk t).view.emb y) = V c main_v4_0 i
  refine congrArg (V c main_v4_0) (funext fun a => Fin.ext ?_)
  have hy0 : (y 0).val < 1 := (y 0).isLt
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 64 + 1 * (y 2).val = (i 2).val; omega

/-- The key block at point `t` is the key array at the rows of key tile `min(ki, qi)`. -/
theorem k_read (c : Dev nD) (t : Fin cfg1.N) (y : S1x1024x64.Idx) (i : S4x4096x64.Idx)
    (h0 : (i 0).val = t.val / 16) (h1 : (i 1).val = min (t.val % 4) (t.val % 16 / 4) * 1024 + (y 1).val) (h2 : (i 2).val = (y 2).val) :
    (iblk1 V c 1 t : Vec Ideal S1x1024x64 .bf16) y = V c main_v4_1 i := by
  obtain ⟨-, -, -, e0, e1, e2, -⟩ := idx_facts t
  unfold iblk1
  rw [View.read_apply]
  show V c main_v4_1 (((cfg1.win 1).blk t).view.emb y) = V c main_v4_1 i
  refine congrArg (V c main_v4_1) (funext fun a => Fin.ext ?_)
  have hy0 : (y 0).val < 1 := (y 0).isLt
  match a with
  | ⟨0, _⟩ => show win1_1.index t (0 : Fin 3) * 1 + 1 * (y 0).val = (i 0).val; omega
  | ⟨1, _⟩ => show win1_1.index t (1 : Fin 3) * 1024 + 1 * (y 1).val = (i 1).val; omega
  | ⟨2, _⟩ => show win1_1.index t (2 : Fin 3) * 64 + 1 * (y 2).val = (i 2).val; omega

/-- The value block at point `t` is the value array at the same rows. -/
theorem v_read (c : Dev nD) (t : Fin cfg1.N) (y : S1x1024x64.Idx) (i : S4x4096x64.Idx)
    (h0 : (i 0).val = t.val / 16) (h1 : (i 1).val = min (t.val % 4) (t.val % 16 / 4) * 1024 + (y 1).val) (h2 : (i 2).val = (y 2).val) :
    (iblk1 V c 2 t : Vec Ideal S1x1024x64 .bf16) y = V c main_v4_2 i := by
  obtain ⟨-, -, -, -, -, -, e0, e1, e2, -⟩ := idx_facts t
  unfold iblk1
  rw [View.read_apply]
  show V c main_v4_2 (((cfg1.win 2).blk t).view.emb y) = V c main_v4_2 i
  refine congrArg (V c main_v4_2) (funext fun a => Fin.ext ?_)
  have hy0 : (y 0).val < 1 := (y 0).isLt
  match a with
  | ⟨0, _⟩ => show win1_2.index t (0 : Fin 3) * 1 + 1 * (y 0).val = (i 0).val; omega
  | ⟨1, _⟩ => show win1_2.index t (1 : Fin 3) * 1024 + 1 * (y 1).val = (i 1).val; omega
  | ⟨2, _⟩ => show win1_2.index t (2 : Fin 3) * 64 + 1 * (y 2).val = (i 2).val; omega

end Cert.KernelIdeal.FlashBlocks

end
-- ==== Proof.KI.FlashInv.lean ====
/-
  The flash kernel's scratch buffers after every grid point ARE the online softmax's state.

  Point number t stands for (b, qi, ki), t = 16·b + 4·qi + ki. For the 1024 query rows of block qi of batch b, row r has
  the masked scores of query row 1024·qi + r against all 4096 key rows; after point t the scratch buffers hold the state
  after min(ki, qi) + 1 key tiles: the reset and a tile at ki = 0, one more tile while ki ≤ qi, nothing after.
  By induction on the point.
-/
import proofs.«132881_j16904991277416_2_alg».proof.Proof.KI.Flash
import proofs.«132881_j16904991277416_2_alg».proof.Proof.KI.FlashAt
import proofs.«132881_j16904991277416_2_alg».proof.Proof.KI.FlashStep
import proofs.«132881_j16904991277416_2_alg».proof.Proof.KI.FlashBlocks
import proofs.«132881_j16904991277416_2_alg».proof.Proof.AttnMath

noncomputable section

namespace Cert.KernelIdeal.FlashInv

open Cert.KernelIdeal Cert.KernelIdeal.Gen Cert.KernelIdeal.Hand Cert.KernelIdeal.FlashTile Cert.KernelIdeal.FlashStep Cert.KernelIdeal.FlashBlocks
open Idealize.ShloMosaic Idealize.ShloMosaic.TcCoe Idealize.SL.Sem Idealize.ShloMosaic.ValueIdx
open Cert.AttnMath (RealArr sc real_dot)
open Cert.OnlineSoftmax (before)

variable (V : (c : Dev nD) → (b : Ref sig .tc) → Buf (Elt Ideal) ((c : Thread nD τ).loc b)) (c : Dev nD)

/-- The masked scores of row `r` of query block `qi` of batch `b` against every key row. -/
def rowS (b qi : ℕ) (r : Fin 1024) (j : Fin 4096) : EReal :=
  sc (V c main_v4_0) (V c main_v4_1) ⟨b % 4, Nat.mod_lt _ (by norm_num)⟩
    ⟨qi % 4 * 1024 + r.val, by have := r.isLt; have : qi % 4 < 4 := Nat.mod_lt _ (by norm_num); omega⟩ j

variable (hq : RealArr (V c main_v4_0 : S4x4096x64.Idx → EReal)) (hk : RealArr (V c main_v4_1 : S4x4096x64.Idx → EReal))
  (hv : RealArr (V c main_v4_2 : S4x4096x64.Idx → EReal))

/-- The value rows of batch `b` as real numbers. -/
def vR (b : ℕ) (j : Fin 4096) (h : Fin 64) : ℝ :=
  Classical.choose (hv (ix3 (⟨b % 4, Nat.mod_lt _ (by norm_num)⟩ : Fin 4) j h))

theorem vR_spec (b : ℕ) (j : Fin 4096) (h : Fin 64) :
    (V c main_v4_2 : S4x4096x64.Idx → EReal) (ix3 (⟨b % 4, Nat.mod_lt _ (by norm_num)⟩ : Fin 4) j h) = (vR V c hv b j h : EReal) :=
  Classical.choose_spec (hv (ix3 (⟨b % 4, Nat.mod_lt _ (by norm_num)⟩ : Fin 4) j h))

include hq hk in
/-- A score is a real number or `-∞`. -/
theorem rowS_ne_top (b qi : ℕ) (r : Fin 1024) (j : Fin 4096) : rowS V c b qi r j ≠ ⊤ := by
  unfold rowS sc
  split_ifs
  · obtain ⟨x, hx⟩ := real_dot _ _ (fun h => hq (ix3 _ _ h)) (fun h => hk (ix3 _ _ h))
    rw [hx]; exact EReal.coe_ne_top x
  · exact bot_ne_top

include hq hk in
/-- The first key row is never masked: its score is real. -/
theorem rowS_zero (b qi : ℕ) (r : Fin 1024) : rowS V c b qi r ⟨0, by norm_num⟩ ≠ ⊥ := by
  unfold rowS sc
  rw [if_pos (Fin.mk_le_mk.mpr (Nat.zero_le _))]
  obtain ⟨x, hx⟩ := real_dot _ _ (fun h => hq (ix3 _ _ h)) (fun h => hk (ix3 _ _ h))
  rw [hx]; exact EReal.coe_ne_bot x

/-- A plain tile's scores are the row's scores at the tile's columns. -/
theorem hT_plain (t : Fin cfg1.N) (hlt : t.val % 4 < t.val % 16 / 4) (hk4 : (t.val % 4 + 1) * 1024 ≤ 4096) (r c' : Fin 1024) :
    S (iblk1 V c 0 t) (iblk1 V c 1 t) r c' = rowS V c (t.val / 16) (t.val % 16 / 4) r (Cert.OnlineSoftmax.col 1024 (t.val % 4) hk4 c') := by
  have hN : t.val < 64 := lt_of_lt_of_eq t.isLt N_1
  unfold S rowS sc
  rw [if_pos (by show t.val % 4 * 1024 + c'.val ≤ t.val % 16 / 4 % 4 * 1024 + r.val; have := c'.isLt; have := r.isLt; omega)]
  refine Finset.sum_congr rfl fun h _ => ?_
  refine congrArg₂ (· * ·) ?_ ?_
  · exact q_read V c t _ _ (by show t.val / 16 % 4 = _; omega) (by show t.val % 16 / 4 % 4 * 1024 + r.val = t.val % 16 / 4 * 1024 + r.val; omega) rfl
  · exact k_read V c t _ _ (by show t.val / 16 % 4 = _; omega)
      (by show t.val % 4 * 1024 + c'.val = min (t.val % 4) (t.val % 16 / 4) * 1024 + c'.val; rw [Nat.min_eq_left (le_of_lt hlt)]) rfl

/-- The diagonal tile's masked scores are the row's scores at the tile's columns. -/
theorem hT_diag (t : Fin cfg1.N) (heq : t.val % 4 = t.val % 16 / 4) (hk4 : (t.val % 4 + 1) * 1024 ≤ 4096) (r c' : Fin 1024) :
    Sd (iblk1 V c 0 t) (iblk1 V c 1 t) r c' = rowS V c (t.val / 16) (t.val % 16 / 4) r (Cert.OnlineSoftmax.col 1024 (t.val % 4) hk4 c') := by
  have hN : t.val < 64 := lt_of_lt_of_eq t.isLt N_1
  unfold Sd rowS sc
  have hiff : (c' ≤ r) ↔ (Cert.OnlineSoftmax.col 1024 (t.val % 4) hk4 c' : Fin 4096) ≤ ⟨t.val % 16 / 4 % 4 * 1024 + r.val, by have := r.isLt; omega⟩ := by
    show c'.val ≤ r.val ↔ t.val % 4 * 1024 + c'.val ≤ t.val % 16 / 4 % 4 * 1024 + r.val
    omega
  by_cases hcr : c' ≤ r
  · rw [if_pos hcr, if_pos (hiff.mp hcr)]
    unfold S
    refine Finset.sum_congr rfl fun h _ => ?_
    refine congrArg₂ (· * ·) ?_ ?_
    · exact q_read V c t _ _ (by show t.val / 16 % 4 = _; omega) (by show t.val % 16 / 4 % 4 * 1024 + r.val = t.val % 16 / 4 * 1024 + r.val; omega) rfl
    · exact k_read V c t _ _ (by show t.val / 16 % 4 = _; omega)
        (by show t.val % 4 * 1024 + c'.val = min (t.val % 4) (t.val % 16 / 4) * 1024 + c'.val; rw [← heq, Nat.min_self]) rfl
  · rw [if_neg hcr, if_neg (fun h => hcr (hiff.mpr h))]

/-- The value block of a tile at or before the diagonal holds the value rows of the tile's columns. -/
theorem hV_tile (t : Fin cfg1.N) (hle : t.val % 4 ≤ t.val % 16 / 4) (hk4 : (t.val % 4 + 1) * 1024 ≤ 4096) (c' : Fin 1024) (h : Fin 64) :
    blk (iblk1 V c 2 t) c' h = (vR V c hv (t.val / 16) (Cert.OnlineSoftmax.col 1024 (t.val % 4) hk4 c') h : EReal) := by
  have hN : t.val < 64 := lt_of_lt_of_eq t.isLt N_1
  rw [← vR_spec]
  exact v_read V c t _ _ (by show t.val / 16 % 4 = _; omega)
    (by show t.val % 4 * 1024 + c'.val = min (t.val % 4) (t.val % 16 / 4) * 1024 + c'.val; rw [Nat.min_eq_left hle]) rfl

/-! ## The invariant -/

/-- The point before a point that is not the first of its group of four: same batch, same query block, one key block
    earlier. -/
theorem pred_facts : ∀ n : ℕ, n < 64 → ¬n % 4 = 0 →
    (n - 1) / 16 = n / 16 ∧ (n - 1) % 16 / 4 = n % 16 / 4 ∧ (n - 1) % 4 + 1 = n % 4 := by
  intro n hn h0
  have key : ∀ k : Fin 64, ¬k.val % 4 = 0 → (k.val - 1) / 16 = k.val / 16 ∧ (k.val - 1) % 16 / 4 = k.val % 16 / 4 ∧ (k.val - 1) % 4 + 1 = k.val % 4 := by
    decide
  exact key ⟨n, hn⟩ h0

/-- After point number `n` the scratch buffers hold the state after `min(ki, qi) + 1` key tiles of query block `qi` of
    batch `b`. -/
def Inv (n : ℕ) (hn : n < cfg1.N) : Prop :=
  RowState (rowS V c (n / 16) (n % 16 / 4)) (vR V c hv (n / 16)) (min (n % 4) (n % 16 / 4) + 1)
    (outsAt1 V c n hn).2.1 (outsAt1 V c n hn).2.2.1 (outsAt1 V c n hn).2.2.2

include hq hk in
set_option maxHeartbeats 1000000 in
/-- One point: from the invariant at the point before (needed only when the point is not the first of its query block). -/
theorem inv_step (t : Fin cfg1.N)
    (ih : ¬t.val % 4 = 0 → Inv V c hv (t.val - 1) (Nat.lt_of_le_of_lt (Nat.sub_le _ _) t.isLt)) : Inv V c hv t.val t.isLt := by
  have hN : t.val < 64 := lt_of_lt_of_eq t.isLt N_1
  have hk4 : (t.val % 4 + 1) * 1024 ≤ 4096 := by omega
  have hp := pred_facts t.val hN
  have hs : ∀ r j, rowS V c (t.val / 16) (t.val % 16 / 4) r j ≠ ⊤ := fun r j => rowS_ne_top V c hq hk _ _ r j
  have hz : ∀ r, rowS V c (t.val / 16) (t.val % 16 / 4) r ⟨0, by omega⟩ ≠ ⊥ := fun r => rowS_zero V c hq hk _ _ r
  obtain ⟨-, -, -, -, -, -, -, -, -, -, -, -, hc1, hc2⟩ := idx_facts t
  by_cases h0 : t.val % 4 = 0
  · by_cases h1 : t.val % 4 < t.val % 16 / 4
    · -- ki = 0 < qi: the reset, then a plain tile
      have h2 : ¬t.val % 4 = t.val % 16 / 4 := by omega
      have h3 : ¬t.val % 4 = 3 := by omega
      have hst : RowState (rowS V c (t.val / 16) (t.val % 16 / 4)) (vR V c hv (t.val / 16)) (t.val % 4) (k1_pay1 (F := Ideal)) (k1_pay2 (F := Ideal)) (k1_pay3 (F := Ideal)) := by
        rw [h0]; exact reset_state _ _
      unfold Inv
      rw [outsAt1_D V c t h0 h1 h2 h3, at1_D_m, at1_D_l, at1_D_a, Nat.min_eq_left (by omega : t.val % 4 ≤ t.val % 16 / 4)]
      exact plain_state _ _ (t.val % 4) hk4 hs hz (iblk1 V c 0 t) (iblk1 V c 1 t) (iblk1 V c 2 t) (k1_pay1 (F := Ideal)) (k1_pay2 (F := Ideal)) (k1_pay3 (F := Ideal))
        (fun r c' => hT_plain V c t h1 hk4 r c') (fun c' h => hV_tile V c hv t (by omega) hk4 c' h) hst
    · -- ki = 0 = qi: the reset, then the diagonal tile
      have h2 : t.val % 4 = t.val % 16 / 4 := by omega
      have h3 : ¬t.val % 4 = 3 := by omega
      have hc1v : (grid1.coords t 1).val = t.val % 4 := by omega
      have hc2v : (grid1.coords t 2).val = t.val % 4 := hc2
      have hst : RowState (rowS V c (t.val / 16) (t.val % 16 / 4)) (vR V c hv (t.val / 16)) (t.val % 4) (k1_pay1 (F := Ideal)) (k1_pay2 (F := Ideal)) (k1_pay3 (F := Ideal)) := by
        rw [h0]; exact reset_state _ _
      unfold Inv
      rw [outsAt1_A V c t h0 h1 h2 h3, at1_A_m, at1_A_l, at1_A_a, Nat.min_eq_left (by omega : t.val % 4 ≤ t.val % 16 / 4)]
      rw [hc1v, hc2v]
      exact diag_state _ _ (t.val % 4) hk4 hs hz (t.val % 4) (by omega) (iblk1 V c 0 t) (iblk1 V c 1 t) (iblk1 V c 2 t) (k1_pay1 (F := Ideal)) (k1_pay2 (F := Ideal)) (k1_pay3 (F := Ideal))
        (fun r c' => hT_diag V c t h2 hk4 r c') (fun c' h => hV_tile V c hv t (by omega) hk4 c' h) hst
  · by_cases h1 : t.val % 4 < t.val % 16 / 4
    · -- 0 < ki < qi: a plain tile over the carried state
      have h2 : ¬t.val % 4 = t.val % 16 / 4 := by omega
      have h3 : ¬t.val % 4 = 3 := by omega
      have hst : RowState (rowS V c (t.val / 16) (t.val % 16 / 4)) (vR V c hv (t.val / 16)) (t.val % 4) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
        have ih' := ih h0
        unfold Inv at ih'
        obtain ⟨p1, p2, p3⟩ := hp h0
        rw [p1, p2,
          show min ((t.val - 1) % 4) (t.val % 16 / 4) + 1 = t.val % 4 from by omega] at ih'
        exact ih'
      unfold Inv
      rw [outsAt1_F V c t h0 h1 h2 h3, at1_F_m, at1_F_l, at1_F_a, Nat.min_eq_left (by omega : t.val % 4 ≤ t.val % 16 / 4)]
      exact plain_state _ _ (t.val % 4) hk4 hs hz (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
        (fun r c' => hT_plain V c t h1 hk4 r c') (fun c' h => hV_tile V c hv t (by omega) hk4 c' h) hst
    · by_cases h2 : t.val % 4 = t.val % 16 / 4
      · have hc1v : (grid1.coords t 1).val = t.val % 4 := by omega
        have hc2v : (grid1.coords t 2).val = t.val % 4 := hc2
        by_cases h3 : t.val % 4 = 3
        · -- ki = qi = 3: the diagonal tile over the carried state
          have hst : RowState (rowS V c (t.val / 16) (t.val % 16 / 4)) (vR V c hv (t.val / 16)) (t.val % 4) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
            have ih' := ih h0
            unfold Inv at ih'
            obtain ⟨p1, p2, p3⟩ := hp h0
            rw [p1, p2,
              show min ((t.val - 1) % 4) (t.val % 16 / 4) + 1 = t.val % 4 from by omega] at ih'
            exact ih'
          unfold Inv
          rw [outsAt1_G V c t h0 h1 h2 h3, at1_G_m, at1_G_l, at1_G_a, Nat.min_eq_left (by omega : t.val % 4 ≤ t.val % 16 / 4)]
          rw [hc1v, hc2v]
          exact diag_state _ _ (t.val % 4) hk4 hs hz (t.val % 4) (by omega) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
            (fun r c' => hT_diag V c t h2 hk4 r c') (fun c' h => hV_tile V c hv t (by omega) hk4 c' h) hst
        · -- 0 < ki = qi < 3: the diagonal tile over the carried state
          have hst : RowState (rowS V c (t.val / 16) (t.val % 16 / 4)) (vR V c hv (t.val / 16)) (t.val % 4) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
            have ih' := ih h0
            unfold Inv at ih'
            obtain ⟨p1, p2, p3⟩ := hp h0
            rw [p1, p2,
              show min ((t.val - 1) % 4) (t.val % 16 / 4) + 1 = t.val % 4 from by omega] at ih'
            exact ih'
          unfold Inv
          rw [outsAt1_E V c t h0 h1 h2 h3, at1_E_m, at1_E_l, at1_E_a, Nat.min_eq_left (by omega : t.val % 4 ≤ t.val % 16 / 4)]
          rw [hc1v, hc2v]
          exact diag_state _ _ (t.val % 4) hk4 hs hz (t.val % 4) (by omega) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
            (fun r c' => hT_diag V c t h2 hk4 r c') (fun c' h => hV_tile V c hv t (by omega) hk4 c' h) hst
      · by_cases h3 : t.val % 4 = 3
        · -- qi < ki = 3: the state is carried through
          have ih' := ih h0
          unfold Inv at ih' ⊢
          obtain ⟨p1, p2, p3⟩ := hp h0
          rw [p1, p2,
            show min ((t.val - 1) % 4) (t.val % 16 / 4) = min (t.val % 4) (t.val % 16 / 4) from by omega] at ih'
          rw [outsAt1_C V c t h0 h1 h2 h3, at1_C_m, at1_C_l, at1_C_a]
          exact ih'
        · -- qi < ki < 3: the state is carried through
          have ih' := ih h0
          unfold Inv at ih' ⊢
          obtain ⟨p1, p2, p3⟩ := hp h0
          rw [p1, p2,
            show min ((t.val - 1) % 4) (t.val % 16 / 4) = min (t.val % 4) (t.val % 16 / 4) from by omega] at ih'
          rw [outsAt1_B V c t h0 h1 h2 h3, at1_B_m, at1_B_l, at1_B_a]
          exact ih'

include hq hk in
/-- THE INVARIANT at every point, by induction on the point. -/
theorem inv : ∀ (n : ℕ) (hn : n < cfg1.N), Inv V c hv n hn
  | 0, hn => inv_step V c hq hk hv ⟨0, hn⟩ (fun h => absurd (Nat.zero_mod 4) h)
  | n + 1, hn => inv_step V c hq hk hv ⟨n + 1, hn⟩ (fun _ => inv n (Nat.lt_of_succ_lt hn))

end Cert.KernelIdeal.FlashInv

end
-- ==== Proof.KI.FlashFinal.lean ====
/-
  The attention kernel's result array.

  The output block of query block qi of batch b is stored, and written back, at the points with ki = 3 only; what is
  stored is the weighted sum over the denominator, of the state after qi + 1 key tiles — every later key row is masked — so
  each entry is the softmax-weighted sum of the value rows over the whole row. The 16 blocks tile the array.
-/
import proofs.«132881_j16904991277416_2_alg».proof.Proof.KI.FlashInv

noncomputable section

namespace Cert.KernelIdeal.FlashFinal

open Cert.KernelIdeal Cert.KernelIdeal.Gen Cert.KernelIdeal.Hand Cert.KernelIdeal.FlashTile Cert.KernelIdeal.FlashStep Cert.KernelIdeal.FlashBlocks Cert.KernelIdeal.FlashInv
open Idealize.ShloMosaic Idealize.ShloMosaic.TcCoe Idealize.SL.Sem Idealize.ShloMosaic.ValueIdx
open Idealize.ShloMosaic.Pipeline (Dat)
open Cert.AttnMath (RealArr sc attn)
open Cert.OnlineSoftmax (before)

variable (V : (c : Dev nD) → (b : Ref sig .tc) → Buf (Elt Ideal) ((c : Thread nD τ).loc b)) (c : Dev nD)
variable (hq : RealArr (V c main_v4_0 : S4x4096x64.Idx → EReal)) (hk : RealArr (V c main_v4_1 : S4x4096x64.Idx → EReal))
  (hv : RealArr (V c main_v4_2 : S4x4096x64.Idx → EReal))

/-- At a point with ki = 3 the output's staging buffer holds the division of the scratch sums the point leaves. -/
theorem out_eq (t : Fin cfg1.N) (h3 : t.val % 4 = 3) :
    (outsAt1 V c t.val t.isLt).1 = k1_pay7 (F := Ideal) (outsAt1 V c t.val t.isLt).2.2.2 (outsAt1 V c t.val t.isLt).2.2.1 := by
  have hN : t.val < 64 := lt_of_lt_of_eq t.isLt N_1
  have h0 : ¬t.val % 4 = 0 := by omega
  have h1 : ¬t.val % 4 < t.val % 16 / 4 := by omega
  by_cases h2 : t.val % 4 = t.val % 16 / 4
  · rw [outsAt1_G V c t h0 h1 h2 h3, at1_G_o, at1_G_l, at1_G_a]
  · rw [outsAt1_C V c t h0 h1 h2 h3, at1_C_o, at1_C_l, at1_C_a]

/-- The attention array read at an index given by coordinates. -/
theorem attn_at (qA kA vA : (⟨3, ![4, 4096, 64]⟩ : Shape).Idx → EReal) (e : (⟨3, ![4, 4096, 64]⟩ : Shape).Idx)
    (b : Fin 4) (i : Fin 4096) (h : Fin 64) (hb : (e 0).val = b.val) (hi : (e 1).val = i.val) (hh : (e 2).val = h.val) :
    attn qA kA vA e = Cert.Attn.attend (sc qA kA) (fun b j h => vA (ix3 b j h)) b i h := by
  have he : e = ix3 b i h := funext fun a => Fin.ext (by
    match a with
    | ⟨0, _⟩ => exact hb
    | ⟨1, _⟩ => exact hi
    | ⟨2, _⟩ => exact hh)
  rw [he]; rfl

include hq hk hv in
/-- What a point with ki = 3 writes back is its block of the attention array. -/
theorem flushed3_eq (t : Fin cfg1.N) (h3 : t.val % 4 = 3) :
    (dat1 V c).flushed 3 t = ((cfg1.win 3).blk t).view.read (Elt Ideal)
      (attn (V c main_v4_0) (V c main_v4_1) (V c main_v4_2)) := by
  have hN : t.val < 64 := lt_of_lt_of_eq t.isLt N_1
  obtain ⟨-, -, -, -, -, -, -, -, -, f0, f1, f2, -, -⟩ := idx_facts t
  show (cfg1.win 3).cut (grid1.coords t) ((dat1 V c).after 3 t) = _
  rw [after1_3, out_eq V c t h3]
  funext j
  obtain ⟨u, r, h, rfl⟩ : ∃ (u : Fin 1) (r : Fin 1024) (h : Fin 64), j = ix3 u r h := ⟨j 0, j 1, j 2, eq_ix3 j⟩
  have hu : u.val < 1 := u.isLt
  rw [View.read_apply]
  show k1_pay7 (F := Ideal) (outsAt1 V c t.val t.isLt).2.2.2 (outsAt1 V c t.val t.isLt).2.2.1 (ix3 u r h)
    = attn (V c main_v4_0) (V c main_v4_1) (V c main_v4_2) (((cfg1.win 3).blk t).view.emb (ix3 u r h))
  have hinv := FlashInv.inv V c hq hk hv t.val t.isLt
  unfold FlashInv.Inv at hinv
  rw [show min (t.val % 4) (t.val % 16 / 4) + 1 = t.val % 16 / 4 + 1 from by omega] at hinv
  refine (final_out (rowS V c (t.val / 16) (t.val % 16 / 4)) (vR V c hv (t.val / 16)) (t.val % 16 / 4 + 1) (by omega)
    (fun r j => rowS_ne_top V c hq hk _ _ r j) (fun r => rowS_zero V c hq hk _ _ r) (fun r j hj => ?_) _ _ _ hinv u r h).trans ?_
  · -- a key row after the tiles read is after the query row: masked
    simp only [before, Finset.mem_filter, Finset.mem_univ, true_and, not_lt] at hj
    unfold rowS sc
    rw [if_neg]
    intro hle
    have : j.val ≤ t.val % 16 / 4 % 4 * 1024 + r.val := hle
    have := r.isLt
    omega
  · refine Eq.trans ?_ (attn_at (V c main_v4_0) (V c main_v4_1) (V c main_v4_2) _ ⟨t.val / 16 % 4, Nat.mod_lt _ (by norm_num)⟩
      ⟨t.val % 16 / 4 % 4 * 1024 + r.val, by have := r.isLt; omega⟩ h ?_ ?_ ?_).symm
    · unfold Cert.Attn.attend Cert.Attn.num Cert.Attn.den Cert.Attn.rowmax
      refine Finset.sum_congr rfl fun j _ => ?_
      rw [← vR_spec V c hv]
      rfl
    · show win1_3.index t (0 : Fin 3) * 1 + 1 * u.val = t.val / 16 % 4; omega
    · show win1_3.index t (1 : Fin 3) * 1024 + 1 * r.val = t.val % 16 / 4 % 4 * 1024 + r.val; omega
    · show win1_3.index t (2 : Fin 3) * 64 + 1 * h.val = h.val; omega

/-- An index of the array is in point `t`'s block iff each coordinate is in the block's range on its axis. -/
theorem mem_blk3 (t : Fin cfg1.N) (i : S4x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v5).slice (win1_3.rect t)).set ↔ _
  rw [View.set_slice_whole, Rect.mem_set_unit]
  exact Iff.rfl

/-- Every block of the result is the block of some point with ki = 3. -/
theorem idx_onto3 : ∀ (q0 : Fin 4) (q1 : Fin 4), ∃ t : Fin cfg1.N, t.val % 4 = 3 ∧ win1_3.index t = ![q0.val, q1.val, 0] :=
  (by decide +kernel : ∀ (q0 : Fin 4) (q1 : Fin 4), ∃ t : Fin grid1.N, t.val % 4 = 3 ∧ win1_3.index t = ![q0.val, q1.val, 0])

/-- The 16 written-back blocks cover the array. -/
theorem cover3 (i : S4x4096x64.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht3, ht⟩ := idx_onto3 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, (flush1_3 t).mpr ht3, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

include hq hk hv in
/-- THE RESULT ARRAY after the region: the causal softmax attention of the three arrays the region found. -/
theorem final_o : (dat1 V c).arrAt 3 cfg1.N = attn (V c main_v4_0) (V c main_v4_1) (V c main_v4_2) :=
  (dat1 V c).arrAt_eq_of_cover 3 _ (fun t hf => flushed3_eq V c hq hk hv t ((flush1_3 t).mp hf)) cover3

end Cert.KernelIdeal.FlashFinal

end
-- ==== Proof.KI.Value.lean ====
/-
  The kernel program's result array is the specification's function of the four argument arrays.

  The first region leaves the three projected arrays: the bands 0, 64, 128 of the product of the input rows with the
  fused weights, which the host built from the query weights times the scale, the key weights and the value weights.
  Under the precondition the four argument arrays are real, hence so are the projected arrays; the second region leaves
  the causal softmax attention of the three; and over the reals scaling the query weights before the projection is
  scaling the scores after it.
-/
import proofs.«132881_j16904991277416_2_alg».proof.Proof.KI.Run
import proofs.«132881_j16904991277416_2_alg».proof.Proof.KI.QkvValue
import proofs.«132881_j16904991277416_2_alg».proof.Proof.KI.HostValue
import proofs.«132881_j16904991277416_2_alg».proof.Proof.AttnMath
import proofs.«132881_j16904991277416_2_alg».proof.Proof.Finite
import proofs.«132881_j16904991277416_2_alg».proof.Proof.KI.FlashFinal

noncomputable section

namespace Cert.KernelIdeal.Value

open Idealize.ShloMosaic Idealize.SL.Sem Idealize.ShloMosaic.ValueIdx
open Cert.KernelIdeal Cert.KernelIdeal.Gen Idealize.ShloMosaic.TcCoe

/-- The scaled query weights are real when the weights are. -/
theorem real_scaled (Wq : S1024x64.Idx → EReal) (rq : Cert.AttnMath.RealArr Wq) (h : Fin 64) (k : Fin 1024) :
    ∃ r : ℝ, Wq (ix2 k h) * Cert.Attn.scale = (r : EReal) := by
  obtain ⟨a, ha⟩ := rq (ix2 k h)
  obtain ⟨σ, hσ⟩ := Cert.AttnMath.scale_real
  exact ⟨a * σ, by rw [ha, hσ, EReal.coe_mul]⟩

/-- A band of the product of the input rows with the fused weights, read at coordinates. -/
theorem band_apply (o : Nat) (ho : o + 64 ≤ 192) (X : S4x4096x1024.Idx → EReal) (Fw : S1024x192.Idx → EReal)
    (b : Fin 4) (i : Fin 4096) (h : Fin 64) :
    Cert.KernelIdeal.QkvValue.band o ho X Fw (ix3 b i h)
      = ∑ k : Fin 1024, X (ix3 b i k) * Fw (ix2 k (⟨o + h.val, by omega⟩ : Fin 192)) := rfl

/-- Three arrays that are the bands 0, 64, 128 of the product of real input rows with fused weights holding the scaled
    real query weights, the real key weights and the real value weights side by side: they are real, and their
    attention is the specification's result. -/
theorem attn_bands (X : S4x4096x1024.Idx → EReal) (Fw : S1024x192.Idx → EReal) (Wq Wk Wv : S1024x64.Idx → EReal)
    (qA kA vA : S4x4096x64.Idx → EReal)
    (eq : qA = Cert.KernelIdeal.QkvValue.band 0 (by omega) X Fw)
    (ek : kA = Cert.KernelIdeal.QkvValue.band 64 (by omega) X Fw)
    (ev : vA = Cert.KernelIdeal.QkvValue.band 128 (by omega) X Fw)
    (fq : ∀ (k : Fin 1024) (h : Fin 64), Fw (ix2 k (⟨h.val, by omega⟩ : Fin 192)) = Wq (ix2 k h) * Cert.Attn.scale)
    (fk : ∀ (k : Fin 1024) (h : Fin 64), Fw (ix2 k (⟨64 + h.val, by omega⟩ : Fin 192)) = Wk (ix2 k h))
    (fv : ∀ (k : Fin 1024) (h : Fin 64), Fw (ix2 k (⟨128 + h.val, by omega⟩ : Fin 192)) = Wv (ix2 k h))
    (rX : Cert.AttnMath.RealArr X) (rq : Cert.AttnMath.RealArr Wq) (rk : Cert.AttnMath.RealArr Wk)
    (rv : Cert.AttnMath.RealArr Wv) :
    Cert.AttnMath.RealArr qA ∧ Cert.AttnMath.RealArr kA ∧ Cert.AttnMath.RealArr vA
      ∧ Cert.AttnMath.attn qA kA vA = Cert.Attn.G X Wq Wk Wv := by
  have hQ : ∀ (b : Fin 4) (i : Fin 4096) (h : Fin 64),
      qA (ix3 b i h) = ∑ k : Fin 1024, X (ix3 b i k) * (Wq (ix2 k h) * Cert.Attn.scale) := by
    intro b i h
    rw [eq, band_apply]
    refine Finset.sum_congr rfl fun k _ => congrArg (X (ix3 b i k) * ·) ?_
    have e : (⟨0 + h.val, by omega⟩ : Fin 192) = ⟨h.val, by omega⟩ := Fin.ext (Nat.zero_add _)
    rw [e, fq k h]
  have hK : ∀ (b : Fin 4) (i : Fin 4096) (h : Fin 64), kA (ix3 b i h) = ∑ k : Fin 1024, X (ix3 b i k) * Wk (ix2 k h) := by
    intro b i h
    rw [ek, band_apply]
    exact Finset.sum_congr rfl fun k _ => congrArg (X (ix3 b i k) * ·) (fk k h)
  have hV : ∀ (b : Fin 4) (i : Fin 4096) (h : Fin 64), vA (ix3 b i h) = ∑ k : Fin 1024, X (ix3 b i k) * Wv (ix2 k h) := by
    intro b i h
    rw [ev, band_apply]
    exact Finset.sum_congr rfl fun k _ => congrArg (X (ix3 b i k) * ·) (fv k h)
  refine ⟨fun j => ?_, fun j => ?_, fun j => ?_, Cert.AttnMath.attn_eq_G X Wq Wk Wv qA kA vA rX rq rk hQ hK hV⟩
  · obtain ⟨b, i, h, rfl⟩ : ∃ (b : Fin 4) (i : Fin 4096) (h : Fin 64), j = ix3 b i h := ⟨j 0, j 1, j 2, eq_ix3 j⟩
    rw [hQ]
    exact Cert.AttnMath.real_dot _ _ (fun k => rX _) (fun k => real_scaled Wq rq h k)
  · obtain ⟨b, i, h, rfl⟩ : ∃ (b : Fin 4) (i : Fin 4096) (h : Fin 64), j = ix3 b i h := ⟨j 0, j 1, j 2, eq_ix3 j⟩
    rw [hK]
    exact Cert.AttnMath.real_dot _ _ (fun k => rX _) (fun k => rk _)
  · obtain ⟨b, i, h, rfl⟩ : ∃ (b : Fin 4) (i : Fin 4096) (h : Fin 64), j = ix3 b i h := ⟨j 0, j 1, j 2, eq_ix3 j⟩
    rw [hV]
    exact Cert.AttnMath.real_dot _ _ (fun k => rX _) (fun k => rv _)

/-- The attention region's result from the contents at the two regions' entries. -/
theorem result_core (V1 V2 : (c : Dev nD) → (b : Ref sig .tc) → Buf (Elt Ideal) ((c : Thread nD τ).loc b)) (c : Dev nD)
    (W : Valuation τ sig (Elt Ideal))
    (X : S4x4096x1024.Idx → EReal) (Wq Wk Wv : S1024x64.Idx → EReal)
    (hq : V2 c main_v4_0 = (Hand.dat0 V1 c).arrAt 2 cfg0.N) (hk : V2 c main_v4_1 = (Hand.dat0 V1 c).arrAt 3 cfg0.N)
    (hv : V2 c main_v4_2 = (Hand.dat0 V1 c).arrAt 4 cfg0.N)
    (hX : (V1 c main_arg0 : S4x4096x1024.Idx → EReal) = X)
    (hF : (V1 c main_v3 : S1024x192.Idx → EReal) = StableHlo.after (hostOps0 (F := Ideal)) W (Proc.devRef .tc main_v3))
    (hWq : (W (Proc.devRef .tc main_arg1) : S1024x64.Idx → EReal) = Wq)
    (hWk : (W (Proc.devRef .tc main_arg2) : S1024x64.Idx → EReal) = Wk)
    (hWv : (W (Proc.devRef .tc main_arg3) : S1024x64.Idx → EReal) = Wv)
    (rX : Cert.AttnMath.RealArr X) (rq : Cert.AttnMath.RealArr Wq) (rk : Cert.AttnMath.RealArr Wk)
    (rv : Cert.AttnMath.RealArr Wv)
    (hfinal : Cert.AttnMath.RealArr (V2 c main_v4_0 : S4x4096x64.Idx → EReal) →
      Cert.AttnMath.RealArr (V2 c main_v4_1 : S4x4096x64.Idx → EReal) →
      Cert.AttnMath.RealArr (V2 c main_v4_2 : S4x4096x64.Idx → EReal) →
      (Hand.dat1 V2 c).arrAt 3 cfg1.N = Cert.AttnMath.attn (V2 c main_v4_0) (V2 c main_v4_1) (V2 c main_v4_2)) :
    (Hand.dat1 V2 c).arrAt 3 cfg1.N = Cert.Attn.G X Wq Wk Wv := by
  generalize hFw : (StableHlo.after (hostOps0 (F := Ideal)) W (Proc.devRef .tc main_v3) : S1024x192.Idx → EReal) = Fw at hF
  have fq : ∀ (k : Fin 1024) (h : Fin 64), Fw (ix2 k (⟨h.val, by omega⟩ : Fin 192)) = Wq (ix2 k h) * Cert.Attn.scale := by
    intro k h
    rw [← hFw, Cert.KernelIdeal.HostValue.fused_q W k h, hWq]
  have fk : ∀ (k : Fin 1024) (h : Fin 64), Fw (ix2 k (⟨64 + h.val, by omega⟩ : Fin 192)) = Wk (ix2 k h) := by
    intro k h
    rw [← hFw, Cert.KernelIdeal.HostValue.fused_k W k h, hWk]
  have fv : ∀ (k : Fin 1024) (h : Fin 64), Fw (ix2 k (⟨128 + h.val, by omega⟩ : Fin 192)) = Wv (ix2 k h) := by
    intro k h
    rw [← hFw, Cert.KernelIdeal.HostValue.fused_v W k h, hWv]
  have eq : (V2 c main_v4_0 : S4x4096x64.Idx → EReal) = Cert.KernelIdeal.QkvValue.band 0 (by omega) X Fw := by
    rw [hq, Cert.KernelIdeal.QkvValue.final_q V1 c, hX, hF]
  have ek : (V2 c main_v4_1 : S4x4096x64.Idx → EReal) = Cert.KernelIdeal.QkvValue.band 64 (by omega) X Fw := by
    rw [hk, Cert.KernelIdeal.QkvValue.final_k V1 c, hX, hF]
  have ev : (V2 c main_v4_2 : S4x4096x64.Idx → EReal) = Cert.KernelIdeal.QkvValue.band 128 (by omega) X Fw := by
    rw [hv, Cert.KernelIdeal.QkvValue.final_v V1 c, hX, hF]
  obtain ⟨rQ, rK, rV, hG⟩ := attn_bands X Fw Wq Wk Wv _ _ _ eq ek ev fq fk fv rX rq rk rv
  exact (hfinal rQ rK rV).trans hG

/-- THE VALUE: under the precondition, the array the attention region leaves on every core is the specification's
    result of the four argument arrays as launched. -/
theorem result_eq (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) (c : Dev Cert.KernelIdeal.nD) :
    (Cert.KernelIdeal.Hand.dat1 (Cert.KernelIdeal.Hand.V2 m ρ) c).arrAt 3 Cert.KernelIdeal.cfg1.N
      = Cert.Attn.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨r0, r1, r2, r3⟩ := Cert.FiniteInputs.real_of_Pre_KernelIdeal m hpre c
  exact result_core (Hand.V1 m ρ) (Hand.V2 m ρ) c (Hand.W0 m ρ c) _ _ _ _
    (Hand.V2_main_v4_0 m ρ c) (Hand.V2_main_v4_1 m ρ c) (Hand.V2_main_v4_2 m ρ c)
    (Hand.W1_of m ρ c main_arg0 (by decide)) rfl rfl rfl rfl r0 r1 r2 r3
    (Cert.KernelIdeal.FlashFinal.final_o (Hand.V2 m ρ) c)

end Cert.KernelIdeal.Value

end
-- ==== Proof.lean ====
/-
  Causal single-head attention, computed two ways, is one function of the four argument arrays over the extended reals.

  The kernel program scales the query weights by 1/8 and lays the three weight matrices side by side, projects the input
  rows by one matrix product per block of 512 rows, and then reads each block of 1024 query rows against the key and value
  blocks at or before it, keeping per row a running maximum, a running sum of exp (score − maximum) and that sum weighted
  by the value rows, each new key block rescaling what was kept by exp (old maximum − new maximum); the block on the
  diagonal masks the keys after the query row with a large negative number that the idealization reads as -∞; after
  the last key block the weighted sum is divided by the sum. The reference forms all 4096 × 4096 scores, masks them with
  -∞, and applies the softmax row by row.

  Both are shown equal, entry by entry, to one specification: the softmax-weighted sum of the value rows with the maximum
  and the sums taken over the whole row. For the kernel this is an induction over its grid points (the kept triple after
  k key blocks is the maximum, the sum and the weighted sum over the first 1024·k keys), the rescaling law
  exp (μ − μ') · exp (x − μ) = exp (x − μ') on the reals, the fact that keys scoring -∞ weigh nothing, and
  distributivity over finite sums of reals, which is where the finiteness of the inputs is used. The frames of the two
  kernel programs run each kernel body at every grid point from the buffers the pipeline hands it and thread the
  unscoped buffers' contents through the host operations and the two regions.
-/
import proofs.«132881_j16904991277416_2_alg».proof.Defs
import proofs.«132881_j16904991277416_2_alg».proof.Proof.Gen.Kernel
import proofs.«132881_j16904991277416_2_alg».proof.Proof.Gen.KernelIdeal
import proofs.«132881_j16904991277416_2_alg».proof.Proof.Gen.ReferenceIdeal
import proofs.«132881_j16904991277416_2_alg».proof.Proof.Gen.Pre_finite_inputs
import proofs.«132881_j16904991277416_2_alg».proof.Proof.Gen.ReferenceIdeal.Run
import proofs.«132881_j16904991277416_2_alg».proof.Proof.Gen.ReferenceIdeal.Read
import proofs.«132881_j16904991277416_2_alg».proof.Proof.Spec
import proofs.«132881_j16904991277416_2_alg».proof.Proof.Ref
import proofs.«132881_j16904991277416_2_alg».proof.Proof.KI.Run
import proofs.«132881_j16904991277416_2_alg».proof.Proof.K.Run
import proofs.«132881_j16904991277416_2_alg».proof.Proof.KI.Value
import Idealize.ShloMosaic.Adequacy
import Idealize.ShloMosaic.Init

noncomputable section

namespace Cert.Proof

open Idealize.ShloMosaic Idealize.SL.Sem

/-- The printed kernel at the word level runs to the end and leaves its arguments as launched. -/
theorem frame_k : Cert.frame_Kernel := fun m ρ _ => Cert.Kernel.Hand.frame m ρ
/-- The idealized kernel likewise. -/
theorem frame_ki : Cert.frame_KernelIdeal := fun m ρ _ => Cert.KernelIdeal.Hand.frame m ρ
/-- The idealized reference likewise: its run names the result and the arguments; the frame keeps the arguments. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask literal, a large negative f32 word, is read as -∞. -/
theorem preserves : Cert.preserves_Kernel_KernelIdeal :=
  IdealRules.named_const.statement Cert.KernelIdeal.κ "neg_big" .f32 0xFF333332#32 ⊥ rfl

/-- At the extended reals both programs end with the result array at the specification G of the four argument arrays. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨((h c _ (Cert.KernelIdeal.Hand.mem_uc Cert.KernelIdeal.main_v5 (by decide))).trans (Cert.KernelIdeal.Hand.W3_main_v5 m ρ c)).trans
          (Cert.KernelIdeal.Value.result_eq m ρ hpre c),
        (h c _ (Cert.KernelIdeal.Hand.mem_uc Cert.KernelIdeal.main_arg0 (by decide))).trans (Cert.KernelIdeal.Hand.W3_main_arg0 m ρ c),
        (h c _ (Cert.KernelIdeal.Hand.mem_uc Cert.KernelIdeal.main_arg1 (by decide))).trans (Cert.KernelIdeal.Hand.W3_main_arg1 m ρ c),
        (h c _ (Cert.KernelIdeal.Hand.mem_uc Cert.KernelIdeal.main_arg2 (by decide))).trans (Cert.KernelIdeal.Hand.W3_main_arg2 m ρ c),
        (h c _ (Cert.KernelIdeal.Hand.mem_uc Cert.KernelIdeal.main_arg3 (by decide))).trans (Cert.KernelIdeal.Hand.W3_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
